-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S16384x128 : Shape := ⟨2, ![16384, 128]⟩
abbrev S1 : Shape := ⟨1, ![1]⟩
abbrev S16384x32 : Shape := ⟨2, ![16384, 32]⟩
abbrev S128x128 : Shape := ⟨2, ![128, 128]⟩
abbrev S43x128 : Shape := ⟨2, ![43, 128]⟩
abbrev S128 : Shape := ⟨1, ![128]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S128x128 : S_.BroadcastsInDim S128x128 (![] : Fin 0 → Fin S128x128.rank)
  reducesTo_S128x128_S_d0_1 : S128x128.ReducesTo [0, 1] S_
  bcast_S_S43x128 : S_.BroadcastsInDim S43x128 (![] : Fin 0 → Fin S43x128.rank)
  reducesTo_S43x128_S_d0_1 : S43x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128 .f32) (main_arg12 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S43x128 .f32) (main_arg7 : FVec F S128 .f32) (main_arg8 : FVec F S128 .f32) (main_arg9 : FVec F S128 .f32) (main_arg10 : FVec F S128 .f32) (main_arg11 : FVec F S128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S43x128 .f32 := Host.absf main_arg6
  let main_cst_6 : FVec F S_ .f32 := constant S_ .f32 0x7F800000#32
  let main_v20 : FVec F S43x128 .f32 := broadcastInDim S43x128 ![] bcast_S_S43x128 main_cst_6
  let main_v21 : IVec S43x128 1 := cmpf .olt main_v19 main_v20
  let main_c_7 : IVec S_ 1 := constantI S_ 1 1#1
  let main_v22 : IVec S_ 1 := (fun x v => Host.reduce IntOp.andi x v reducesTo_S43x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S16384x3 .f32) (main_arg1 : FVec F S16384x128 .f32) (main_arg2 : IVec S1 32) (main_arg3 : IVec S16384x32 32) (main_arg4 : FVec F S128x128 .f32) (main_arg5 : FVec F S128x128 .f32) (main_arg6 : FVec F S43x128 .f32) (main_arg7 : FVec F S128 .f32) (main_arg8 : FVec F S128 .f32) (main_arg9 : FVec F S128 .f32) (main_arg10 : FVec F S128 .f32) (main_arg11 : FVec F S128 .f32) (main_arg12 : FVec F S128 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S16384x3 : Shape := ⟨2, ![16384, 3]⟩
abbrev S16384x128 : Shape := ⟨2, ![16384, 128]⟩
abbrev S1 : Shape := ⟨1, ![1]⟩
abbrev S16384x32 : Shape := ⟨2, ![16384, 32]⟩
abbrev S128x128 : Shape := ⟨2, ![128, 128]⟩
abbrev S43x128 : Shape := ⟨2, ![43, 128]⟩
abbrev S128 : Shape := ⟨1, ![128]⟩
abbrev S3x43 : Shape := ⟨2, ![3, 43]⟩
abbrev S1x128 : Shape := ⟨2, ![1, 128]⟩
abbrev S_ : Shape := ⟨0, ![]⟩
abbrev S1x3 : Shape := ⟨2, ![1, 3]⟩
abbrev S16385x3 : Shape := ⟨2, ![16385, 3]⟩
abbrev S16385x128 : Shape := ⟨2, ![16385, 128]⟩
abbrev S16384x32x1 : Shape := ⟨3, ![16384, 32, 1]⟩
abbrev S16384x32x3 : Shape := ⟨3, ![16384, 32, 3]⟩
abbrev S16384x1x3 : Shape := ⟨3, ![16384, 1, 3]⟩
abbrev S16384x32x128 : Shape := ⟨3, ![16384, 32, 128]⟩
abbrev S256x32x3 : Shape := ⟨3, ![256, 32, 3]⟩
abbrev S256x32x128 : Shape := ⟨3, ![256, 32, 128]⟩
abbrev S256x128 : Shape := ⟨2, ![256, 128]⟩
abbrev S256x32x1 : Shape := ⟨3, ![256, 32, 1]⟩
abbrev S1x43 : Shape := ⟨2, ![1, 43]⟩
abbrev S1x1x43 : Shape := ⟨3, ![1, 1, 43]⟩
abbrev S256x32x43 : Shape := ⟨3, ![256, 32, 43]⟩
abbrev S8192x43 : Shape := ⟨2, ![8192, 43]⟩
abbrev S8192x128 : Shape := ⟨2, ![8192, 128]⟩

abbrev nBuf : Space → Nat
  | .hbm => 50
  | .vmem => 21
  | .smem => 0
  | _ => 0

abbrev bufTy : (tb : Table) → Fin (tcTables nBuf tb) → BufTy
  | .hbm, ⟨0, _⟩ => ⟨S16384x3, .f32⟩
  | .hbm, ⟨1, _⟩ => ⟨S16384x128, .f32⟩
  | .hbm, ⟨2, _⟩ => ⟨S1, .i32⟩
  | .hbm, ⟨3, _⟩ => ⟨S16384x32, .i32⟩
  | .hbm, ⟨4, _⟩ => ⟨S128x128, .f32⟩
  | .hbm, ⟨5, _⟩ => ⟨S128x128, .f32⟩
  | .hbm, ⟨6, _⟩ => ⟨S43x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S3x43, .f32⟩
  | .hbm, ⟨14, _⟩ => ⟨S1x128, .f32⟩
  | .hbm, ⟨15, _⟩ => ⟨S1x128, .f32⟩
  | .hbm, ⟨16, _⟩ => ⟨S16384x128, .f32⟩
  | .hbm, ⟨17, _⟩ => ⟨S_, .f32⟩
  | .hbm, ⟨18, _⟩ => ⟨S1x3, .f32⟩
  | .hbm, ⟨19, _⟩ => ⟨S16385x3, .f32⟩
  | .hbm, ⟨20, _⟩ => ⟨S_, .f32⟩
  | .hbm, ⟨21, _⟩ => ⟨S1x128, .f32⟩
  | .hbm, ⟨22, _⟩ => ⟨S16385x128, .f32⟩
  | .hbm, ⟨23, _⟩ => ⟨S_, .i32⟩
  | .hbm, ⟨24, _⟩ => ⟨S16384x32, .i32⟩
  | .hbm, ⟨25, _⟩ => ⟨S16384x32, .i1⟩
  | .hbm, ⟨26, _⟩ => ⟨S_, .i32⟩
  | .hbm, ⟨27, _⟩ => ⟨S16384x32, .i32⟩
  | .hbm, ⟨28, _⟩ => ⟨S16384x32, .i32⟩
  | .hbm, ⟨29, _⟩ => ⟨S16384x32, .i32⟩
  | .hbm, ⟨30, _⟩ => ⟨S16384x32x1, .i32⟩
  | .hbm, ⟨31, _⟩ => ⟨S16384x32x3, .f32⟩
  | .hbm, ⟨32, _⟩ => ⟨S16384x1x3, .f32⟩
  | .hbm, ⟨33, _⟩ => ⟨S16384x32x3, .f32⟩
  | .hbm, ⟨34, _⟩ => ⟨S16384x32x3, .f32⟩
  | .hbm, ⟨35, _⟩ => ⟨S_, .i32⟩
  | .hbm, ⟨36, _⟩ => ⟨S16384x32, .i32⟩
  | .hbm, ⟨37, _⟩ => ⟨S16384x32, .i1⟩
  | .hbm, ⟨38, _⟩ => ⟨S_, .i32⟩
  | .hbm, ⟨39, _⟩ => ⟨S16384x32, .i32⟩
  | .hbm, ⟨40, _⟩ => ⟨S16384x32, .i32⟩
  | .hbm, ⟨41, _⟩ => ⟨S16384x32, .i32⟩
  | .hbm, ⟨42, _⟩ => ⟨S16384x32x1, .i32⟩
  | .hbm, ⟨43, _⟩ => ⟨S16384x32x128, .f32⟩
  | .hbm, ⟨44, _⟩ => ⟨S16384x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S16384x128, .f32⟩
  | .local _ .vmem, ⟨0, _⟩ => ⟨S16384x128, .f32⟩
  | .local _ .vmem, ⟨1, _⟩ => ⟨S128x128, .f32⟩
  | .local _ .vmem, ⟨2, _⟩ => ⟨S1x128, .f32⟩
  | .local _ .vmem, ⟨3, _⟩ => ⟨S1x128, .f32⟩
  | .local _ .vmem, ⟨4, _⟩ => ⟨S16384x128, .f32⟩
  | .local _ .vmem, ⟨5, _⟩ => ⟨S256x32x3, .f32⟩
  | .local _ .vmem, ⟨6, _⟩ => ⟨S256x32x3, .f32⟩
  | .local _ .vmem, ⟨7, _⟩ => ⟨S256x32x128, .f32⟩
  | .local _ .vmem, ⟨8, _⟩ => ⟨S256x32x128, .f32⟩
  | .local _ .vmem, ⟨9, _⟩ => ⟨S43x128, .f32⟩
  | .local _ .vmem, ⟨10, _⟩ => ⟨S3x43, .f32⟩
  | .local _ .vmem, ⟨11, _⟩ => ⟨S256x128, .f32⟩
  | .local _ .vmem, ⟨12, _⟩ => ⟨S256x128, .f32⟩
  | .local _ .vmem, ⟨13, _⟩ => ⟨S16384x128, .f32⟩
  | .local _ .vmem, ⟨14, _⟩ => ⟨S16384x128, .f32⟩
  | .local _ .vmem, ⟨15, _⟩ => ⟨S128x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S16384x128, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16384x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16384x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x32x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S43x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x43 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S16384x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S16384x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S16384x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  shapeCasts_S128_S1x128 : S128.ShapeCasts S1x128
  inb_S16384x128_S16384x128_0_0 : ∀ a, (![0, 0] : Fin 2 → Nat) a + S16384x128.size a ≤ S16384x128.size a
  h_S16384x128 : 0 < S16384x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  reduces_S16384x128_S128 : S16384x128.Reduces [0] S128
  broadcasts_S1x128_S16384x128 : S1x128.Broadcasts S16384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bcast_S_S1x3 : S_.BroadcastsInDim S1x3 (![] : Fin 0 → Fin S1x3.rank)
  concatenates_S16384x3_S1x3_S16385x3_d0 : Shape.Concatenates [S16384x3, S1x3] S16385x3 0
  bcast_S_S1x128 : S_.BroadcastsInDim S1x128 (![] : Fin 0 → Fin S1x128.rank)
  concatenates_S16384x128_S1x128_S16385x128_d0 : Shape.Concatenates [S16384x128, S1x128] S16385x128 0
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  bcast_S16384x3_S16384x1x3_0_2 : S16384x3.BroadcastsInDim S16384x1x3 (![0, 2] : Fin 2 → Fin S16384x1x3.rank)
  bcast_S16384x1x3_S16384x32x3_0_1_2 : S16384x1x3.BroadcastsInDim S16384x32x3 (![0, 1, 2] : Fin 3 → Fin S16384x32x3.rank)
  inb_S256x32x3_S256x32x3_0_0_0 : ∀ a, (![0, 0, 0] : Fin 3 → Nat) a + S256x32x3.size a ≤ S256x32x3.size a
  h_S256x32x3 : 0 < S256x32x3.numel
  shapeCasts_S256x32x3_S256x32x3 : S256x32x3.ShapeCasts S256x32x3
  slices_S256x32x3_o0_0_0_S256x32x1 : S256x32x3.Slices ![0, 0, 0] S256x32x1
  slices_S256x32x3_o0_0_1_S256x32x1 : S256x32x3.Slices ![0, 0, 1] S256x32x1
  slices_S256x32x3_o0_0_2_S256x32x1 : S256x32x3.Slices ![0, 0, 2] S256x32x1
  inb_S3x43_S3x43_0_0 : ∀ a, (![0, 0] : Fin 2 → Nat) a + S3x43.size a ≤ S3x43.size a
  h_S3x43 : 0 < S3x43.numel
  slices_S3x43_o0_0_S1x43 : S3x43.Slices ![0, 0] S1x43
  slices_S3x43_o1_0_S1x43 : S3x43.Slices ![1, 0] S1x43
  slices_S3x43_o2_0_S1x43 : S3x43.Slices ![2, 0] S1x43
  shapeCasts_S1x43_S1x1x43 : S1x43.ShapeCasts S1x1x43
  broadcasts_S256x32x1_S256x32x43 : S256x32x1.Broadcasts S256x32x43
  broadcasts_S1x1x43_S256x32x43 : S1x1x43.Broadcasts S256x32x43
  shapeCasts_S256x32x43_S8192x43 : S256x32x43.ShapeCasts S8192x43
  inb_S43x128_S43x128_0_0 : ∀ a, (![0, 0] : Fin 2 → Nat) a + S43x128.size a ≤ S43x128.size a
  h_S43x128 : 0 < S43x128.numel
  shapeCasts_S8192x128_S256x32x128 : S8192x128.ShapeCasts S256x32x128
  inb_S256x32x128_S256x32x128_0_0_0 : ∀ a, (![0, 0, 0] : Fin 3 → Nat) a + S256x32x128.size a ≤ S256x32x128.size a
  h_S256x32x128 : 0 < S256x32x128.numel
  shapeCasts_S256x32x128_S256x32x128 : S256x32x128.ShapeCasts S256x32x128
  reduces_S256x32x128_S256x128 : S256x32x128.Reduces [1] S256x128
  inb_S256x128_S256x128_0_0 : ∀ a, (![0, 0] : Fin 2 → Nat) a + S256x128.size a ≤ S256x128.size a
  h_S256x128 : 0 < S256x128.numel
  shapeCasts_S16384x128_S16384x128 : S16384x128.ShapeCasts S16384x128
  dot_S16384x128_S128x128_S16384x128_1_0_0_1_n_n_wf : DotDims.WF S16384x128 S128x128 S16384x128 [1] [0] [0] [1] [] []
  gather_S16385x3_S16384x32x1_S16384x32x3_2_0_n_n_0_2_13_wf : GatherDims.WF S16385x3 S16384x32x1 S16384x32x3 [2] [0] [] [0] [] 2 ![1, 3]
  gather_S16385x128_S16384x32x1_S16384x32x128_2_0_n_n_0_2_1128_wf : GatherDims.WF S16385x128 S16384x32x1 S16384x32x128 [2] [0] [] [0] [] 2 ![1, 128]
  dot_S8192x43_S43x128_S8192x128_1_0_0_1_n_n_wf : DotDims.WF S8192x43 S43x128 S8192x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S16384x128.size a
  hwx0_0 : ∀ i : grid0.Coords, EltTy.bits .f32 = 32 ∨ (Rect.block (s := S16384x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16384x128.size a ≤ S16384x128.size a
  hwx0_4 : ∀ i : grid0.Coords, EltTy.bits .f32 = 32 ∨ (Rect.block (s := S16384x128) S16384x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x32x3.size a ≤ S16384x32x3.size a
  hwx1_0 : ∀ i : grid1.Coords, EltTy.bits .f32 = 32 ∨ (Rect.block (s := S16384x32x3) S256x32x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x32x128.size a ≤ S16384x32x128.size a
  hwx1_1 : ∀ i : grid1.Coords, EltTy.bits .f32 = 32 ∨ (Rect.block (s := S16384x32x128) S256x32x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S43x128.size a ≤ S43x128.size a
  hwx1_2 : ∀ i : grid1.Coords, EltTy.bits .f32 = 32 ∨ (Rect.block (s := S43x128) S43x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x43.size a ≤ S3x43.size a
  hwx1_3 : ∀ i : grid1.Coords, EltTy.bits .f32 = 32 ∨ (Rect.block (s := S3x43) S3x43.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S16384x128.size a
  hwx1_4 : ∀ i : grid1.Coords, EltTy.bits .f32 = 32 ∨ (Rect.block (s := S16384x128) S256x128.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S16384x128.size a ≤ S16384x128.size a
  hwx2_0 : ∀ i : grid2.Coords, EltTy.bits .f32 = 32 ∨ (Rect.block (s := S16384x128) S16384x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16384x128.size a ≤ S16384x128.size a
  hwx2_1 : ∀ i : grid2.Coords, EltTy.bits .f32 = 32 ∨ (Rect.block (s := S16384x128) S16384x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S16384x128.size a ≤ S16384x128.size a
  hwx2_7 : ∀ i : grid2.Coords, EltTy.bits .f32 = 32 ∨ (Rect.block (s := S16384x128) S16384x128.size (cc2_transform_7 i) (hinb2_7 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def gather_S16385x3_S16384x32x1_S16384x32x3_2_0_n_n_0_2_13 : GatherDims S16385x3 S16384x32x1 S16384x32x3 where
  offsetDims := [2]
  collapsedSliceDims := [0]
  operandBatchingDims := []
  startIndicesBatchingDims := []
  startIndexMap := [0]
  indexVectorDim := 2
  sliceSizes := ![1, 3]
  wf := gather_S16385x3_S16384x32x1_S16384x32x3_2_0_n_n_0_2_13_wf
def gather_S16385x128_S16384x32x1_S16384x32x128_2_0_n_n_0_2_1128 : GatherDims S16385x128 S16384x32x1 S16384x32x128 where
  offsetDims := [2]
  collapsedSliceDims := [0]
  operandBatchingDims := []
  startIndicesBatchingDims := []
  startIndexMap := [0]
  indexVectorDim := 2
  sliceSizes := ![1, 128]
  wf := gather_S16385x128_S16384x32x1_S16384x32x128_2_0_n_n_0_2_1128_wf
def dot_S8192x43_S43x128_S8192x128_1_0_0_1_n_n : DotDims S8192x43 S43x128 S8192x128 where
  lhsContracting := [1]
  rhsContracting := [0]
  lhsNonContracting := [0]
  rhsNonContracting := [1]
  lhsBatch := []
  rhsBatch := []
  wf := dot_S8192x43_S43x128_S8192x128_1_0_0_1_n_n_wf

abbrev win0_0 : Pipeline.Window sig grid0 :=
  Pipeline.Window.ofSpec (Memref.whole main_arg1) S16384x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S16384x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v16) S256x32x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S256x32x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S43x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_cst) S3x43.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S256x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S16384x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S16384x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v29) S16384x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S16384x3 : Shape := ⟨2, ![16384, 3]⟩
abbrev S16384x128 : Shape := ⟨2, ![16384, 128]⟩
abbrev S1 : Shape := ⟨1, ![1]⟩
abbrev S16384x32 : Shape := ⟨2, ![16384, 32]⟩
abbrev S128x128 : Shape := ⟨2, ![128, 128]⟩
abbrev S43x128 : Shape := ⟨2, ![43, 128]⟩
abbrev S128 : Shape := ⟨1, ![128]⟩
abbrev S43x3 : Shape := ⟨2, ![43, 3]⟩
abbrev S_ : Shape := ⟨0, ![]⟩
abbrev S1x128 : Shape := ⟨2, ![1, 128]⟩
abbrev S1x3 : Shape := ⟨2, ![1, 3]⟩
abbrev S16385x3 : Shape := ⟨2, ![16385, 3]⟩
abbrev S16385x128 : Shape := ⟨2, ![16385, 128]⟩
abbrev S16384x32x1 : Shape := ⟨3, ![16384, 32, 1]⟩
abbrev S16384x32x3 : Shape := ⟨3, ![16384, 32, 3]⟩
abbrev S16384x1x3 : Shape := ⟨3, ![16384, 1, 3]⟩
abbrev S16384x32x1x3 : Shape := ⟨4, ![16384, 32, 1, 3]⟩
abbrev S1x1x43x3 : Shape := ⟨4, ![1, 1, 43, 3]⟩
abbrev S16384x32x43x3 : Shape := ⟨4, ![16384, 32, 43, 3]⟩
abbrev S16384x32x43 : Shape := ⟨3, ![16384, 32, 43]⟩
abbrev S16384x32x128 : Shape := ⟨3, ![16384, 32, 128]⟩
abbrev S16384x43x128 : Shape := ⟨3, ![16384, 43, 128]⟩
abbrev S1x43x128 : Shape := ⟨3, ![1, 43, 128]⟩

abbrev nBuf : Space → Nat
  | .hbm => 170
  | .vmem => 0
  | .smem => 0
  | _ => 0

abbrev hbmTy0_0 (i : Nat) : BufTy := match i % 128 with
  | 0 => ⟨S16384x3, .f32⟩
  | 1 => ⟨S16384x128, .f32⟩
  | 2 => ⟨S1, .i32⟩
  | 3 => ⟨S16384x32, .i32⟩
  | 4 => ⟨S128x128, .f32⟩
  | 5 => ⟨S128x128, .f32⟩
  | 6 => ⟨S43x128, .f32⟩
  | 7 => ⟨S128, .f32⟩
  | 8 => ⟨S128, .f32⟩
  | 9 => ⟨S128, .f32⟩
  | 10 => ⟨S128, .f32⟩
  | 11 => ⟨S128, .f32⟩
  | 12 => ⟨S128, .f32⟩
  | 13 => ⟨S43x3, .f32⟩
  | 14 => ⟨S128x128, .f32⟩
  | 15 => ⟨S16384x128, .f32⟩
  | 16 => ⟨S_, .f32⟩
  | 17 => ⟨S128, .f32⟩
  | 18 => ⟨S_, .f32⟩
  | 19 => ⟨S128, .f32⟩
  | 20 => ⟨S128, .f32⟩
  | 21 => ⟨S1x128, .f32⟩
  | 22 => ⟨S16384x128, .f32⟩
  | 23 => ⟨S16384x128, .f32⟩
  | 24 => ⟨S16384x128, .f32⟩
  | 25 => ⟨S_, .f32⟩
  | 26 => ⟨S128, .f32⟩
  | 27 => ⟨S_, .f32⟩
  | 28 => ⟨S128, .f32⟩
  | 29 => ⟨S128, .f32⟩
  | 30 => ⟨S1x128, .f32⟩
  | 31 => ⟨S16384x128, .f32⟩
  | 32 => ⟨S16384x128, .f32⟩
  | 33 => ⟨S_, .f32⟩
  | 34 => ⟨S128, .f32⟩
  | 35 => ⟨S128, .f32⟩
  | 36 => ⟨S128, .f32⟩
  | 37 => ⟨S1x128, .f32⟩
  | 38 => ⟨S16384x128, .f32⟩
  | 39 => ⟨S16384x128, .f32⟩
  | 40 => ⟨S1x128, .f32⟩
  | 41 => ⟨S16384x128, .f32⟩
  | 42 => ⟨S16384x128, .f32⟩
  | 43 => ⟨S1x128, .f32⟩
  | 44 => ⟨S16384x128, .f32⟩
  | 45 => ⟨S16384x128, .f32⟩
  | 46 => ⟨S_, .f32⟩
  | 47 => ⟨S16384x128, .f32⟩
  | 48 => ⟨S16384x128, .f32⟩
  | 49 => ⟨S_, .f32⟩
  | 50 => ⟨S1x3, .f32⟩
  | 51 => ⟨S16385x3, .f32⟩
  | 52 => ⟨S_, .f32⟩
  | 53 => ⟨S1x128, .f32⟩
  | 54 => ⟨S16385x128, .f32⟩
  | 55 => ⟨S_, .i32⟩
  | 56 => ⟨S16384x32, .i32⟩
  | 57 => ⟨S16384x32, .i1⟩
  | 58 => ⟨S_, .i32⟩
  | 59 => ⟨S16384x32, .i32⟩
  | 60 => ⟨S16384x32, .i32⟩
  | 61 => ⟨S16384x32, .i32⟩
  | 62 => ⟨S16384x32x1, .i32⟩
  | 63 => ⟨S16384x32x3, .f32⟩
  | 64 => ⟨S16384x1x3, .f32⟩
  | 65 => ⟨S16384x32x3, .f32⟩
  | 66 => ⟨S16384x32x3, .f32⟩
  | 67 => ⟨S16384x32x1x3, .f32⟩
  | 68 => ⟨S1x1x43x3, .f32⟩
  | 69 => ⟨S16384x32x43x3, .f32⟩
  | 70 => ⟨S16384x32x43x3, .f32⟩
  | 71 => ⟨S16384x32x43x3, .f32⟩
  | 72 => ⟨S16384x32x43x3, .f32⟩
  | 73 => ⟨S_, .f32⟩
  | 74 => ⟨S16384x32x43, .f32⟩
  | 75 => ⟨S16384x32x43, .f32⟩
  | 76 => ⟨S_, .f32⟩
  | 77 => ⟨S16384x32x43, .f32⟩
  | 78 => ⟨S16384x32x43, .f32⟩
  | 79 => ⟨S_, .f32⟩
  | 80 => ⟨S16384x32x43, .f32⟩
  | 81 => ⟨S16384x32x43, .f32⟩
  | 82 => ⟨S_, .f32⟩
  | 83 => ⟨S_, .f32⟩
  | 84 => ⟨S16384x32x43, .f32⟩
  | 85 => ⟨S16384x32x43, .f32⟩
  | 86 => ⟨S_, .i32⟩
  | 87 => ⟨S16384x32, .i32⟩
  | 88 => ⟨S16384x32, .i1⟩
  | 89 => ⟨S_, .i32⟩
  | 90 => ⟨S16384x32, .i32⟩
  | 91 => ⟨S16384x32, .i32⟩
  | 92 => ⟨S16384x32, .i32⟩
  | 93 => ⟨S16384x32x1, .i32⟩
  | 94 => ⟨S16384x32x128, .f32⟩
  | 95 => ⟨S16384x43x128, .f32⟩
  | 96 => ⟨S1x43x128, .f32⟩
  | 97 => ⟨S16384x43x128, .f32⟩
  | 98 => ⟨S16384x43x128, .f32⟩
  | 99 => ⟨S_, .f32⟩
  | 100 => ⟨S16384x128, .f32⟩
  | 101 => ⟨S_, .f32⟩
  | 102 => ⟨S128, .f32⟩
  | 103 => ⟨S_, .f32⟩
  | 104 => ⟨S128, .f32⟩
  | 105 => ⟨S128, .f32⟩
  | 106 => ⟨S1x128, .f32⟩
  | 107 => ⟨S16384x128, .f32⟩
  | 108 => ⟨S16384x128, .f32⟩
  | 109 => ⟨S16384x128, .f32⟩
  | 110 => ⟨S_, .f32⟩
  | 111 => ⟨S128, .f32⟩
  | 112 => ⟨S_, .f32⟩
  | 113 => ⟨S128, .f32⟩
  | 114 => ⟨S128, .f32⟩
  | 115 => ⟨S1x128, .f32⟩
  | 116 => ⟨S16384x128, .f32⟩
  | 117 => ⟨S16384x128, .f32⟩
  | 118 => ⟨S_, .f32⟩
  | 119 => ⟨S128, .f32⟩
  | 120 => ⟨S128, .f32⟩
  | 121 => ⟨S128, .f32⟩
  | 122 => ⟨S1x128, .f32⟩
  | 123 => ⟨S16384x128, .f32⟩
  | 124 => ⟨S16384x128, .f32⟩
  | 125 => ⟨S1x128, .f32⟩
  | 126 => ⟨S16384x128, .f32⟩
  | 127 => ⟨S16384x128, .f32⟩
  | _ => ⟨S16384x3, .f32⟩

abbrev hbmTy0_1 (i : Nat) : BufTy := match i % 128 with
  | 0 => ⟨S1x128, .f32⟩
  | 1 => ⟨S16384x128, .f32⟩
  | 2 => ⟨S16384x128, .f32⟩
  | 3 => ⟨S_, .f32⟩
  | 4 => ⟨S16384x128, .f32⟩
  | 5 => ⟨S16384x128, .f32⟩
  | 6 => ⟨S128x128, .f32⟩
  | 7 => ⟨S16384x128, .f32⟩
  | 8 => ⟨S_, .f32⟩
  | 9 => ⟨S128, .f32⟩
  | 10 => ⟨S_, .f32⟩
  | 11 => ⟨S128, .f32⟩
  | 12 => ⟨S128, .f32⟩
  | 13 => ⟨S1x128, .f32⟩
  | 14 => ⟨S16384x128, .f32⟩
  | 15 => ⟨S16384x128, .f32⟩
  | 16 => ⟨S16384x128, .f32⟩
  | 17 => ⟨S_, .f32⟩
  | 18 => ⟨S128, .f32⟩
  | 19 => ⟨S_, .f32⟩
  | 20 => ⟨S128, .f32⟩
  | 21 => ⟨S128, .f32⟩
  | 22 => ⟨S1x128, .f32⟩
  | 23 => ⟨S16384x128, .f32⟩
  | 24 => ⟨S16384x128, .f32⟩
  | 25 => ⟨S_, .f32⟩
  | 26 => ⟨S128, .f32⟩
  | 27 => ⟨S128, .f32⟩
  | 28 => ⟨S128, .f32⟩
  | 29 => ⟨S1x128, .f32⟩
  | 30 => ⟨S16384x128, .f32⟩
  | 31 => ⟨S16384x128, .f32⟩
  | 32 => ⟨S1x128, .f32⟩
  | 33 => ⟨S16384x128, .f32⟩
  | 34 => ⟨S16384x128, .f32⟩
  | 35 => ⟨S1x128, .f32⟩
  | 36 => ⟨S16384x128, .f32⟩
  | 37 => ⟨S16384x128, .f32⟩
  | 38 => ⟨S16384x128, .f32⟩
  | 39 => ⟨S_, .f32⟩
  | 40 => ⟨S16384x128, .f32⟩
  | 41 => ⟨S16384x128, .f32⟩
  | _ => ⟨S16384x3, .f32⟩

abbrev hbmTy (i : Nat) : BufTy := match i / 128 with
  | 0 => hbmTy0_0 i
  | 1 => hbmTy0_1 i
  | _ => ⟨S16384x3, .f32⟩

abbrev bufTy : (tb : Table) → Fin (tcTables nBuf tb) → BufTy
  | .hbm, ⟨i, _⟩ => hbmTy i
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_cst_1 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_c : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_v53 : Ref sig .tc := ⟨.hbm, 81, rfl⟩
abbrev main_cst_11 : Ref sig .tc := ⟨.hbm, 82, rfl⟩
abbrev main_call1_v0 : Ref sig .tc := ⟨.hbm, 83, rfl⟩
abbrev main_call1_v1 : Ref sig .tc := ⟨.hbm, 84, rfl⟩
abbrev main_v54 : Ref sig .tc := ⟨.hbm, 85, rfl⟩
abbrev main_c_12 : Ref sig .tc := ⟨.hbm, 86, rfl⟩
abbrev main_v55 : Ref sig .tc := ⟨.hbm, 87, rfl⟩
abbrev main_v56 : Ref sig .tc := ⟨.hbm, 88, rfl⟩
abbrev main_c_13 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_14 : Ref sig .tc := ⟨.hbm, 99, rfl⟩
abbrev main_v66 : Ref sig .tc := ⟨.hbm, 100, rfl⟩
abbrev main_cst_15 : Ref sig .tc := ⟨.hbm, 101, rfl⟩
abbrev main_v67 : Ref sig .tc := ⟨.hbm, 102, rfl⟩
abbrev main_cst_16 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_17 : Ref sig .tc := ⟨.hbm, 110, rfl⟩
abbrev main_v74 : Ref sig .tc := ⟨.hbm, 111, rfl⟩
abbrev main_cst_18 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_19 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_call2_cst : Ref sig .tc := ⟨.hbm, 131, rfl⟩
abbrev main_call2_v0 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_20 : Ref sig .tc := ⟨.hbm, 136, rfl⟩
abbrev main_v95 : Ref sig .tc := ⟨.hbm, 137, rfl⟩
abbrev main_cst_21 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_22 : Ref sig .tc := ⟨.hbm, 145, rfl⟩
abbrev main_v102 : Ref sig .tc := ⟨.hbm, 146, rfl⟩
abbrev main_cst_23 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_24 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_call3_cst : Ref sig .tc := ⟨.hbm, 167, rfl⟩
abbrev main_call3_v0 : Ref sig .tc := ⟨.hbm, 168, rfl⟩
abbrev main_v121 : Ref sig .tc := ⟨.hbm, 169, rfl⟩

abbrev nD : Nat := 1
abbrev τ : Topo := Topo.v7x

variable {F : FTy → Type} [FloatOps F]

class Facts₀ : Prop where
  transposes_S128x128_S128x128_1_0 : S128x128.Transposes [1, 0] S128x128
  reducesTo_S16384x128_S128_d0 : S16384x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S_S1x3 : S_.BroadcastsInDim S1x3 (![] : Fin 0 → Fin S1x3.rank)
  concatenates_S16384x3_S1x3_S16385x3_d0 : Shape.Concatenates [S16384x3, S1x3] S16385x3 0
  bcast_S_S1x128 : S_.BroadcastsInDim S1x128 (![] : Fin 0 → Fin S1x128.rank)
  concatenates_S16384x128_S1x128_S16385x128_d0 : Shape.Concatenates [S16384x128, S1x128] S16385x128 0
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  bcast_S16384x3_S16384x1x3_0_2 : S16384x3.BroadcastsInDim S16384x1x3 (![0, 2] : Fin 2 → Fin S16384x1x3.rank)
  bcast_S16384x1x3_S16384x32x3_0_1_2 : S16384x1x3.BroadcastsInDim S16384x32x3 (![0, 1, 2] : Fin 3 → Fin S16384x32x3.rank)
  bcast_S16384x32x3_S16384x32x1x3_0_1_3 : S16384x32x3.BroadcastsInDim S16384x32x1x3 (![0, 1, 3] : Fin 3 → Fin S16384x32x1x3.rank)
  bcast_S43x3_S1x1x43x3_2_3 : S43x3.BroadcastsInDim S1x1x43x3 (![2, 3] : Fin 2 → Fin S1x1x43x3.rank)
  bcast_S16384x32x1x3_S16384x32x43x3_0_1_2_3 : S16384x32x1x3.BroadcastsInDim S16384x32x43x3 (![0, 1, 2, 3] : Fin 4 → Fin S16384x32x43x3.rank)
  bcast_S1x1x43x3_S16384x32x43x3_0_1_2_3 : S1x1x43x3.BroadcastsInDim S16384x32x43x3 (![0, 1, 2, 3] : Fin 4 → Fin S16384x32x43x3.rank)
  reducesTo_S16384x32x43x3_S16384x32x43_d3 : S16384x32x43x3.ReducesTo [3] S16384x32x43
  bcast_S_S16384x32x43 : S_.BroadcastsInDim S16384x32x43 (![] : Fin 0 → Fin S16384x32x43.rank)
  bcast_S43x128_S1x43x128_1_2 : S43x128.BroadcastsInDim S1x43x128 (![1, 2] : Fin 2 → Fin S1x43x128.rank)
  bcast_S1x43x128_S16384x43x128_0_1_2 : S1x43x128.BroadcastsInDim S16384x43x128 (![0, 1, 2] : Fin 3 → Fin S16384x43x128.rank)
  reducesTo_S16384x43x128_S16384x128_d1 : S16384x43x128.ReducesTo [1] S16384x128
  dot_S16384x128_S128x128_S16384x128_1_0_0_1_n_n_wf : DotDims.WF S16384x128 S128x128 S16384x128 [1] [0] [0] [1] [] []
  gather_S16385x3_S16384x32x1_S16384x32x3_2_0_n_n_0_2_13_wf : GatherDims.WF S16385x3 S16384x32x1 S16384x32x3 [2] [0] [] [0] [] 2 ![1, 3]
  gather_S16385x128_S16384x32x1_S16384x32x128_2_0_n_n_0_2_1128_wf : GatherDims.WF S16385x128 S16384x32x1 S16384x32x128 [2] [0] [] [0] [] 2 ![1, 128]
  dot_S16384x32x43_S16384x32x128_S16384x43x128_1_1_2_2_0_0_wf : DotDims.WF S16384x32x43 S16384x32x128 S16384x43x128 [1] [1] [2] [2] [0] [0]

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def gather_S16385x3_S16384x32x1_S16384x32x3_2_0_n_n_0_2_13 : GatherDims S16385x3 S16384x32x1 S16384x32x3 where
  offsetDims := [2]
  collapsedSliceDims := [0]
  operandBatchingDims := []
  startIndicesBatchingDims := []
  startIndexMap := [0]
  indexVectorDim := 2
  sliceSizes := ![1, 3]
  wf := gather_S16385x3_S16384x32x1_S16384x32x3_2_0_n_n_0_2_13_wf
def gather_S16385x128_S16384x32x1_S16384x32x128_2_0_n_n_0_2_1128 : GatherDims S16385x128 S16384x32x1 S16384x32x128 where
  offsetDims := [2]
  collapsedSliceDims := [0]
  operandBatchingDims := []
  startIndicesBatchingDims := []
  startIndexMap := [0]
  indexVectorDim := 2
  sliceSizes := ![1, 128]
  wf := gather_S16385x128_S16384x32x1_S16384x32x128_2_0_n_n_0_2_1128_wf
def dot_S16384x32x43_S16384x32x128_S16384x43x128_1_1_2_2_0_0 : DotDims S16384x32x43 S16384x32x128 S16384x43x128 where
  lhsContracting := [1]
  rhsContracting := [1]
  lhsNonContracting := [2]
  rhsNonContracting := [2]
  lhsBatch := [0]
  rhsBatch := [0]
  wf := dot_S16384x32x43_S16384x32x128_S16384x43x128_1_1_2_2_0_0_wf

class Facts : Prop extends Facts₀ where

variable [Facts]
-- ==== Proof.KernRun.lean ====
/-
  The idealized kernel's run with its result array named.

  @main is three launches among stretches of host operations.  The buffer contents at each boundary are a fold from
  the launch memory: a stretch applies its operations, a launch replaces its arrays by what the write-backs leave.
  Every weakly fair execution terminates, nothing faults, the thirteen argument arrays end as launched, and the
  result array (the third launch's output) ends at the last boundary's contents `W6`.
-/
import proofs.«171789_j3822520893918_1_alg».proof.Proof.Gen.KernelIdeal.Frame

set_option maxRecDepth 16384

noncomputable section

namespace Cert.KernelIdeal.GenV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: termination, no fault, the result array at the last boundary's contents, the arguments as
    launched. -/
theorem run_value : θ_run defs (onTc (τ := τ) (main (F := F))) ⟨m, fun _ => 0, ρ⟩ (fun r => ∀ c : Dev nD,
      r.2.mem ((c.tc : Thread nD τ).loc main_v29) = W6 m ρ c (Proc.devRef .tc main_v29) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v29 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.GenV

end
-- ==== Proof.GlueK.lean ====
/-
  The buffer contents at each boundary of the idealized kernel's @main, read at the buffers the three launches use.

  Before the first launch the host reshapes the two scale vectors to rows and writes the table of kernel points;
  between the first and the second it builds the relative positions and the gathered features; before the third it
  reshapes four more scale vectors.  A launch changes only its output array, a host stretch only the buffers its
  operations write; every other buffer is read back to the launch memory.
-/
import proofs.«171789_j3822520893918_1_alg».proof.Proof.Gen.KernelIdeal.Frame
import Idealize.ShloMosaic.Lib.StableHlo.Run
import Idealize.ShloMosaic.PureOps.Ideal

set_option maxRecDepth 16384

noncomputable section

namespace Cert.KernelIdeal.GenV

open Cert.KernelIdeal Cert.KernelIdeal.Gen
open Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## Before the first launch -/

theorem V1_v0 : V1 m ρ c main_v0 = shapeCast S1x128 (m ((c.tc : Thread nD τ).loc main_arg7)) shapeCasts_S128_S1x128 := by
  show StableHlo.after hostOps0 (W0 m ρ c) (Proc.devRef .tc main_v0) = _
  after_results <;> rfl

theorem V1_v1 : V1 m ρ c main_v1 = shapeCast S1x128 (m ((c.tc : Thread nD τ).loc main_arg8)) shapeCasts_S128_S1x128 := by
  show StableHlo.after hostOps0 (W0 m ρ c) (Proc.devRef .tc main_v1) = _
  after_results <;> rfl

theorem V1_cst : V1 m ρ c main_cst = fun i => FloatOps.ofBits (F := Ideal) .f32 (lit0 (S3x43.rowMajor i)) := by
  show StableHlo.after hostOps0 (W0 m ρ c) (Proc.devRef .tc main_cst) = _
  after_results <;> rfl

theorem V1_arg1 : V1 m ρ c main_arg1 = m ((c.tc : Thread nD τ).loc main_arg1) := by
  show StableHlo.after hostOps0 (W0 m ρ c) (Proc.devRef .tc main_arg1) = _
  after_results <;> rfl

theorem V1_arg4 : V1 m ρ c main_arg4 = m ((c.tc : Thread nD τ).loc main_arg4) := by
  show StableHlo.after hostOps0 (W0 m ρ c) (Proc.devRef .tc main_arg4) = _
  after_results <;> rfl

theorem W1_arg0 : W1 m ρ c (Proc.devRef .tc main_arg0) = m ((c.tc : Thread nD τ).loc main_arg0) := by
  show StableHlo.after hostOps0 (W0 m ρ c) (Proc.devRef .tc main_arg0) = _
  after_results <;> rfl
theorem W1_arg3 : W1 m ρ c (Proc.devRef .tc main_arg3) = m ((c.tc : Thread nD τ).loc main_arg3) := by
  show StableHlo.after hostOps0 (W0 m ρ c) (Proc.devRef .tc main_arg3) = _
  after_results <;> rfl
theorem W1_arg6 : W1 m ρ c (Proc.devRef .tc main_arg6) = m ((c.tc : Thread nD τ).loc main_arg6) := by
  show StableHlo.after hostOps0 (W0 m ρ c) (Proc.devRef .tc main_arg6) = _
  after_results <;> rfl

/-! ## After the first launch -/

theorem W2_v2 : W2 m ρ c (Proc.devRef .tc main_v2) = (dat0 (V1 m ρ) c).arrAt 4 cfg0.N := W2_arr m ρ c 4
theorem W2_arg0 : W2 m ρ c (Proc.devRef .tc main_arg0) = m ((c.tc : Thread nD τ).loc main_arg0) :=
  (W2_of_ne m ρ c main_arg0 (by decide)).trans (W1_arg0 m ρ c)
theorem W2_arg3 : W2 m ρ c (Proc.devRef .tc main_arg3) = m ((c.tc : Thread nD τ).loc main_arg3) :=
  (W2_of_ne m ρ c main_arg3 (by decide)).trans (W1_arg3 m ρ c)
theorem W2_arg6 : W2 m ρ c (Proc.devRef .tc main_arg6) = m ((c.tc : Thread nD τ).loc main_arg6) :=
  (W2_of_ne m ρ c main_arg6 (by decide)).trans (W1_arg6 m ρ c)
theorem W2_cst : W2 m ρ c (Proc.devRef .tc main_cst) = fun i => FloatOps.ofBits (F := Ideal) .f32 (lit0 (S3x43.rowMajor i)) :=
  (W2_of_ne m ρ c main_cst (by decide)).trans (V1_cst m ρ c)

/-! ## Before the second launch: the buffers the host stretch does not write -/

theorem V3_arg6 : V3 m ρ c main_arg6 = m ((c.tc : Thread nD τ).loc main_arg6) := by
  show StableHlo.after hostOps1 (W2 m ρ c) (Proc.devRef .tc main_arg6) = _
  after_results
  exact W2_arg6 m ρ c

theorem V3_cst : V3 m ρ c main_cst = fun i => FloatOps.ofBits (F := Ideal) .f32 (lit0 (S3x43.rowMajor i)) := by
  show StableHlo.after hostOps1 (W2 m ρ c) (Proc.devRef .tc main_cst) = _
  after_results
  exact W2_cst m ρ c

/-! ## After the second launch, and before the third -/

theorem W4_v24 : W4 m ρ c (Proc.devRef .tc main_v24) = (dat1 (V3 m ρ) c).arrAt 4 cfg1.N := W4_arr m ρ c 4

theorem V5_v24 : V5 m ρ c main_v24 = (dat1 (V3 m ρ) c).arrAt 4 cfg1.N := by
  show StableHlo.after hostOps2 (W4 m ρ c) (Proc.devRef .tc main_v24) = _
  after_results
  exact W4_v24 m ρ c

/-- The third launch reads two arguments through input windows: the launch leaves them as it found them, and they end
    as launched. -/
theorem V5_arg1 : V5 m ρ c main_arg1 = m ((c.tc : Thread nD τ).loc main_arg1) :=
  ((W6_arr m ρ c 1).trans (((dat2 (V5 m ρ) c).arrAt_in 1 rfl _).trans (A_eq2 (V5 m ρ) c 1))).symm.trans (W6_main_arg1 m ρ c)
theorem V5_arg5 : V5 m ρ c main_arg5 = m ((c.tc : Thread nD τ).loc main_arg5) :=
  ((W6_arr m ρ c 2).trans (((dat2 (V5 m ρ) c).arrAt_in 2 rfl _).trans (A_eq2 (V5 m ρ) c 2))).symm.trans (W6_main_arg5 m ρ c)

theorem W5_arg9 : W5 m ρ c (Proc.devRef .tc main_arg9) = m ((c.tc : Thread nD τ).loc main_arg9) :=
  (W6_of_ne m ρ c main_arg9 (by decide)).symm.trans (W6_main_arg9 m ρ c)
theorem W5_W4_arg9 : W5 m ρ c (Proc.devRef .tc main_arg9) = W4 m ρ c (Proc.devRef .tc main_arg9) := by
  show StableHlo.after hostOps2 (W4 m ρ c) (Proc.devRef .tc main_arg9) = _
  after_results <;> rfl
theorem W4_arg9 : W4 m ρ c (Proc.devRef .tc main_arg9) = m ((c.tc : Thread nD τ).loc main_arg9) :=
  (W5_W4_arg9 m ρ c).symm.trans (W5_arg9 m ρ c)
theorem V5_v25 : V5 m ρ c main_v25 = shapeCast S1x128 (m ((c.tc : Thread nD τ).loc main_arg9)) shapeCasts_S128_S1x128 := by
  show StableHlo.after hostOps2 (W4 m ρ c) (Proc.devRef .tc main_v25) = _
  after_results
  rw [W4_arg9]
  rfl

theorem W5_arg10 : W5 m ρ c (Proc.devRef .tc main_arg10) = m ((c.tc : Thread nD τ).loc main_arg10) :=
  (W6_of_ne m ρ c main_arg10 (by decide)).symm.trans (W6_main_arg10 m ρ c)
theorem W5_W4_arg10 : W5 m ρ c (Proc.devRef .tc main_arg10) = W4 m ρ c (Proc.devRef .tc main_arg10) := by
  show StableHlo.after hostOps2 (W4 m ρ c) (Proc.devRef .tc main_arg10) = _
  after_results <;> rfl
theorem W4_arg10 : W4 m ρ c (Proc.devRef .tc main_arg10) = m ((c.tc : Thread nD τ).loc main_arg10) :=
  (W5_W4_arg10 m ρ c).symm.trans (W5_arg10 m ρ c)
theorem V5_v26 : V5 m ρ c main_v26 = shapeCast S1x128 (m ((c.tc : Thread nD τ).loc main_arg10)) shapeCasts_S128_S1x128 := by
  show StableHlo.after hostOps2 (W4 m ρ c) (Proc.devRef .tc main_v26) = _
  after_results
  rw [W4_arg10]
  rfl

theorem W5_arg11 : W5 m ρ c (Proc.devRef .tc main_arg11) = m ((c.tc : Thread nD τ).loc main_arg11) :=
  (W6_of_ne m ρ c main_arg11 (by decide)).symm.trans (W6_main_arg11 m ρ c)
theorem W5_W4_arg11 : W5 m ρ c (Proc.devRef .tc main_arg11) = W4 m ρ c (Proc.devRef .tc main_arg11) := by
  show StableHlo.after hostOps2 (W4 m ρ c) (Proc.devRef .tc main_arg11) = _
  after_results <;> rfl
theorem W4_arg11 : W4 m ρ c (Proc.devRef .tc main_arg11) = m ((c.tc : Thread nD τ).loc main_arg11) :=
  (W5_W4_arg11 m ρ c).symm.trans (W5_arg11 m ρ c)
theorem V5_v27 : V5 m ρ c main_v27 = shapeCast S1x128 (m ((c.tc : Thread nD τ).loc main_arg11)) shapeCasts_S128_S1x128 := by
  show StableHlo.after hostOps2 (W4 m ρ c) (Proc.devRef .tc main_v27) = _
  after_results
  rw [W4_arg11]
  rfl

theorem W5_arg12 : W5 m ρ c (Proc.devRef .tc main_arg12) = m ((c.tc : Thread nD τ).loc main_arg12) :=
  (W6_of_ne m ρ c main_arg12 (by decide)).symm.trans (W6_main_arg12 m ρ c)
theorem W5_W4_arg12 : W5 m ρ c (Proc.devRef .tc main_arg12) = W4 m ρ c (Proc.devRef .tc main_arg12) := by
  show StableHlo.after hostOps2 (W4 m ρ c) (Proc.devRef .tc main_arg12) = _
  after_results <;> rfl
theorem W4_arg12 : W4 m ρ c (Proc.devRef .tc main_arg12) = m ((c.tc : Thread nD τ).loc main_arg12) :=
  (W5_W4_arg12 m ρ c).symm.trans (W5_arg12 m ρ c)
theorem V5_v28 : V5 m ρ c main_v28 = shapeCast S1x128 (m ((c.tc : Thread nD τ).loc main_arg12)) shapeCasts_S128_S1x128 := by
  show StableHlo.after hostOps2 (W4 m ρ c) (Proc.devRef .tc main_v28) = _
  after_results
  rw [W4_arg12]
  rfl

/-! ## The result array -/

theorem W6_v29 : W6 m ρ c (Proc.devRef .tc main_v29) = (dat2 (V5 m ρ) c).arrAt 7 cfg2.N := W6_arr m ρ c 7

end Cert.KernelIdeal.GenV

end
-- ==== Proof.RefB.lean ====
import proofs.«171789_j3822520893918_1_alg».proof.ReferenceIdeal
import Idealize.ShloMosaic.PureOps.Ideal

/-!
  The reference's neighbour-aggregation stage, written as pure terms over the argument arrays: each definition is
  the composition of the printed host operations, in the printed order, with the printed records and side conditions.

  * `relpos`: the coordinate table with one extra row of 1e6, gathered at the wrapped neighbour indices, minus the
    centre's own coordinates: relative positions, [16384, 32, 3].
  * `nfeats`: the feature table with one extra row of zeros, gathered at the same wrapped indices: [16384, 32, 128].
  * `tail`: squared distances to the 43 kernel points, the linear influence max(0, 1 − d / 1), the contraction of
    influences with neighbour features over the 32 neighbours, the product with the weights, the sum over kernel points.
-/

noncomputable section

namespace Cert.RefB

open Idealize.ShloMosaic Idealize.SL.Sem
open Cert.ReferenceIdeal
open Cert.ReferenceIdeal.Facts₀ Cert.ReferenceIdeal.Facts

variable [Cert.ReferenceIdeal.Facts]

/-- The neighbour indices with negative entries wrapped by the table length 16385, as a [16384, 32, 1] index tensor. -/
def wrapIdx (arg3 : (⟨S16384x32, .i32⟩ : BufTy).Contents (Elt Ideal)) : (⟨S16384x32x1, .i32⟩ : BufTy).Contents (Elt Ideal) :=
  (broadcastInDim S16384x32x1 ![0, 1] bcast_S16384x32_S16384x32x1_0_1 : (⟨S16384x32, .i32⟩ : BufTy).Contents (Elt Ideal) → (⟨S16384x32x1, .i32⟩ : BufTy).Contents (Elt Ideal))
    ((select : (⟨S16384x32, .i1⟩ : BufTy).Contents (Elt Ideal) → (⟨S16384x32, .i32⟩ : BufTy).Contents (Elt Ideal) → (⟨S16384x32, .i32⟩ : BufTy).Contents (Elt Ideal) → (⟨S16384x32, .i32⟩ : BufTy).Contents (Elt Ideal))
      ((cmpi .slt : (⟨S16384x32, .i32⟩ : BufTy).Contents (Elt Ideal) → (⟨S16384x32, .i32⟩ : BufTy).Contents (Elt Ideal) → (⟨S16384x32, .i1⟩ : BufTy).Contents (Elt Ideal)) arg3
        ((broadcastInDim S16384x32 ![] bcast_S_S16384x32 : (⟨S_, .i32⟩ : BufTy).Contents (Elt Ideal) → (⟨S16384x32, .i32⟩ : BufTy).Contents (Elt Ideal)) (constantI S_ 32 0#32)))
      ((addi : (⟨S16384x32, .i32⟩ : BufTy).Contents (Elt Ideal) → (⟨S16384x32, .i32⟩ : BufTy).Contents (Elt Ideal) → (⟨S16384x32, .i32⟩ : BufTy).Contents (Elt Ideal)) arg3
        ((broadcastInDim S16384x32 ![] bcast_S_S16384x32 : (⟨S_, .i32⟩ : BufTy).Contents (Elt Ideal) → (⟨S16384x32, .i32⟩ : BufTy).Contents (Elt Ideal)) (constantI S_ 32 16385#32)))
      arg3)

/-- The coordinate table: the 16384 points' coordinates followed by one row of 1e6. -/
def coordTable (arg0 : FVec Ideal S16384x3 .f32) : FVec Ideal S16385x3 .f32 :=
  ((fun a b => concatenate S16385x3 0 [⟨S16384x3, a⟩, ⟨S1x3, b⟩] concatenates_S16384x3_S1x3_S16385x3_d0) : FVec Ideal S16384x3 .f32 → FVec Ideal S1x3 .f32 → FVec Ideal S16385x3 .f32)
    arg0
    ((broadcastInDim S1x3 ![] bcast_S_S1x3 : FVec Ideal S_ .f32 → FVec Ideal S1x3 .f32) (constant (F := Ideal) S_ .f32 0x49742400#32))

/-- The feature table: the 16384 rows of features followed by one row of zeros. -/
def featTable (x1 : FVec Ideal S16384x128 .f32) : FVec Ideal S16385x128 .f32 :=
  ((fun a b => concatenate S16385x128 0 [⟨S16384x128, a⟩, ⟨S1x128, b⟩] concatenates_S16384x128_S1x128_S16385x128_d0) : FVec Ideal S16384x128 .f32 → FVec Ideal S1x128 .f32 → FVec Ideal S16385x128 .f32)
    x1
    ((broadcastInDim S1x128 ![] bcast_S_S1x128 : FVec Ideal S_ .f32 → FVec Ideal S1x128 .f32) (constant (F := Ideal) S_ .f32 0x00000000#32))

/-- Relative positions: the table's rows at the wrapped neighbour indices minus the centre's coordinates. -/
def relpos (arg0 : FVec Ideal S16384x3 .f32) (arg3 : (⟨S16384x32, .i32⟩ : BufTy).Contents (Elt Ideal)) : FVec Ideal S16384x32x3 .f32 :=
  (subf (F := Ideal) : FVec Ideal S16384x32x3 .f32 → FVec Ideal S16384x32x3 .f32 → FVec Ideal S16384x32x3 .f32)
    (((fun x i => Host.gather gather_S16385x3_S16384x32x1_S16384x32x3_2_0_n_n_0_2_13 x i) : FVec Ideal S16385x3 .f32 → (⟨S16384x32x1, .i32⟩ : BufTy).Contents (Elt Ideal) → FVec Ideal S16384x32x3 .f32)
      (coordTable arg0) (wrapIdx arg3))
    ((broadcastInDim S16384x32x3 ![0, 1, 2] bcast_S16384x1x3_S16384x32x3_0_1_2 : FVec Ideal S16384x1x3 .f32 → FVec Ideal S16384x32x3 .f32)
      ((broadcastInDim S16384x1x3 ![0, 2] bcast_S16384x3_S16384x1x3_0_2 : FVec Ideal S16384x3 .f32 → FVec Ideal S16384x1x3 .f32) arg0))

/-- Neighbour features: the feature table's rows at the wrapped neighbour indices. -/
def nfeats (x1 : FVec Ideal S16384x128 .f32) (arg3 : (⟨S16384x32, .i32⟩ : BufTy).Contents (Elt Ideal)) : FVec Ideal S16384x32x128 .f32 :=
  ((fun x i => Host.gather gather_S16385x128_S16384x32x1_S16384x32x128_2_0_n_n_0_2_1128 x i) : FVec Ideal S16385x128 .f32 → (⟨S16384x32x1, .i32⟩ : BufTy).Contents (Elt Ideal) → FVec Ideal S16384x32x128 .f32)
    (featTable x1) (wrapIdx arg3)

/-- The 43 kernel points' coordinates: the dense constant table, element by element the float of its word. -/
def kp : FVec Ideal S43x3 .f32 := fun i => FloatOps.ofBits (F := Ideal) .f32 (lit0 (S43x3.rowMajor i))

/-- Differences between every relative position and every kernel point, [16384, 32, 43, 3]. -/
def diffs (rp : FVec Ideal S16384x32x3 .f32) : FVec Ideal S16384x32x43x3 .f32 :=
  (subf (F := Ideal) : FVec Ideal S16384x32x43x3 .f32 → FVec Ideal S16384x32x43x3 .f32 → FVec Ideal S16384x32x43x3 .f32)
    ((broadcastInDim S16384x32x43x3 ![0, 1, 2, 3] bcast_S16384x32x1x3_S16384x32x43x3_0_1_2_3 : FVec Ideal S16384x32x1x3 .f32 → FVec Ideal S16384x32x43x3 .f32)
      ((broadcastInDim S16384x32x1x3 ![0, 1, 3] bcast_S16384x32x3_S16384x32x1x3_0_1_3 : FVec Ideal S16384x32x3 .f32 → FVec Ideal S16384x32x1x3 .f32) rp))
    ((broadcastInDim S16384x32x43x3 ![0, 1, 2, 3] bcast_S1x1x43x3_S16384x32x43x3_0_1_2_3 : FVec Ideal S1x1x43x3 .f32 → FVec Ideal S16384x32x43x3 .f32)
      ((broadcastInDim S1x1x43x3 ![2, 3] bcast_S43x3_S1x1x43x3_2_3 : FVec Ideal S43x3 .f32 → FVec Ideal S1x1x43x3 .f32) kp))

/-- Squared distances: the differences squared, summed over the three coordinates from the initial value zero. -/
def sqdist (rp : FVec Ideal S16384x32x3 .f32) : FVec Ideal S16384x32x43 .f32 :=
  ((fun x v => Host.reduceAdd (F := Ideal) x v reducesTo_S16384x32x43x3_S16384x32x43_d3 h_S_) : FVec Ideal S16384x32x43x3 .f32 → FVec Ideal S_ .f32 → FVec Ideal S16384x32x43 .f32)
    ((mulf (F := Ideal) : FVec Ideal S16384x32x43x3 .f32 → FVec Ideal S16384x32x43x3 .f32 → FVec Ideal S16384x32x43x3 .f32) (diffs rp) (diffs rp))
    (constant (F := Ideal) S_ .f32 0x00000000#32)

/-- Influences: the maximum of zero and one minus the distance divided by the extent one. -/
def infl (rp : FVec Ideal S16384x32x3 .f32) : FVec Ideal S16384x32x43 .f32 :=
  (maximumf (F := Ideal) : FVec Ideal S16384x32x43 .f32 → FVec Ideal S16384x32x43 .f32 → FVec Ideal S16384x32x43 .f32)
    ((broadcastInDim S16384x32x43 ![] bcast_S_S16384x32x43 : FVec Ideal S_ .f32 → FVec Ideal S16384x32x43 .f32)
      ((id : FVec Ideal S_ .f32 → FVec Ideal S_ .f32) (constant (F := Ideal) S_ .f32 0x00000000#32)))
    ((subf (F := Ideal) : FVec Ideal S16384x32x43 .f32 → FVec Ideal S16384x32x43 .f32 → FVec Ideal S16384x32x43 .f32)
      ((broadcastInDim S16384x32x43 ![] bcast_S_S16384x32x43 : FVec Ideal S_ .f32 → FVec Ideal S16384x32x43 .f32) (constant (F := Ideal) S_ .f32 0x3F800000#32))
      ((Host.divf (F := Ideal) : FVec Ideal S16384x32x43 .f32 → FVec Ideal S16384x32x43 .f32 → FVec Ideal S16384x32x43 .f32)
        ((Host.sqrt (F := Ideal) : FVec Ideal S16384x32x43 .f32 → FVec Ideal S16384x32x43 .f32) (sqdist rp))
        ((broadcastInDim S16384x32x43 ![] bcast_S_S16384x32x43 : FVec Ideal S_ .f32 → FVec Ideal S16384x32x43 .f32) (constant (F := Ideal) S_ .f32 0x3F800000#32))))

/-- The aggregate: influences contracted with neighbour features over the neighbours, times the weights, summed over
    the kernel points from the initial value zero. -/
def tail (rp : FVec Ideal S16384x32x3 .f32) (nf : FVec Ideal S16384x32x128 .f32) (arg6 : FVec Ideal S43x128 .f32) : FVec Ideal S16384x128 .f32 :=
  ((fun x v => Host.reduceAdd (F := Ideal) x v reducesTo_S16384x43x128_S16384x128_d1 h_S_) : FVec Ideal S16384x43x128 .f32 → FVec Ideal S_ .f32 → FVec Ideal S16384x128 .f32)
    ((mulf (F := Ideal) : FVec Ideal S16384x43x128 .f32 → FVec Ideal S16384x43x128 .f32 → FVec Ideal S16384x43x128 .f32)
      (((fun l r => Host.dotGeneral (F := Ideal) dot_S16384x32x43_S16384x32x128_S16384x43x128_1_1_2_2_0_0 none l r) : FVec Ideal S16384x32x43 .f32 → FVec Ideal S16384x32x128 .f32 → FVec Ideal S16384x43x128 .f32)
        (infl rp) nf)
      ((broadcastInDim S16384x43x128 ![0, 1, 2] bcast_S1x43x128_S16384x43x128_0_1_2 : FVec Ideal S1x43x128 .f32 → FVec Ideal S16384x43x128 .f32)
        ((broadcastInDim S1x43x128 ![1, 2] bcast_S43x128_S1x43x128_1_2 : FVec Ideal S43x128 .f32 → FVec Ideal S1x43x128 .f32) arg6)))
    (constant (F := Ideal) S_ .f32 0x00000000#32)

/-- The stage's result as a function of the coordinates, the features entering the stage, the neighbour indices and
    the weights. -/
def ref (arg0 : FVec Ideal S16384x3 .f32) (x1 : FVec Ideal S16384x128 .f32) (arg3 : (⟨S16384x32, .i32⟩ : BufTy).Contents (Elt Ideal)) (arg6 : FVec Ideal S43x128 .f32) : FVec Ideal S16384x128 .f32 :=
  tail (relpos arg0 arg3) (nfeats x1 arg3) arg6

end Cert.RefB

end
-- ==== Proof.GlueK2.lean ====
/-
  The second host stretch of the idealized kernel's @main builds the relative positions and the gathered features by
  the same operations as the reference: a far-away row appended to the coordinates, a zero row to the features, negative
  indices wrapped, the rows gathered, the point's own coordinates subtracted.
-/
import proofs.«171789_j3822520893918_1_alg».proof.Proof.GlueK
import proofs.«171789_j3822520893918_1_alg».proof.Proof.RefB
import proofs.«171789_j3822520893918_1_alg».proof.Proof.Gen.ReferenceIdeal

set_option maxRecDepth 16384

noncomputable section

namespace Cert.KernelIdeal.GenV

open Cert.KernelIdeal Cert.KernelIdeal.Gen
open Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- Reads left inside a concatenation's operand list: each operation's result at its own buffer is its function's
    value, at any other buffer what was there. -/
local macro "finish_results" : tactic =>
  `(tactic| (repeat (first
      | rw [nullary_result] | rw [unary_result] | rw [binary_result]
      | (rw [nullary_result_ne]; rotate_left; decide)
      | (rw [unary_result_ne]; rotate_left; decide)
      | (rw [binary_result_ne]; rotate_left; decide))))

set_option maxHeartbeats 4000000 in
/-- The relative positions the second launch reads. -/
theorem V3_v16 : V3 m ρ c main_v16
    = Cert.RefB.relpos (m ((c.tc : Thread nD τ).loc main_arg0)) (m ((c.tc : Thread nD τ).loc main_arg3)) := by
  show StableHlo.after hostOps1 (W2 m ρ c) (Proc.devRef .tc main_v16) = _
  after_results_simp
  rw [W2_arg0, W2_arg3]
  rfl

set_option maxHeartbeats 4000000 in
/-- The gathered features the second launch reads: rows of the first launch's output with a zero row appended. -/
theorem V3_v23 : V3 m ρ c main_v23
    = Cert.RefB.nfeats ((dat0 (V1 m ρ) c).arrAt 4 cfg0.N) (m ((c.tc : Thread nD τ).loc main_arg3)) := by
  show StableHlo.after hostOps1 (W2 m ρ c) (Proc.devRef .tc main_v23) = _
  after_results_simp
  finish_results
  rw [W2_v2, W2_arg3]
  rfl

end Cert.KernelIdeal.GenV

end
-- ==== Proof.SpecA.lean ====
import Idealize.ShloMosaic.PureOps.Ideal
import Idealize.ShloMosaic.PureOps.Ideal.Laws
import Idealize.ShloMosaic.Lib.ValueIdx

/-!
The specification of the first stage, index by index.

For a feature array `feat` (16384 rows, 128 columns), a weight `w` (128 × 128) and a scale row `g`
and shift row `b` (1 × 128):

* the linear layer  `lin n c = ∑ k, feat (n, k) · w (c, k)`;
* the column mean   `mean c = (∑ n, lin n c) / 16384`;
* the column variance `var c = (∑ n, (lin n c − mean c)²) / 16384`;
* the result        `max (((lin n c − mean c) · rsqrt (var c + ε)) · g (0, c) + b (0, c)) 0`.

All of it on the extended reals, with the division and the reciprocal square root of the ideal
float instance. The second half of the file shows that the result is a real number at every
index as soon as the four inputs are: a finite sum of products of reals is real, a real divided
by 16384 is real, the variance is a non-negative real so that `var + ε` is a positive real whose
reciprocal square root is real, and the maximum of two reals is real.
-/

noncomputable section

open scoped BigOperators

namespace Cert.StageA

open Idealize.ShloMosaic Idealize.ShloMosaic.ValueIdx

/-- 16384 rows of 128 columns. -/
abbrev ShNC : Shape := ⟨2, ![16384, 128]⟩
/-- The square weight. -/
abbrev ShCC : Shape := ⟨2, ![128, 128]⟩
/-- One row of 128 columns. -/
abbrev Sh1C : Shape := ⟨2, ![1, 128]⟩

/-- The number of rows, as the float constant the programs divide by. -/
def cnt : EReal := Ideal.ofBits .f32 0x46800000#32
/-- The small constant added to the variance. -/
def eps : EReal := Ideal.ofBits .f32 0x3727C5AC#32

/-- The linear layer at row `n`, column `c`. -/
def lin (feat : FVec Ideal ShNC .f32) (w : FVec Ideal ShCC .f32) (n : Fin 16384) (c : Fin 128) : EReal :=
  ∑ k : Fin 128, feat (ix2 n k) * w (ix2 c k)

/-- The mean of column `c` of the linear layer over the rows. -/
def mean (feat : FVec Ideal ShNC .f32) (w : FVec Ideal ShCC .f32) (c : Fin 128) : EReal :=
  Ideal.div (∑ n : Fin 16384, lin feat w n c) cnt

/-- The mean squared deviation of column `c` from its mean. -/
def var (feat : FVec Ideal ShNC .f32) (w : FVec Ideal ShCC .f32) (c : Fin 128) : EReal :=
  Ideal.div (∑ n : Fin 16384, (lin feat w n c - mean feat w c) * (lin feat w n c - mean feat w c)) cnt

/-- The stage's result at row `n`, column `c`. -/
def outAt (feat : FVec Ideal ShNC .f32) (w : FVec Ideal ShCC .f32) (g b : FVec Ideal Sh1C .f32)
    (n : Fin 16384) (c : Fin 128) : EReal :=
  max ((lin feat w n c - mean feat w c) * Ideal.rsqrt (var feat w c + eps) * g (ix2 (0 : Fin 1) c)
      + b (ix2 (0 : Fin 1) c)) (Ideal.ofBits .f32 0x00000000#32)

/-- The stage's result as an array. -/
def out (feat : FVec Ideal ShNC .f32) (w : FVec Ideal ShCC .f32) (g b : FVec Ideal Sh1C .f32) :
    FVec Ideal ShNC .f32 :=
  fun i => outAt feat w g b (i 0) (i 1)

theorem out_apply (feat : FVec Ideal ShNC .f32) (w : FVec Ideal ShCC .f32) (g b : FVec Ideal Sh1C .f32)
    (n : Fin 16384) (c : Fin 128) : out feat w g b (ix2 n c) = outAt feat w g b n c := rfl

/-! ## The result is real when the inputs are -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The row count denotes the real 16384. -/
theorem cnt_eq : cnt = ((16384 : ℝ) : EReal) := by
  unfold cnt
  simp [Ideal.ofBits, Ideal.ieee, -EReal.coe_mul]; norm_num

/-- The small constant denotes a positive real. -/
theorem eps_pos : ∃ r : ℝ, 0 < r ∧ eps = (r : EReal) := by
  unfold eps
  refine ⟨_, ?_, by simp [Ideal.ofBits, Ideal.ieee, -EReal.coe_mul]; rfl⟩
  positivity

/-- The zero pattern denotes 0. -/
theorem zero_eq : Ideal.ofBits .f32 0x00000000#32 = 0 := Ideal.ofBits_zero_f32

/-- A quotient by the row count is the product with its reciprocal. -/
theorem div_cnt (x : EReal) : Ideal.div x cnt = x * (((1 / 16384 : ℝ) : ℝ) : EReal) := by
  rw [cnt_eq]; exact Ideal.div_coe (by norm_num) x

theorem IsReal.div_cnt {x : EReal} (hx : IsReal x) : IsReal (Ideal.div x cnt) := by
  rw [Cert.StageA.div_cnt]; exact hx.mul ⟨_, rfl⟩

/-- The reciprocal square root of a positive real is real. -/
theorem isReal_rsqrt_of_pos {r : ℝ} (hr : 0 < r) : IsReal (Ideal.rsqrt (r : EReal)) := by
  rw [Ideal.rsqrt_coe, if_neg (not_lt.mpr hr.le), if_neg hr.ne']
  exact ⟨_, rfl⟩

section
variable (feat : FVec Ideal ShNC .f32) (w : FVec Ideal ShCC .f32) (g b : FVec Ideal Sh1C .f32)
variable (hf : ∀ i, ∃ r : ℝ, feat i = (r : EReal)) (hw : ∀ i, ∃ r : ℝ, w i = (r : EReal))
include hf hw

theorem lin_real (n : Fin 16384) (c : Fin 128) : IsReal (lin feat w n c) :=
  IsReal.sum _ _ fun k _ => IsReal.mul (hf _) (hw _)

theorem mean_real (c : Fin 128) : IsReal (mean feat w c) :=
  IsReal.div_cnt (IsReal.sum _ _ fun n _ => lin_real feat w hf hw n c)

/-- The variance is a non-negative real. -/
theorem var_nonneg_real (c : Fin 128) : ∃ r : ℝ, 0 ≤ r ∧ var feat w c = (r : EReal) := by
  obtain ⟨μ, hμ⟩ := mean_real feat w hf hw c
  have hl : ∀ n : Fin 16384, ∃ r : ℝ, lin feat w n c = (r : EReal) := fun n => lin_real feat w hf hw n c
  choose l hl using hl
  have hs : ∀ s : Finset (Fin 16384),
      (∑ n ∈ s, (lin feat w n c - mean feat w c) * (lin feat w n c - mean feat w c))
        = ((∑ n ∈ s, (l n - μ) * (l n - μ) : ℝ) : EReal) := by
    intro s
    classical
    induction s using Finset.induction_on with
    | empty => simp
    | insert a s ha ih =>
      rw [Finset.sum_insert ha, Finset.sum_insert ha, ih, hl a, hμ, ← EReal.coe_sub, ← EReal.coe_mul, ← EReal.coe_add]
  refine ⟨(∑ n : Fin 16384, (l n - μ) * (l n - μ)) * (1 / 16384), ?_, ?_⟩
  · exact mul_nonneg (Finset.sum_nonneg fun n _ => mul_self_nonneg _) (by norm_num)
  · unfold var
    rw [div_cnt, hs Finset.univ, ← EReal.coe_mul]

end

/-- Every entry of the result is a real number when every entry of the four inputs is. -/
theorem out_real (feat : FVec Ideal ShNC .f32) (w : FVec Ideal ShCC .f32) (g b : FVec Ideal Sh1C .f32)
    (hf : ∀ i, ∃ r : ℝ, feat i = (r : EReal)) (hw : ∀ i, ∃ r : ℝ, w i = (r : EReal))
    (hg : ∀ i, ∃ r : ℝ, g i = (r : EReal)) (hb : ∀ i, ∃ r : ℝ, b i = (r : EReal)) :
    ∀ i, ∃ r : ℝ, out feat w g b i = (r : EReal) := by
  intro i
  show IsReal (outAt feat w g b (i 0) (i 1))
  unfold outAt
  obtain ⟨v, hv0, hv⟩ := var_nonneg_real feat w hf hw (i 1)
  obtain ⟨e, he0, he⟩ := eps_pos
  have hr : IsReal (Ideal.rsqrt (var feat w (i 1) + eps)) := by
    rw [hv, he, ← EReal.coe_add]
    exact isReal_rsqrt_of_pos (by positivity)
  refine IsReal.max (IsReal.add (IsReal.mul (IsReal.mul (IsReal.sub (lin_real feat w hf hw _ _) (mean_real feat w hf hw _)) hr) (hg _)) (hb _)) ?_
  rw [zero_eq]; exact ⟨0, rfl⟩

end Cert.StageA

end
-- ==== Proof.RefA.lean ====
import proofs.«171789_j3822520893918_1_alg».proof.ReferenceIdeal
import Idealize.ShloMosaic.PureOps.Ideal

/-!
The first stage of the reference program as one pure term: the linear layer (a contraction of
the features with the transposed weight), the batch statistics over the 16384 rows (mean, then
the mean of the squared deviations), the normalisation by the reciprocal square root of the
variance plus a small constant, the affine map by the scale and shift vectors, and the
rectifier. Every operation is written exactly as the program states it, the operands nested in
the program's order.
-/

noncomputable section

namespace Cert.RefA

open Idealize.ShloMosaic Idealize.SL.Sem
open Cert.ReferenceIdeal
open Cert.ReferenceIdeal.Facts₀ Cert.ReferenceIdeal.Facts

variable [Cert.ReferenceIdeal.Facts]

/-- The value of the first stage's last buffer as a function of the four argument arrays it
    reads: features, weight, scale and shift. -/
def ref (arg1 : (⟨S16384x128, .f32⟩ : BufTy).Contents (Elt Ideal))
    (arg4 : (⟨S128x128, .f32⟩ : BufTy).Contents (Elt Ideal))
    (arg7 arg8 : (⟨S128, .f32⟩ : BufTy).Contents (Elt Ideal)) :
    (⟨S16384x128, .f32⟩ : BufTy).Contents (Elt Ideal) :=
  let v0 : FVec Ideal S128x128 .f32 :=
    transpose S128x128 [1, 0] arg4 transposes_S128x128_S128x128_1_0
  let v1 : FVec Ideal S16384x128 .f32 :=
    Host.dotGeneral (F := Ideal) (φ₁ := .f32) (φ₂ := .f32) dot_S16384x128_S128x128_S16384x128_1_0_0_1_n_n none arg1 v0
  let cst_0 : FVec Ideal S_ .f32 := constant (F := Ideal) S_ .f32 0x00000000#32
  let v2 : FVec Ideal S128 .f32 :=
    Host.reduceAdd (F := Ideal) v1 cst_0 reducesTo_S16384x128_S128_d0 h_S_
  let cst_1 : FVec Ideal S_ .f32 := constant (F := Ideal) S_ .f32 0x46800000#32
  let v3 : FVec Ideal S128 .f32 := broadcastInDim S128 ![] bcast_S_S128 cst_1
  let v4 : FVec Ideal S128 .f32 := Host.divf (F := Ideal) v2 v3
  let v5 : FVec Ideal S1x128 .f32 := broadcastInDim S1x128 ![1] bcast_S128_S1x128_1 v4
  let v6 : FVec Ideal S16384x128 .f32 :=
    broadcastInDim S16384x128 ![0, 1] bcast_S1x128_S16384x128_0_1 v5
  let v7 : FVec Ideal S16384x128 .f32 := subf (F := Ideal) v1 v6
  let v8 : FVec Ideal S16384x128 .f32 := mulf (F := Ideal) v7 v7
  let cst_2 : FVec Ideal S_ .f32 := constant (F := Ideal) S_ .f32 0x00000000#32
  let v9 : FVec Ideal S128 .f32 :=
    Host.reduceAdd (F := Ideal) v8 cst_2 reducesTo_S16384x128_S128_d0 h_S_
  let cst_3 : FVec Ideal S_ .f32 := constant (F := Ideal) S_ .f32 0x46800000#32
  let v10 : FVec Ideal S128 .f32 := broadcastInDim S128 ![] bcast_S_S128 cst_3
  let v11 : FVec Ideal S128 .f32 := Host.divf (F := Ideal) v9 v10
  let v12 : FVec Ideal S1x128 .f32 := broadcastInDim S1x128 ![1] bcast_S128_S1x128_1 v4
  let v13 : FVec Ideal S16384x128 .f32 :=
    broadcastInDim S16384x128 ![0, 1] bcast_S1x128_S16384x128_0_1 v12
  let v14 : FVec Ideal S16384x128 .f32 := subf (F := Ideal) v1 v13
  let cst_4 : FVec Ideal S_ .f32 := constant (F := Ideal) S_ .f32 0x3727C5AC#32
  let v15 : FVec Ideal S128 .f32 := broadcastInDim S128 ![] bcast_S_S128 cst_4
  let v16 : FVec Ideal S128 .f32 := addf (F := Ideal) v11 v15
  let v17 : FVec Ideal S128 .f32 := Host.rsqrt (F := Ideal) v16
  let v18 : FVec Ideal S1x128 .f32 := broadcastInDim S1x128 ![1] bcast_S128_S1x128_1 v17
  let v19 : FVec Ideal S16384x128 .f32 :=
    broadcastInDim S16384x128 ![0, 1] bcast_S1x128_S16384x128_0_1 v18
  let v20 : FVec Ideal S16384x128 .f32 := mulf (F := Ideal) v14 v19
  let v21 : FVec Ideal S1x128 .f32 := broadcastInDim S1x128 ![1] bcast_S128_S1x128_1 arg7
  let v22 : FVec Ideal S16384x128 .f32 :=
    broadcastInDim S16384x128 ![0, 1] bcast_S1x128_S16384x128_0_1 v21
  let v23 : FVec Ideal S16384x128 .f32 := mulf (F := Ideal) v20 v22
  let v24 : FVec Ideal S1x128 .f32 := broadcastInDim S1x128 ![1] bcast_S128_S1x128_1 arg8
  let v25 : FVec Ideal S16384x128 .f32 :=
    broadcastInDim S16384x128 ![0, 1] bcast_S1x128_S16384x128_0_1 v24
  let v26 : FVec Ideal S16384x128 .f32 := addf (F := Ideal) v23 v25
  let c0 : FVec Ideal S_ .f32 := constant (F := Ideal) S_ .f32 0x00000000#32
  let r0 : FVec Ideal S16384x128 .f32 :=
    broadcastInDim S16384x128 ![] bcast_S_S16384x128 c0
  maximumf (F := Ideal) (s := S16384x128) (φ := .f32) v26 r0

end Cert.RefA

end
-- ==== Proof.LayoutA.lean ====
import Idealize.ShloMosaic.Lib.Pipeline.Value
import Idealize.ShloMosaic.PureOps.Ideal.Laws
import proofs.«171789_j3822520893918_1_alg».proof.Proof.SpecA

/-!
The operations of the first stage that are not pointwise, each read at an index, over the stage's
literal shapes and for ANY proof of the shape relation the operation takes:

* a row of 128 broadcast over the 16384 rows reads the row's entry in the same column;
* a 128-vector recast or broadcast to a 1 × 128 row reads the vector's entry;
* a scalar broadcast reads the scalar;
* the transposed weight at (k, c) is the weight at (c, k);
* the contraction of a 16384 × 128 array with a 128 × 128 array over the first array's columns and
  the second array's rows is the sum over k of the products;
* a sum over the 16384 rows, at column c, is the sum over n of the entries (n, c).
-/

noncomputable section

open scoped BigOperators

namespace Cert.StageA

open Idealize.ShloMosaic Idealize.ShloMosaic.ValueIdx

/-- A vector of 128 entries. -/
abbrev ShC : Shape := ⟨1, ![128]⟩
/-- The scalar shape. -/
abbrev Sh0 : Shape := ⟨0, ![]⟩

section Layout
variable {α : Type}

theorem broadcastTo_rows (v : Sh1C.Idx → α) (h : Sh1C.Broadcasts ShNC) (n : Fin 16384) (c : Fin 128) :
    broadcastTo ShNC v h (ix2 n c) = v (ix2 (0 : Fin 1) c) :=
  broadcastTo_apply v h (ix2 n c) (ix2 (0 : Fin 1) c) (fun a => by
    match a with
    | ⟨0, _⟩ => rfl
    | ⟨1, _⟩ => rfl)

theorem broadcastInDim_rows (v : Sh1C.Idx → α) (h : Sh1C.BroadcastsInDim ShNC (![0, 1] : Fin 2 → Fin ShNC.rank))
    (n : Fin 16384) (c : Fin 128) :
    broadcastInDim ShNC ![0, 1] h v (ix2 n c) = v (ix2 (0 : Fin 1) c) :=
  broadcastInDim_apply _ h v (ix2 n c) (ix2 (0 : Fin 1) c) (fun a => by
    match a with
    | ⟨0, _⟩ => rfl
    | ⟨1, _⟩ => rfl)

theorem broadcastInDim_row (v : ShC.Idx → α) (h : ShC.BroadcastsInDim Sh1C (![1] : Fin 1 → Fin Sh1C.rank))
    (z : Fin 1) (c : Fin 128) :
    broadcastInDim Sh1C ![1] h v (ix2 z c) = v (ix1 c) :=
  broadcastInDim_apply _ h v (ix2 z c) (ix1 c) (fun a => by
    match a with
    | ⟨0, _⟩ => rfl)

theorem shapeCast_row (v : ShC.Idx → α) (h : ShC.ShapeCasts Sh1C) (c : Fin 128) :
    shapeCast Sh1C v h (ix2 (0 : Fin 1) c) = v (ix1 c) :=
  shapeCast_apply v h (ix2 (0 : Fin 1) c) (ix1 c) (by
    rw [Shape.rowMajor_val_one, Shape.rowMajor_val_two]
    show c.val = 0 * 128 + c.val
    omega)

theorem broadcastInDim_scalar_vec (v : Sh0.Idx → α) (h : Sh0.BroadcastsInDim ShC (![] : Fin 0 → Fin ShC.rank))
    (c : Fin 128) : broadcastInDim ShC ![] h v (ix1 c) = v ix0 :=
  broadcastInDim_apply _ h v (ix1 c) ix0 (fun a => a.elim0)

theorem broadcastInDim_scalar_rows (v : Sh0.Idx → α) (h : Sh0.BroadcastsInDim ShNC (![] : Fin 0 → Fin ShNC.rank))
    (n : Fin 16384) (c : Fin 128) : broadcastInDim ShNC ![] h v (ix2 n c) = v ix0 :=
  broadcastInDim_apply _ h v (ix2 n c) ix0 (fun a => a.elim0)

theorem transpose_weight (x : ShCC.Idx → α) (h : ShCC.Transposes [1, 0] ShCC) (k c : Fin 128) :
    transpose ShCC [1, 0] x h (ix2 k c) = x (ix2 c k) :=
  transpose_apply [1, 0] x h (ix2 k c) (ix2 c k) (fun b => by
    match b with
    | ⟨0, _⟩ => rfl
    | ⟨1, _⟩ => rfl)

end Layout

/-! ## The contraction -/

/-- The dimension numbers of the stage's one contraction: the first operand's columns against the
    second operand's rows, no batch axis. -/
abbrev Dlit (wf : DotDims.WF ShNC ShCC ShNC [1] [0] [0] [1] [] []) : DotDims ShNC ShCC ShNC :=
  ⟨[1], [0], [0], [1], [], [], wf⟩

section Contraction
variable (wf : DotDims.WF ShNC ShCC ShNC [1] [0] [0] [1] [] [])

theorem lhs_row (i : ShNC.Idx) (q : (Dlit wf).contr.Idx) : ((Dlit wf).lhsIdx i q 0).val = (i 0).val := by
  unfold DotDims.lhsIdx
  rw [dif_neg (show ¬(0 : Fin ShNC.rank) ∈ (Dlit wf).lhsBatch from List.not_mem_nil),
    dif_pos (show (0 : Fin ShNC.rank) ∈ (Dlit wf).lhsNonContracting from List.mem_singleton.mpr rfl)]
  rfl

theorem lhs_col (i : ShNC.Idx) (q : (Dlit wf).contr.Idx) :
    ((Dlit wf).lhsIdx i q 1).val = (q ⟨0, Nat.one_pos⟩).val :=
  (Dlit wf).lhsIdx_val_of_single rfl i q

theorem rhs_row (i : ShNC.Idx) (q : (Dlit wf).contr.Idx) :
    ((Dlit wf).rhsIdx i q 0).val = (q ⟨0, Nat.one_pos⟩).val :=
  (Dlit wf).rhsIdx_val_of_single rfl i q

theorem rhs_col (i : ShNC.Idx) (q : (Dlit wf).contr.Idx) : ((Dlit wf).rhsIdx i q 1).val = (i 1).val := by
  unfold DotDims.rhsIdx
  rw [dif_neg (show ¬(1 : Fin ShCC.rank) ∈ (Dlit wf).rhsBatch from List.not_mem_nil),
    dif_pos (show (1 : Fin ShCC.rank) ∈ (Dlit wf).rhsNonContracting from List.mem_singleton.mpr rfl)]
  rfl

/-- The contraction at (n, c): the sum over k of left (n, k) times right (k, c). -/
theorem contr_sum_lit (l : ShNC.Idx → EReal) (r : ShCC.Idx → EReal) (n : Fin 16384) (c : Fin 128) :
    ∑ k : (Dlit wf).contr.Idx, l ((Dlit wf).lhsIdx (ix2 n c) k) * r ((Dlit wf).rhsIdx (ix2 n c) k)
      = ∑ k : Fin 128, l (ix2 n k) * r (ix2 k c) := by
  rw [← Equiv.sum_comp (contrEquiv1 (Dlit wf) 128 rfl rfl).symm]
  refine Finset.sum_congr rfl fun k _ => ?_
  have hk := contrEquiv1_symm_val (Dlit wf) 128 rfl rfl k
  have el : (Dlit wf).lhsIdx (ix2 n c) ((contrEquiv1 (Dlit wf) 128 rfl rfl).symm k) = ix2 n k :=
    funext fun a => Fin.ext (by
      match a with
      | ⟨0, _⟩ => exact lhs_row wf _ _
      | ⟨1, _⟩ => exact (lhs_col wf _ _).trans hk)
  have er : (Dlit wf).rhsIdx (ix2 n c) ((contrEquiv1 (Dlit wf) 128 rfl rfl).symm k) = ix2 k c :=
    funext fun a => Fin.ext (by
      match a with
      | ⟨0, _⟩ => exact (rhs_row wf _ _).trans hk
      | ⟨1, _⟩ => exact rhs_col wf _ _)
  rw [el, er]

end Contraction

/-- The same for any record with those dimension numbers. -/
theorem contr_sum (d : DotDims ShNC ShCC ShNC)
    (h1 : d.lhsContracting = [1]) (h2 : d.rhsContracting = [0]) (h3 : d.lhsNonContracting = [0])
    (h4 : d.rhsNonContracting = [1]) (h5 : d.lhsBatch = []) (h6 : d.rhsBatch = [])
    (l : ShNC.Idx → EReal) (r : ShCC.Idx → EReal) (n : Fin 16384) (c : Fin 128) :
    ∑ k : d.contr.Idx, l (d.lhsIdx (ix2 n c) k) * r (d.rhsIdx (ix2 n c) k)
      = ∑ k : Fin 128, l (ix2 n k) * r (ix2 k c) := by
  obtain ⟨lc, rc, ln, rn, lb, rb, wf⟩ := d
  dsimp only at h1 h2 h3 h4 h5 h6
  subst h1 h2 h3 h4 h5 h6
  exact contr_sum_lit wf l r n c

/-! ## The sums over the rows -/

/-- The row index over column `c` with row coordinate `n` inserted is (n, c). -/
theorem lift_rows (h : ShNC.Reduces [0] ShC) (c : Fin 128) (n : Fin 16384) : h.lift (ix1 c) n = ix2 n c :=
  funext fun a => Fin.ext (by
    match a with
    | ⟨0, _⟩ => rfl
    | ⟨1, _⟩ => rfl)

/-- A lane sum over the rows, at column `c`. -/
theorem multiReduction_rows (src : FVec Ideal ShNC .f32) (h : ShNC.Reduces [0] ShC) (hφ : FKind.Formats .f32)
    (hacc : (0x00000000#32 : BitVec 32) = FKind.add.neutral .f32 hφ) (c : Fin 128) :
    multiReduction .add [0] ShC src 0x00000000#32 h hφ hacc (ix1 c) = ∑ n : Fin 16384, src (ix2 n c) := by
  refine (Ideal.multiReduction_add_single src _ h hφ hacc (ix1 c)).trans ?_
  exact Finset.sum_congr rfl fun n _ => congrArg src (lift_rows h c n)

/-- The host's sum over the rows from a zero initial value, at column `c`. -/
theorem hostReduceAdd_rows (x : FVec Ideal ShNC .f32) (init : FVec Ideal Sh0 .f32) (h' : ShNC.ReducesTo [0] ShC)
    (hu : 0 < Sh0.numel) (hinit : ∀ j, init j = 0) (c : Fin 128) :
    Host.reduceAdd (F := Ideal) x init h' hu (ix1 c) = ∑ n : Fin 16384, x (ix2 n c) := by
  have h : ShNC.Reduces [0] ShC := by decide
  show Ideal.hostReduceAdd h' x (init (Shape.Idx.first hu)) (ix1 c) = _
  rw [Ideal.hostReduceAdd_single h' h, hinit, zero_add]
  exact Finset.sum_congr rfl fun n _ => congrArg x (lift_rows h c n)

end Cert.StageA

end
-- ==== Proof.KernA1.lean ====
import proofs.«171789_j3822520893918_1_alg».proof.Proof.Gen.KernelIdeal.Skeleton
import proofs.«171789_j3822520893918_1_alg».proof.Proof.LayoutA

/-!
The arithmetic of the first kernel region's body, as a pure function of the four blocks it loads,
is the specification of the first stage: the matrix product into a zero accumulator against the
transposed weight is the linear layer, the two lane sums over the rows divided by 16384 are the
column mean and the column variance, and the remaining operations are pointwise. The narrowing of
the two matrix operands to a shorter format is the identity on extended reals.
-/

noncomputable section

open scoped BigOperators

namespace Cert.StageA

open Idealize.ShloMosaic Idealize.ShloMosaic.ValueIdx
open Cert.KernelIdeal Cert.KernelIdeal.Gen

section
variable (x0 : FVec Ideal S16384x128 .f32) (x1 : FVec Ideal S128x128 .f32) (x2 x3 : FVec Ideal S1x128 .f32)

/-- The body's matrix product: features against the transposed weight, into zero. -/
def kLin : FVec Ideal S16384x128 .f32 :=
  matmul (F := Ideal) dot_S16384x128_S128x128_S16384x128_1_0_0_1_n_n none (truncf .bf16 x0 bitsLt_bf16_f32)
    (transpose S128x128 [1, 0] (truncf .bf16 x1 bitsLt_bf16_f32) transposes_S128x128_p1_0_S128x128)
    (constant S16384x128 .f32 0x00000000#32)

/-- The body's row of column means. -/
def kMeanRow : FVec Ideal S1x128 .f32 :=
  divf (F := Ideal)
    (shapeCast S1x128 (multiReduction (F := Ideal) .add [0] S128 (kLin x0 x1) 0x00000000#32 reduces_S16384x128_S128 (.inl rfl) rfl)
      shapeCasts_S128_S1x128)
    (broadcast S1x128 (Scalar.ofBits (F := Ideal) .f32 0x46800000#32))

/-- The body's deviations from the column means. -/
def kDev : FVec Ideal S16384x128 .f32 :=
  subf (F := Ideal) (kLin x0 x1) (broadcastTo S16384x128 (kMeanRow x0 x1) broadcasts_S1x128_S16384x128)

/-- The body's row of column variances. -/
def kVarRow : FVec Ideal S1x128 .f32 :=
  divf (F := Ideal)
    (shapeCast S1x128 (multiReduction (F := Ideal) .add [0] S128 (mulf (F := Ideal) (kDev x0 x1) (kDev x0 x1)) 0x00000000#32
      reduces_S16384x128_S128 (.inl rfl) rfl) shapeCasts_S128_S1x128)
    (broadcast S1x128 (Scalar.ofBits (F := Ideal) .f32 0x46800000#32))

/-- The body's row of reciprocal square roots. -/
def kInvRow : FVec Ideal S1x128 .f32 :=
  rsqrt (F := Ideal) (addf (F := Ideal) (kVarRow x0 x1) (broadcast S1x128 (Scalar.ofBits (F := Ideal) .f32 0x3727C5AC#32)))

/-- The body's arithmetic is these pieces composed with the pointwise scale, shift and rectifier. -/
theorem pay_unfold : k0_pay1 (F := Ideal) x0 x1 x2 x3
    = maximumf (F := Ideal)
        (addf (F := Ideal)
          (mulf (F := Ideal)
            (mulf (F := Ideal) (kDev x0 x1) (broadcastTo S16384x128 (kInvRow x0 x1) broadcasts_S1x128_S16384x128))
            (broadcastTo S16384x128 (shapeCast S1x128 x2 shapeCasts_S1x128_S1x128) broadcasts_S1x128_S16384x128))
          (broadcastTo S16384x128 (shapeCast S1x128 x3 shapeCasts_S1x128_S1x128) broadcasts_S1x128_S16384x128))
        (broadcast S16384x128 (Scalar.ofBits (F := Ideal) .f32 0x00000000#32)) := rfl

theorem kLin_apply (n : Fin 16384) (c : Fin 128) : kLin x0 x1 (ix2 n c) = lin x0 x1 n c := by
  unfold kLin lin
  refine (Ideal.matmul_constant_zero_apply _ none _ _ (ix2 n c)).trans ?_
  refine (contr_sum dot_S16384x128_S128x128_S16384x128_1_0_0_1_n_n rfl rfl rfl rfl rfl rfl _ _ n c).trans ?_
  refine Finset.sum_congr rfl fun k _ => ?_
  show x0 (ix2 n k) * transpose S128x128 [1, 0] (truncf .bf16 x1 bitsLt_bf16_f32) transposes_S128x128_p1_0_S128x128 (ix2 k c)
    = x0 (ix2 n k) * x1 (ix2 c k)
  rw [transpose_weight]
  rfl

theorem kMeanRow_apply (c : Fin 128) : kMeanRow x0 x1 (ix2 (0 : Fin 1) c) = mean x0 x1 c := by
  unfold kMeanRow mean cnt
  show Ideal.div (shapeCast S1x128 _ shapeCasts_S128_S1x128 (ix2 (0 : Fin 1) c)) (Ideal.ofBits .f32 0x46800000#32) = _
  refine congrArg (fun t => Ideal.div t (Ideal.ofBits .f32 0x46800000#32)) ?_
  refine (shapeCast_row _ _ c).trans ?_
  refine (multiReduction_rows _ _ _ _ c).trans ?_
  exact Finset.sum_congr rfl fun n _ => kLin_apply x0 x1 n c

theorem kDev_apply (n : Fin 16384) (c : Fin 128) : kDev x0 x1 (ix2 n c) = lin x0 x1 n c - mean x0 x1 c := by
  unfold kDev
  show kLin x0 x1 (ix2 n c) - broadcastTo S16384x128 (kMeanRow x0 x1) broadcasts_S1x128_S16384x128 (ix2 n c) = _
  rw [kLin_apply, broadcastTo_rows, kMeanRow_apply]

theorem kVarRow_apply (c : Fin 128) : kVarRow x0 x1 (ix2 (0 : Fin 1) c) = var x0 x1 c := by
  unfold kVarRow var cnt
  show Ideal.div (shapeCast S1x128 _ shapeCasts_S128_S1x128 (ix2 (0 : Fin 1) c)) (Ideal.ofBits .f32 0x46800000#32) = _
  refine congrArg (fun t => Ideal.div t (Ideal.ofBits .f32 0x46800000#32)) ?_
  refine (shapeCast_row _ _ c).trans ?_
  refine (multiReduction_rows _ _ _ _ c).trans ?_
  refine Finset.sum_congr rfl fun n _ => ?_
  show kDev x0 x1 (ix2 n c) * kDev x0 x1 (ix2 n c) = _
  rw [kDev_apply]

theorem kInvRow_apply (c : Fin 128) : kInvRow x0 x1 (ix2 (0 : Fin 1) c) = Ideal.rsqrt (var x0 x1 c + eps) := by
  unfold kInvRow eps
  show Ideal.rsqrt (kVarRow x0 x1 (ix2 (0 : Fin 1) c) + Ideal.ofBits .f32 0x3727C5AC#32) = _
  rw [kVarRow_apply]

/-- The body's arithmetic at row `n`, column `c`. -/
theorem pay_apply (n : Fin 16384) (c : Fin 128) :
    k0_pay1 (F := Ideal) x0 x1 x2 x3 (ix2 n c) = outAt x0 x1 x2 x3 n c := by
  rw [pay_unfold]
  unfold outAt
  show max (kDev x0 x1 (ix2 n c) * broadcastTo S16384x128 (kInvRow x0 x1) broadcasts_S1x128_S16384x128 (ix2 n c)
        * broadcastTo S16384x128 (shapeCast S1x128 x2 shapeCasts_S1x128_S1x128) broadcasts_S1x128_S16384x128 (ix2 n c)
        + broadcastTo S16384x128 (shapeCast S1x128 x3 shapeCasts_S1x128_S1x128) broadcasts_S1x128_S16384x128 (ix2 n c))
      (Ideal.ofBits .f32 0x00000000#32) = _
  rw [kDev_apply, broadcastTo_rows, broadcastTo_rows, broadcastTo_rows, kInvRow_apply, shapeCast_self, shapeCast_self]

/-- The body's arithmetic is the specification. -/
theorem pay_eq : k0_pay1 (F := Ideal) x0 x1 x2 x3 = out x0 x1 x2 x3 := by
  funext j
  obtain ⟨n, c, rfl⟩ : ∃ (n : Fin 16384) (c : Fin 128), j = ix2 n c := ⟨j 0, j 1, eq_ix2 j⟩
  exact pay_apply x0 x1 x2 x3 n c

end

end Cert.StageA

end
-- ==== Proof.KernA.lean ====
import proofs.«171789_j3822520893918_1_alg».proof.Proof.Gen.KernelIdeal.Frame
import proofs.«171789_j3822520893918_1_alg».proof.Proof.KernA1
import Idealize.ShloMosaic.Lib.Pipeline.Value

/-!
The first kernel region's output array is the specification of the first stage, applied to the
four arrays the region reads as it finds them. The grid has one point and every window's block at
that point is its whole array (block index zero on both axes, block size the array's size), so:
each input block is the input array, the body leaves the specification of the four input arrays
in the output's staging buffer, and the one block written back covers the output array.
-/

noncomputable section

namespace Cert.StageA

open Idealize.ShloMosaic Idealize.ShloMosaic.TcCoe Idealize.SL.Sem
open Idealize.ShloMosaic.Pipeline (Dat)
open Idealize.ShloMosaic.ValueIdx
open Cert.KernelIdeal Cert.KernelIdeal.Gen

section
variable (V : (c : Dev nD) → (b : Ref sig .tc) → Buf (Elt Ideal) ((c : Thread nD τ).loc b))

theorem hz : (![0, 0] : Fin 2 → Nat) = fun _ => 0 := funext fun a => by fin_cases a <;> rfl

/-- At the grid's one point every window's block index is zero on both axes. -/
theorem idx_facts : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- The feature window's block is the feature array. -/
theorem iblk_feat (c : Dev nD) (t : Fin cfg0.N) :
    (iblk0 V c 0 t : FVec Ideal S16384x128 .f32) = (V c main_arg1 : FVec Ideal S16384x128 .f32) := by
  obtain ⟨⟨e0, e1⟩, -⟩ := idx_facts t
  funext y
  show V c main_arg1 (((cfg0.win 0).blk t).view.emb y) = V c main_arg1 y
  refine congrArg (V c main_arg1) (funext fun a => Fin.ext ?_)
  match a with
  | ⟨0, _⟩ => show win0_0.index t (0 : Fin 2) * 16384 + 1 * (y 0).val = (y 0).val; rw [e0]; omega
  | ⟨1, _⟩ => show win0_0.index t (1 : Fin 2) * 128 + 1 * (y 1).val = (y 1).val; rw [e1]; omega

/-- The weight window's block is the weight array. -/
theorem iblk_weight (c : Dev nD) (t : Fin cfg0.N) :
    (iblk0 V c 1 t : FVec Ideal S128x128 .f32) = (V c main_arg4 : FVec Ideal S128x128 .f32) := by
  obtain ⟨-, ⟨e0, e1⟩, -⟩ := idx_facts t
  funext y
  show V c main_arg4 (((cfg0.win 1).blk t).view.emb y) = V c main_arg4 y
  refine congrArg (V c main_arg4) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The scale window's block is the scale row. -/
theorem iblk_scale (c : Dev nD) (t : Fin cfg0.N) :
    (iblk0 V c 2 t : FVec Ideal S1x128 .f32) = (V c main_v0 : FVec Ideal S1x128 .f32) := by
  obtain ⟨-, -, ⟨e0, e1⟩, -⟩ := idx_facts t
  funext y
  show V c main_v0 (((cfg0.win 2).blk t).view.emb y) = V c main_v0 y
  refine congrArg (V c main_v0) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The shift window's block is the shift row. -/
theorem iblk_shift (c : Dev nD) (t : Fin cfg0.N) :
    (iblk0 V c 3 t : FVec Ideal S1x128 .f32) = (V c main_v1 : FVec Ideal S1x128 .f32) := by
  obtain ⟨-, -, -, ⟨e0, e1⟩, -⟩ := idx_facts t
  funext y
  show V c main_v1 (((cfg0.win 3).blk t).view.emb y) = V c main_v1 y
  refine congrArg (V c main_v1) (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- What the one point writes back is the output window's block of the specification. -/
theorem flushed_eq (c : Dev nD) (t : Fin cfg0.N) :
    (dat0 (F := Ideal) V c).flushed 4 t
      = ((cfg0.win 4).blk t).view.read (Elt Ideal)
          (out (V c main_arg1) (V c main_arg4) (V c main_v0) (V c main_v1)) := by
  show (cfg0.win 4).cut (grid0.coords t) ((dat0 (F := Ideal) V c).after 4 t) = _
  rw [after0_4]
  unfold out0_4
  rw [View.canon_unit_zero hz]
  simp only [View.ld_unit_zero (S := S16384x128) hz, View.ld_unit_zero (S := S128x128) hz,
    View.ld_unit_zero (S := S1x128) hz]
  rw [iblk_feat V c t, iblk_weight V c t, iblk_scale V c t, iblk_shift V c t]
  obtain ⟨-, -, -, -, ⟨e0, e1⟩⟩ := idx_facts t
  funext j
  show k0_pay1 (F := Ideal) (V c main_arg1) (V c main_arg4) (V c main_v0) (V c main_v1) j
    = out (V c main_arg1) (V c main_arg4) (V c main_v0) (V c main_v1) (((cfg0.win 4).blk t).view.emb j)
  refine (congrFun (pay_eq (V c main_arg1) (V c main_arg4) (V c main_v0) (V c main_v1)) j).trans ?_
  refine congrArg (out (V c main_arg1) (V c main_arg4) (V c main_v0) (V c main_v1)) (funext fun a => Fin.ext ?_)
  match a with
  | ⟨0, _⟩ => show (j 0).val = win0_4.index t (0 : Fin 2) * 16384 + 1 * (j 0).val; rw [e0]; omega
  | ⟨1, _⟩ => show (j 1).val = win0_4.index t (1 : Fin 2) * 128 + 1 * (j 1).val; rw [e1]; omega

/-- The one block written back covers the output array. -/
theorem covered (c : Dev nD) (i : ((cfg0.win 4).arr.view.loc ((c : Dev nD).tc : Thread nD τ)).2.ty.Idx) :
    ∃ t : Fin cfg0.N, (cfg0.win 4).flush t = true ∧ i ∈ ((cfg0.win 4).blk t).view.set := by
  refine ⟨t0_0, flush0_4 t0_0, ?_⟩
  show i ∈ ((View.whole main_v2).slice (win0_4.rect t0_0)).set
  rw [View.set_slice_whole, Rect.mem_set_unit]
  intro a
  have h0 : (i 0 : Nat) < 16384 := (i 0).isLt
  have h1 : (i 1 : Nat) < 128 := (i 1).isLt
  match a with
  | ⟨0, _⟩ =>
    show win0_4.index t0_0 0 * win0_4.size 0 ≤ (i 0 : Nat)
      ∧ (i 0 : Nat) < win0_4.index t0_0 0 * win0_4.size 0 + win0_4.xsize (grid0.coords t0_0) 0
    rw [show win0_4.index t0_0 0 * win0_4.size 0 = 0 from by decide +kernel,
      show win0_4.xsize (grid0.coords t0_0) 0 = 16384 from by decide +kernel]
    omega
  | ⟨1, _⟩ =>
    show win0_4.index t0_0 1 * win0_4.size 1 ≤ (i 1 : Nat)
      ∧ (i 1 : Nat) < win0_4.index t0_0 1 * win0_4.size 1 + win0_4.xsize (grid0.coords t0_0) 1
    rw [show win0_4.index t0_0 1 * win0_4.size 1 = 0 from by decide +kernel,
      show win0_4.xsize (grid0.coords t0_0) 1 = 128 from by decide +kernel]
    omega

end

/-- The output array of the first region, after its run, is `out` of the region's four input arrays. -/
theorem kernel_value
    (V : (c : Dev Cert.KernelIdeal.nD) → (b : Ref Cert.KernelIdeal.sig .tc) →
      Buf (Elt Ideal) ((c : Thread Cert.KernelIdeal.nD Cert.KernelIdeal.τ).loc b))
    (c : Dev Cert.KernelIdeal.nD) :
    (Cert.KernelIdeal.Gen.dat0 (F := Ideal) V c).arrAt 4 Cert.KernelIdeal.cfg0.N
      = out (V c Cert.KernelIdeal.main_arg1) (V c Cert.KernelIdeal.main_arg4)
          (V c Cert.KernelIdeal.main_v0) (V c Cert.KernelIdeal.main_v1) :=
  (Cert.KernelIdeal.Gen.dat0 (F := Ideal) V c).arrAt_eq_of_cover 4 _ (fun t _ => flushed_eq V c t) (covered c)

end Cert.StageA

end
-- ==== Proof.RefAVal.lean ====
import proofs.«171789_j3822520893918_1_alg».proof.Proof.RefA
import proofs.«171789_j3822520893918_1_alg».proof.Proof.LayoutA

/-!
The reference's first stage, as a pure term of its four argument arrays, is the specification of
the first stage: the host contraction with the transposed weight is the linear layer, the two host
sums over the rows (from a zero initial value) divided by 16384 are the column mean and the column
variance, each 128-vector is broadcast first to a row and then over the rows, and the remaining
operations are pointwise.
-/

noncomputable section

open scoped BigOperators

namespace Cert.StageA

open Idealize.ShloMosaic Idealize.ShloMosaic.ValueIdx
open Cert.ReferenceIdeal
open Cert.ReferenceIdeal.Facts₀ Cert.ReferenceIdeal.Facts

section
variable [Cert.ReferenceIdeal.Facts]
variable (a1 : FVec Ideal S16384x128 .f32) (a4 : FVec Ideal S128x128 .f32) (a7 a8 : FVec Ideal S128 .f32)

/-- The reference's contraction: features against the transposed weight. -/
def rLin : FVec Ideal S16384x128 .f32 :=
  Host.dotGeneral (F := Ideal) (φ₁ := .f32) (φ₂ := .f32) dot_S16384x128_S128x128_S16384x128_1_0_0_1_n_n none a1
    (transpose S128x128 [1, 0] a4 transposes_S128x128_S128x128_1_0)

/-- The reference's vector of column means. -/
def rMean : FVec Ideal S128 .f32 :=
  Host.divf (F := Ideal)
    (Host.reduceAdd (F := Ideal) (rLin a1 a4) (constant (F := Ideal) S_ .f32 0x00000000#32) reducesTo_S16384x128_S128_d0 h_S_)
    (broadcastInDim S128 ![] bcast_S_S128 (constant (F := Ideal) S_ .f32 0x46800000#32))

/-- A 128-vector broadcast to a row and then over the rows. -/
def overRows (v : FVec Ideal S128 .f32) : FVec Ideal S16384x128 .f32 :=
  broadcastInDim S16384x128 ![0, 1] bcast_S1x128_S16384x128_0_1 (broadcastInDim S1x128 ![1] bcast_S128_S1x128_1 v)

/-- The reference's deviations from the column means. -/
def rDev : FVec Ideal S16384x128 .f32 :=
  subf (F := Ideal) (rLin a1 a4) (overRows (rMean a1 a4))

/-- The reference's vector of column variances. -/
def rVar : FVec Ideal S128 .f32 :=
  Host.divf (F := Ideal)
    (Host.reduceAdd (F := Ideal) (mulf (F := Ideal) (rDev a1 a4) (rDev a1 a4)) (constant (F := Ideal) S_ .f32 0x00000000#32)
      reducesTo_S16384x128_S128_d0 h_S_)
    (broadcastInDim S128 ![] bcast_S_S128 (constant (F := Ideal) S_ .f32 0x46800000#32))

/-- The reference's vector of reciprocal square roots. -/
def rInv : FVec Ideal S128 .f32 :=
  Host.rsqrt (F := Ideal) (addf (F := Ideal) (rVar a1 a4) (broadcastInDim S128 ![] bcast_S_S128 (constant (F := Ideal) S_ .f32 0x3727C5AC#32)))

/-- The reference's term is these pieces composed with the pointwise scale, shift and rectifier. -/
theorem ref_unfold : Cert.RefA.ref a1 a4 a7 a8
    = maximumf (F := Ideal)
        (addf (F := Ideal)
          (mulf (F := Ideal) (mulf (F := Ideal) (rDev a1 a4) (overRows (rInv a1 a4))) (overRows a7))
          (overRows a8))
        (broadcastInDim S16384x128 ![] bcast_S_S16384x128 (constant (F := Ideal) S_ .f32 0x00000000#32)) := rfl

theorem overRows_apply (v : FVec Ideal S128 .f32) (n : Fin 16384) (c : Fin 128) : overRows v (ix2 n c) = v (ix1 c) := by
  unfold overRows
  rw [broadcastInDim_rows, broadcastInDim_row]

theorem rLin_apply (n : Fin 16384) (c : Fin 128) : rLin a1 a4 (ix2 n c) = lin a1 a4 n c := by
  unfold rLin lin
  refine (Ideal.dotGeneral_apply _ none .single _ _ (ix2 n c)).trans ?_
  refine (contr_sum dot_S16384x128_S128x128_S16384x128_1_0_0_1_n_n rfl rfl rfl rfl rfl rfl _ _ n c).trans ?_
  refine Finset.sum_congr rfl fun k _ => ?_
  rw [transpose_weight]

theorem zero_init (j : S_.Idx) : constant (F := Ideal) S_ .f32 0x00000000#32 j = 0 := Ideal.ofBits_zero_f32

theorem rMean_apply (c : Fin 128) : rMean a1 a4 (ix1 c) = mean a1 a4 c := by
  unfold rMean mean cnt
  show Ideal.div (Host.reduceAdd (F := Ideal) (rLin a1 a4) _ reducesTo_S16384x128_S128_d0 h_S_ (ix1 c))
      (broadcastInDim S128 ![] bcast_S_S128 (constant (F := Ideal) S_ .f32 0x46800000#32) (ix1 c)) = _
  rw [hostReduceAdd_rows _ _ _ _ zero_init, broadcastInDim_scalar_vec]
  refine congrArg (fun t => Ideal.div t (Ideal.ofBits .f32 0x46800000#32)) ?_
  exact Finset.sum_congr rfl fun n _ => rLin_apply a1 a4 n c

theorem rDev_apply (n : Fin 16384) (c : Fin 128) : rDev a1 a4 (ix2 n c) = lin a1 a4 n c - mean a1 a4 c := by
  unfold rDev
  show rLin a1 a4 (ix2 n c) - overRows (rMean a1 a4) (ix2 n c) = _
  rw [rLin_apply, overRows_apply, rMean_apply]

theorem rVar_apply (c : Fin 128) : rVar a1 a4 (ix1 c) = var a1 a4 c := by
  unfold rVar var cnt
  show Ideal.div (Host.reduceAdd (F := Ideal) (mulf (F := Ideal) (rDev a1 a4) (rDev a1 a4)) _ reducesTo_S16384x128_S128_d0 h_S_ (ix1 c))
      (broadcastInDim S128 ![] bcast_S_S128 (constant (F := Ideal) S_ .f32 0x46800000#32) (ix1 c)) = _
  rw [hostReduceAdd_rows _ _ _ _ zero_init, broadcastInDim_scalar_vec]
  refine congrArg (fun t => Ideal.div t (Ideal.ofBits .f32 0x46800000#32)) ?_
  refine Finset.sum_congr rfl fun n _ => ?_
  show rDev a1 a4 (ix2 n c) * rDev a1 a4 (ix2 n c) = _
  rw [rDev_apply]

theorem rInv_apply (c : Fin 128) : rInv a1 a4 (ix1 c) = Ideal.rsqrt (var a1 a4 c + eps) := by
  unfold rInv eps
  show Ideal.rsqrt (rVar a1 a4 (ix1 c) + broadcastInDim S128 ![] bcast_S_S128 (constant (F := Ideal) S_ .f32 0x3727C5AC#32) (ix1 c)) = _
  rw [rVar_apply, broadcastInDim_scalar_vec]
  rfl

/-- The reference's term at row `n`, column `c`. -/
theorem ref_apply (n : Fin 16384) (c : Fin 128) :
    Cert.RefA.ref a1 a4 a7 a8 (ix2 n c)
      = max ((lin a1 a4 n c - mean a1 a4 c) * Ideal.rsqrt (var a1 a4 c + eps) * a7 (ix1 c) + a8 (ix1 c))
          (Ideal.ofBits .f32 0x00000000#32) := by
  rw [ref_unfold]
  show max (rDev a1 a4 (ix2 n c) * overRows (rInv a1 a4) (ix2 n c) * overRows a7 (ix2 n c) + overRows a8 (ix2 n c))
      (broadcastInDim S16384x128 ![] bcast_S_S16384x128 (constant (F := Ideal) S_ .f32 0x00000000#32) (ix2 n c)) = _
  rw [rDev_apply, overRows_apply, overRows_apply, overRows_apply, rInv_apply, broadcastInDim_scalar_rows]
  rfl

end

/-- The reference's first stage is `out` of the features, the weight, and the scale and shift vectors
    recast as rows (whatever the proof that a 128-vector recasts as a 1 × 128 row). -/
theorem ref_value [Cert.ReferenceIdeal.Facts]
    (arg1 : (⟨Cert.ReferenceIdeal.S16384x128, .f32⟩ : BufTy).Contents (Elt Ideal))
    (arg4 : (⟨Cert.ReferenceIdeal.S128x128, .f32⟩ : BufTy).Contents (Elt Ideal))
    (arg7 arg8 : (⟨Cert.ReferenceIdeal.S128, .f32⟩ : BufTy).Contents (Elt Ideal))
    (h : Cert.ReferenceIdeal.S128.ShapeCasts Sh1C) :
    Cert.RefA.ref arg1 arg4 arg7 arg8
      = out arg1 arg4 (shapeCast Sh1C arg7 h) (shapeCast Sh1C arg8 h) := by
  funext j
  obtain ⟨n, c, rfl⟩ : ∃ (n : Fin 16384) (c : Fin 128), j = ix2 n c := ⟨j 0, j 1, eq_ix2 j⟩
  refine (ref_apply arg1 arg4 arg7 arg8 n c).trans ?_
  show _ = outAt arg1 arg4 (shapeCast Sh1C arg7 h) (shapeCast Sh1C arg8 h) n c
  unfold outAt
  rw [shapeCast_row, shapeCast_row]

end Cert.StageA

end
-- ==== Proof.StageA.lean ====
import proofs.«171789_j3822520893918_1_alg».proof.Proof.SpecA
import proofs.«171789_j3822520893918_1_alg».proof.Proof.RefA
import proofs.«171789_j3822520893918_1_alg».proof.Proof.KernA
import proofs.«171789_j3822520893918_1_alg».proof.Proof.RefAVal

/-!
The first stage (linear layer, batch normalisation over the rows, rectifier) of both programs:
the specification `Cert.StageA.out`, the kernel region's output array as that function
(`Cert.StageA.kernel_value`), the reference's term as that function (`Cert.StageA.ref_value`), and
the result real whenever the inputs are (`Cert.StageA.out_real`).
-/
-- ==== Proof.SpecC.lean ====
import Idealize.ShloMosaic.PureOps.Ideal
import Idealize.ShloMosaic.Lib.ValueIdx

/-!
# The last stage's value, stated once

Both programs end with the same computation on a 16384 × 128 array `x`:

* a batch normalisation over the 16384 rows: per column `j` the mean `μ j = (∑ r, x r j) / 16384`,
  the biased variance `σ² j = (∑ r, (x r j − μ j)²) / 16384`, and
  `(x r j − μ j) · rsqrt (σ² j + ε) · g j + b j`;
* a rectification `max · 0`;
* the product with the transposed 128 × 128 weight, `∑ k, a r k · w j k`;
* a second batch normalisation, the addition of the input features and a last rectification.

The divisor 16384 and ε are the f32 words both programs print; they are never evaluated.
-/

noncomputable section

open scoped BigOperators

namespace Cert.StageC

open Idealize.ShloMosaic Idealize.ShloMosaic.ValueIdx

/-- The shape of the feature arrays. -/
abbrev SA : Shape := ⟨2, ![16384, 128]⟩
/-- The shape of the weight. -/
abbrev SW : Shape := ⟨2, ![128, 128]⟩
/-- The shape of a scale or shift as the kernel holds it: one row. -/
abbrev SR : Shape := ⟨2, ![1, 128]⟩

/-- The number of rows, 16384, as the f32 word both programs divide by. -/
def cnt : EReal := Ideal.ofBits .f32 0x46800000#32
/-- The batch normalisation's ε as the f32 word both programs add. -/
def eps : EReal := Ideal.ofBits .f32 0x3727C5AC#32

/-- A per-column quantity read at every row. -/
def cols (f : Fin 128 → EReal) : FVec Ideal SA .f32 := fun i => f (i 1)

@[simp] theorem cols_apply (f : Fin 128 → EReal) (r : Fin 16384) (j : Fin 128) : cols f (ix2 r j) = f j := rfl

/-- The sum of column `j` over the 16384 rows. -/
def colSum (x : FVec Ideal SA .f32) (j : Fin 128) : EReal := ∑ r : Fin 16384, x (ix2 r j)

/-- The mean of column `j`. -/
def mean (x : FVec Ideal SA .f32) (j : Fin 128) : EReal := Ideal.div (colSum x j) cnt

/-- The array with each column's mean subtracted. -/
def centred (x : FVec Ideal SA .f32) : FVec Ideal SA .f32 := subf x (cols (mean x))

/-- The biased variance of column `j`. -/
def var (x : FVec Ideal SA .f32) (j : Fin 128) : EReal :=
  Ideal.div (colSum (mulf (centred x) (centred x)) j) cnt

/-- Normalisation of `y` by given per-column statistics: `(y r j − μ j) · rsqrt (σ² j + ε) · γ j + β j`. -/
def scale (y : FVec Ideal SA .f32) (μ σ2 γ β : Fin 128 → EReal) : FVec Ideal SA .f32 :=
  addf (mulf (mulf (subf y (cols μ)) (cols fun j => Ideal.rsqrt (σ2 j + eps))) (cols γ)) (cols β)

/-- Batch normalisation over the rows with scale `g` and shift `b` (each one row). -/
def bn (x : FVec Ideal SA .f32) (g b : FVec Ideal SR .f32) : FVec Ideal SA .f32 :=
  scale x (mean x) (var x) (fun j => g (ix2 0 j)) (fun j => b (ix2 0 j))

/-- Rectification: the maximum with the f32 zero word. -/
def relu (v : FVec Ideal SA .f32) : FVec Ideal SA .f32 := maximumf v (constant SA .f32 0x00000000#32)

/-- The dimension numbers of the product: the left operand's columns against the right operand's rows. -/
def dims : DotDims SA SW SA where
  lhsContracting := [1]
  rhsContracting := [0]
  lhsNonContracting := [0]
  rhsNonContracting := [1]
  lhsBatch := []
  rhsBatch := []
  wf := by decide

/-- The product of `a` with the transposed weight: at `(r, j)` the sum over `k` of `a r k · w j k`,
    onto a zero accumulator. -/
def mm (a : FVec Ideal SA .f32) (w : FVec Ideal SW .f32) : FVec Ideal SA .f32 :=
  Ideal.matmul dims a (transpose SW [1, 0] w (by decide)) (fun _ => 0)

/-- The last stage: normalise, rectify, multiply by the weight, normalise, add the features, rectify. -/
def out (x2 feat : FVec Ideal SA .f32) (w3 : FVec Ideal SW .f32) (g2 b2 g3 b3 : FVec Ideal SR .f32) :
    FVec Ideal SA .f32 :=
  relu (addf feat (bn (mm (relu (bn x2 g2 b2)) w3) g3 b3))

end Cert.StageC

end
-- ==== Proof.KernCBn.lean ====
import proofs.«171789_j3822520893918_1_alg».proof.Proof.SpecC
import proofs.«171789_j3822520893918_1_alg».proof.Proof.Gen.KernelIdeal.Skeleton
import Idealize.ShloMosaic.PureOps.Ideal.Laws
import Idealize.ShloMosaic.Lib.ValueLayout
import Idealize.ShloMosaic.Lib.Pipeline.Value

/-!
# The kernel's last body is `Cert.StageC.out` of its operands

The body's arithmetic is read one operation at a time: a row `[1,128]` broadcast over the rows is a
per-column quantity read at every row; the sum over axis 0 of a `[16384,128]` array, cast to one row,
is the column sum; a format change is the identity on extended reals; a product into the zero
accumulator is the plain contraction. No algebraic law is used: both sides are the same formula.
-/

noncomputable section

open scoped BigOperators

namespace Cert.StageC.K

open Idealize.ShloMosaic Idealize.ShloMosaic.ValueIdx
open Cert.KernelIdeal Cert.KernelIdeal.Gen

/-- One row broadcast over the 16384 rows reads, everywhere in column `j`, the row's entry `j`. -/
theorem up_eq (u : FVec Ideal SR .f32) (h : SR.Broadcasts SA) :
    broadcastTo SA u h = cols (fun j => u (ix2 0 j)) := by
  funext i
  obtain ⟨r, j, rfl⟩ : ∃ (r : Fin 16384) (j : Fin 128), i = ix2 r j := ⟨i 0, i 1, eq_ix2 i⟩
  exact broadcastTo_1b_ab_apply u h r j

/-- The sum over the rows, as the body computes it: reduce axis 0, then cast the 128 sums to one row. -/
def sumRow (x : FVec Ideal S16384x128 .f32) : FVec Ideal S1x128 .f32 :=
  shapeCast S1x128 (multiReduction .add [0] S128 x 0x00000000#32 reduces_S16384x128_S128 (.inl rfl) rfl)
    shapeCasts_S128_S1x128

/-- Its entry `j` is the sum of column `j`. -/
theorem sumRow_apply (x : FVec Ideal S16384x128 .f32) (u : Fin 1) (j : Fin 128) :
    sumRow x (ix2 u j) = colSum x j := by
  unfold sumRow
  rw [shapeCast_a_1a_apply]
  refine (Ideal.multiReduction_add_single x _ reduces_S16384x128_S128 (.inl rfl) rfl (ix1 j)).trans ?_
  refine Finset.sum_congr rfl fun k _ => congrArg x ?_
  funext a
  match a with
  | ⟨0, _⟩ => rfl
  | ⟨1, _⟩ => rfl

/-- The mean row: the column sums divided by the row count, as one row. -/
def meanRow (x : FVec Ideal S16384x128 .f32) : FVec Ideal S1x128 .f32 :=
  divf (sumRow x) (broadcast S1x128 (Scalar.ofBits .f32 0x46800000#32))

/-- Its entry `j` is the mean of column `j`. -/
theorem meanRow_apply (x : FVec Ideal S16384x128 .f32) (u : Fin 1) (j : Fin 128) :
    meanRow x (ix2 u j) = mean x j := by
  show Ideal.div (sumRow x (ix2 u j)) cnt = _
  rw [sumRow_apply]
  rfl

/-- The body's normalisation of `y` by a mean row `m` and an array `sq` of squared deviations, with scale
    `g` and shift `b`: the operations in the body's order. -/
def scaleK (y : FVec Ideal S16384x128 .f32) (m : FVec Ideal S1x128 .f32) (sq : FVec Ideal S16384x128 .f32)
    (g b : FVec Ideal S1x128 .f32) : FVec Ideal S16384x128 .f32 :=
  addf
    (mulf
      (mulf (subf y (broadcastTo S16384x128 m broadcasts_S1x128_S16384x128))
        (broadcastTo S16384x128
          (rsqrt (addf (divf (sumRow sq) (broadcast S1x128 (Scalar.ofBits .f32 0x46800000#32)))
            (broadcast S1x128 (Scalar.ofBits .f32 0x3727C5AC#32))))
          broadcasts_S1x128_S16384x128))
      (broadcastTo S16384x128 (shapeCast S1x128 g shapeCasts_S1x128_S1x128) broadcasts_S1x128_S16384x128))
    (broadcastTo S16384x128 (shapeCast S1x128 b shapeCasts_S1x128_S1x128) broadcasts_S1x128_S16384x128)

/-- It is the specification's `scale` at the per-column readings of its rows. -/
theorem scaleK_eq (y : FVec Ideal S16384x128 .f32) (m : FVec Ideal S1x128 .f32) (sq : FVec Ideal S16384x128 .f32)
    (g b : FVec Ideal S1x128 .f32) :
    scaleK y m sq g b
      = scale y (fun j => m (ix2 0 j)) (fun j => Ideal.div (colSum sq j) cnt) (fun j => g (ix2 0 j))
          (fun j => b (ix2 0 j)) := by
  unfold scaleK scale
  rw [shapeCast_self, shapeCast_self]
  simp only [up_eq]
  have e : (fun j : Fin 128 =>
      (rsqrt (addf (divf (sumRow sq) (broadcast S1x128 (Scalar.ofBits .f32 0x46800000#32)))
        (broadcast S1x128 (Scalar.ofBits .f32 0x3727C5AC#32))) : FVec Ideal S1x128 .f32) (ix2 0 j))
      = fun j => Ideal.rsqrt (Ideal.div (colSum sq j) cnt + eps) := by
    funext j
    show Ideal.rsqrt (Ideal.div (sumRow sq (ix2 0 j)) cnt + eps) = _
    rw [sumRow_apply]
  rw [e]

/-- The body's batch normalisation: the mean row, the squared deviations from it, then `scaleK`. -/
def bnK (x : FVec Ideal S16384x128 .f32) (g b : FVec Ideal S1x128 .f32) : FVec Ideal S16384x128 .f32 :=
  scaleK x (meanRow x)
    (mulf (subf x (broadcastTo S16384x128 (meanRow x) broadcasts_S1x128_S16384x128))
      (subf x (broadcastTo S16384x128 (meanRow x) broadcasts_S1x128_S16384x128))) g b

/-- The mean row broadcast over the rows is the per-column mean read at every row. -/
theorem up_meanRow (x : FVec Ideal S16384x128 .f32) :
    broadcastTo S16384x128 (meanRow x) broadcasts_S1x128_S16384x128 = cols (mean x) := by
  rw [up_eq]
  exact congrArg cols (funext fun j => meanRow_apply x 0 j)

/-- The body's batch normalisation is the specification's. -/
theorem bnK_eq (x : FVec Ideal S16384x128 .f32) (g b : FVec Ideal S1x128 .f32) : bnK x g b = bn x g b := by
  unfold bnK
  rw [scaleK_eq, up_meanRow]
  unfold bn
  exact congrArg (fun μ => scale x μ (var x) (fun j => g (ix2 0 j)) (fun j => b (ix2 0 j)))
    (funext fun j => meanRow_apply x 0 j)

/-- The body's rectification: the maximum with the broadcast zero word. -/
theorem reluK_eq (v : FVec Ideal S16384x128 .f32) :
    maximumf v (broadcast S16384x128 (Scalar.ofBits .f32 0x00000000#32)) = relu v := rfl

/-- The body's product: both operands changed to bf16 (the identity on extended reals), the weight
    transposed, into the zero accumulator. It is the specification's contraction. -/
theorem mmK_eq (a : FVec Ideal S16384x128 .f32) (w : FVec Ideal S128x128 .f32) :
    matmul dot_S16384x128_S128x128_S16384x128_1_0_0_1_n_n none (truncf .bf16 a bitsLt_bf16_f32)
        (transpose S128x128 [1, 0] (truncf .bf16 w bitsLt_bf16_f32) transposes_S128x128_p1_0_S128x128)
        (constant S16384x128 .f32 0x00000000#32)
      = mm a w := by
  funext i
  show Ideal.ofBits .f32 0x00000000#32 + _ = (0 : EReal) + _
  rw [Ideal.ofBits_zero_f32]
  rfl

end Cert.StageC.K

end
-- ==== Proof.KernCPay.lean ====
import proofs.«171789_j3822520893918_1_alg».proof.Proof.KernCBn
import proofs.«171789_j3822520893918_1_alg».proof.Proof.Gen.KernelIdeal.Frame

/-!
# What the last body stores is `Cert.StageC.out` of what it loads

The body's four pure values are read in the order the body computes them: the product `y` of the
first normalisation's rectified result with the weight; `y`'s mean row; the squared deviations of
`y` from it; and the stored value, the second normalisation of `y` plus the features, rectified.
-/

noncomputable section

namespace Cert.StageC.K

open Idealize.ShloMosaic Idealize.ShloMosaic.ValueIdx
open Cert.KernelIdeal Cert.KernelIdeal.Gen

/-- The product: normalise the loaded array, rectify, multiply by the transposed weight. -/
theorem pay2_eq (x : Vec Ideal S16384x128 .f32) (g b : Vec Ideal S1x128 .f32) (w : Vec Ideal S128x128 .f32) :
    k2_pay2 x g b w = mm (relu (bn x g b)) w := by
  have h : k2_pay2 x g b w
      = matmul dot_S16384x128_S128x128_S16384x128_1_0_0_1_n_n none
          (truncf .bf16
            (maximumf (bnK (shapeCast S16384x128 x shapeCasts_S16384x128_S16384x128) g b)
              (broadcast S16384x128 (Scalar.ofBits .f32 0x00000000#32))) bitsLt_bf16_f32)
          (transpose S128x128 [1, 0] (truncf .bf16 w bitsLt_bf16_f32) transposes_S128x128_p1_0_S128x128)
          (constant S16384x128 .f32 0x00000000#32) := rfl
  rw [h, shapeCast_self, mmK_eq, reluK_eq, bnK_eq]

/-- The stored value: the second normalisation of the product, plus the features, rectified. -/
theorem body_eq (x feat : Vec Ideal S16384x128 .f32) (w : Vec Ideal S128x128 .f32)
    (g2 b2 g3 b3 : Vec Ideal S1x128 .f32) :
    k2_pay1 (k2_pay2 x g2 b2 w) (k2_pay3 x g2 b2 w) (k2_pay4 x g2 b2 w) g3 b3 feat
      = out x feat w g2 b2 g3 b3 := by
  have h : k2_pay1 (k2_pay2 x g2 b2 w) (k2_pay3 x g2 b2 w) (k2_pay4 x g2 b2 w) g3 b3 feat
      = maximumf (addf feat (bnK (k2_pay2 x g2 b2 w) g3 b3))
          (broadcast S16384x128 (Scalar.ofBits .f32 0x00000000#32)) := rfl
  rw [h, reluK_eq, bnK_eq, pay2_eq]
  rfl

theorem hz : (![0, 0] : Fin 2 → Nat) = fun _ => 0 := funext fun a => by fin_cases a <;> rfl

/-- What the body leaves in the output's buffer, from the input windows' blocks. -/
theorem out2_7_eq (x0 x1 : Vec Ideal S16384x128 .f32) (x2 : Vec Ideal S128x128 .f32)
    (x3 x4 x5 x6 : Vec Ideal S1x128 .f32) :
    out2_7 x0 x1 x2 x3 x4 x5 x6 = out x0 x1 x2 x3 x4 x5 x6 := by
  unfold out2_7
  rw [View.canon_unit_zero hz]
  simp only [View.ld_unit_zero (S := S16384x128) hz, View.ld_unit_zero (S := S1x128) hz,
    View.ld_unit_zero (S := S128x128) hz]
  exact body_eq x0 x1 x2 x3 x4 x5 x6

end Cert.StageC.K

end
-- ==== Proof.KernC.lean ====
import proofs.«171789_j3822520893918_1_alg».proof.Proof.KernCPay
import proofs.«171789_j3822520893918_1_alg».proof.Proof.Gen.KernelIdeal.Frame
import Idealize.ShloMosaic.Lib.Pipeline.Value

/-!
# The last region's output array

The region's grid has one point and every window is its whole array, at block index zero: each input
block is the array the region finds, the one write-back writes the whole output array, and that
array ends holding `Cert.StageC.out` of the seven input arrays.
-/

noncomputable section

namespace Cert.StageC.K

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Input window 0's block is the array it stages. -/
theorem iblk_0 (c : Dev nD) (t : Fin cfg2.N) : (iblk2 V c 0 t : Vec Ideal S16384x128 .f32) = V c main_v24 := by
  have hz : (fun a => win2_0.index t a * main_v24.ty.shape.size a) = fun _ => 0 :=
    funext fun a => by
      have h : win2_0.index t a = 0 := by fin_cases a <;> rfl
      rw [h, Nat.zero_mul]
  exact Memref.read_access_unit_zero (Elt Ideal) main_v24 hz (fun a => by rw [congrFun hz a]; simp) (V c main_v24)

/-- Input window 1's block is the array it stages. -/
theorem iblk_1 (c : Dev nD) (t : Fin cfg2.N) : (iblk2 V c 1 t : Vec Ideal S16384x128 .f32) = V c main_arg1 := by
  have hz : (fun a => win2_1.index t a * main_arg1.ty.shape.size a) = fun _ => 0 :=
    funext fun a => by
      have h : win2_1.index t a = 0 := by fin_cases a <;> rfl
      rw [h, Nat.zero_mul]
  exact Memref.read_access_unit_zero (Elt Ideal) main_arg1 hz (fun a => by rw [congrFun hz a]; simp) (V c main_arg1)

/-- Input window 2's block is the array it stages. -/
theorem iblk_2 (c : Dev nD) (t : Fin cfg2.N) : (iblk2 V c 2 t : Vec Ideal S128x128 .f32) = V c main_arg5 := by
  have hz : (fun a => win2_2.index t a * main_arg5.ty.shape.size a) = fun _ => 0 :=
    funext fun a => by
      have h : win2_2.index t a = 0 := by fin_cases a <;> rfl
      rw [h, Nat.zero_mul]
  exact Memref.read_access_unit_zero (Elt Ideal) main_arg5 hz (fun a => by rw [congrFun hz a]; simp) (V c main_arg5)

/-- Input window 3's block is the array it stages. -/
theorem iblk_3 (c : Dev nD) (t : Fin cfg2.N) : (iblk2 V c 3 t : Vec Ideal S1x128 .f32) = V c main_v25 := by
  have hz : (fun a => win2_3.index t a * main_v25.ty.shape.size a) = fun _ => 0 :=
    funext fun a => by
      have h : win2_3.index t a = 0 := by fin_cases a <;> rfl
      rw [h, Nat.zero_mul]
  exact Memref.read_access_unit_zero (Elt Ideal) main_v25 hz (fun a => by rw [congrFun hz a]; simp) (V c main_v25)

/-- Input window 4's block is the array it stages. -/
theorem iblk_4 (c : Dev nD) (t : Fin cfg2.N) : (iblk2 V c 4 t : Vec Ideal S1x128 .f32) = V c main_v26 := by
  have hz : (fun a => win2_4.index t a * main_v26.ty.shape.size a) = fun _ => 0 :=
    funext fun a => by
      have h : win2_4.index t a = 0 := by fin_cases a <;> rfl
      rw [h, Nat.zero_mul]
  exact Memref.read_access_unit_zero (Elt Ideal) main_v26 hz (fun a => by rw [congrFun hz a]; simp) (V c main_v26)

/-- Input window 5's block is the array it stages. -/
theorem iblk_5 (c : Dev nD) (t : Fin cfg2.N) : (iblk2 V c 5 t : Vec Ideal S1x128 .f32) = V c main_v27 := by
  have hz : (fun a => win2_5.index t a * main_v27.ty.shape.size a) = fun _ => 0 :=
    funext fun a => by
      have h : win2_5.index t a = 0 := by fin_cases a <;> rfl
      rw [h, Nat.zero_mul]
  exact Memref.read_access_unit_zero (Elt Ideal) main_v27 hz (fun a => by rw [congrFun hz a]; simp) (V c main_v27)

/-- Input window 6's block is the array it stages. -/
theorem iblk_6 (c : Dev nD) (t : Fin cfg2.N) : (iblk2 V c 6 t : Vec Ideal S1x128 .f32) = V c main_v28 := by
  have hz : (fun a => win2_6.index t a * main_v28.ty.shape.size a) = fun _ => 0 :=
    funext fun a => by
      have h : win2_6.index t a = 0 := by fin_cases a <;> rfl
      rw [h, Nat.zero_mul]
  exact Memref.read_access_unit_zero (Elt Ideal) main_v28 hz (fun a => by rw [congrFun hz a]; simp) (V c main_v28)

/-- The result: `out` of the seven arrays the region finds. -/
abbrev result (c : Dev nD) : Buf (Elt Ideal) ((c : Thread nD τ).loc main_v29) :=
  out (V c main_v24) (V c main_arg1) (V c main_arg5) (V c main_v25) (V c main_v26) (V c main_v27) (V c main_v28)

/-- What the one point writes back is the whole of `result`. -/
theorem flushed_eq (c : Dev nD) (t : Fin cfg2.N) :
    (dat2 V c).flushed 7 t = ((cfg2.win 7).blk t).view.read (Elt Ideal) (result V c) := by
  show (cfg2.win 7).cut (grid2.coords t) ((dat2 V c).after 7 t) = _
  rw [after2_7, out2_7_eq, iblk_0, iblk_1, iblk_2, iblk_3, iblk_4, iblk_5, iblk_6]
  have hz : (fun a => win2_7.index t a * main_v29.ty.shape.size a) = fun _ => 0 :=
    funext fun a => by
      have h : win2_7.index t a = 0 := by fin_cases a <;> rfl
      rw [h, Nat.zero_mul]
  exact (Memref.read_access_unit_zero (Elt Ideal) main_v29 hz (fun a => by rw [congrFun hz a]; simp) (result V c)).symm

/-- The output array after the region. -/
theorem final (c : Dev nD) : (dat2 V c).arrAt 7 cfg2.N = result V c :=
  (dat2 V c).arrAt_eq_of_cover 7 (result V c) (fun t _ => flushed_eq V c t) fun i =>
    ⟨t2_0, flush2_7 t2_0, by
      show i ∈ ((View.whole main_v29).slice (win2_7.rect t2_0)).set
      rw [View.set_slice_whole, Rect.mem_set_unit]
      intro a
      have h0 : (i 0 : Nat) < 16384 := (i 0).isLt
      have h1 : (i 1 : Nat) < 128 := (i 1).isLt
      match a with
      | ⟨0, _⟩ =>
        show 0 * 16384 ≤ (i 0 : Nat) ∧ (i 0 : Nat) < 0 * 16384 + 16384
        omega
      | ⟨1, _⟩ =>
        show 0 * 128 ≤ (i 1 : Nat) ∧ (i 1 : Nat) < 0 * 128 + 128
        omega⟩

end Cert.StageC.K

end
-- ==== Proof.StageC.lean ====
import proofs.«171789_j3822520893918_1_alg».proof.Proof.SpecC
import proofs.«171789_j3822520893918_1_alg».proof.Proof.KernC
import proofs.«171789_j3822520893918_1_alg».proof.Proof.Gen.KernelIdeal.Frame

/-!
# The last stage: the kernel's third region computes `Cert.StageC.out`

The region normalises the aggregated features over the rows, rectifies, multiplies by the transposed
weight, normalises again, adds the input features and rectifies; its output array ends holding that
function of the seven arrays the region finds.
-/

noncomputable section

namespace Cert.StageC

open Idealize.ShloMosaic Idealize.ShloMosaic.TcCoe Idealize.SL.Sem

/-- The kernel's last region leaves `out` of the arrays it finds in its output array. -/
theorem kernel_value
    (V : (c : Dev Cert.KernelIdeal.nD) → (b : Ref Cert.KernelIdeal.sig .tc) →
      Buf (Elt Ideal) ((c : Thread Cert.KernelIdeal.nD Cert.KernelIdeal.τ).loc b))
    (c : Dev Cert.KernelIdeal.nD) :
    (Cert.KernelIdeal.Gen.dat2 (F := Ideal) V c).arrAt 7 Cert.KernelIdeal.cfg2.N
      = out (V c Cert.KernelIdeal.main_v24) (V c Cert.KernelIdeal.main_arg1) (V c Cert.KernelIdeal.main_arg5)
          (V c Cert.KernelIdeal.main_v25) (V c Cert.KernelIdeal.main_v26) (V c Cert.KernelIdeal.main_v27)
          (V c Cert.KernelIdeal.main_v28) :=
  K.final V c

end Cert.StageC

end
-- ==== Proof.RefC.lean ====
import proofs.«171789_j3822520893918_1_alg».proof.ReferenceIdeal
import Idealize.ShloMosaic.PureOps.Ideal

/-!
# The reference's last stage as one closed term

Batch normalisation over the 16384 rows (mean, biased variance, reciprocal square root of
variance plus epsilon, scale and shift), rectification, the product with the transposed
128×128 weight, a second batch normalisation, the residual addition and a last rectification:
the operations the reference program performs on the aggregated features, composed in its order.
Every operation is spelt as the reference program spells it; a value used more than once is bound once.
-/

noncomputable section

namespace Cert.RefC

open Idealize.ShloMosaic Idealize.SL.Sem
open Cert.ReferenceIdeal
open Cert.ReferenceIdeal.Facts₀ Cert.ReferenceIdeal.Facts

/-- The value the reference's last stage computes from the aggregated features `x2`, the input
    features `arg1`, the weight `arg5` and the two batch normalisations' scales and shifts. -/
def ref [Cert.ReferenceIdeal.Facts] (x2 arg1 : (⟨S16384x128, .f32⟩ : BufTy).Contents (Elt Ideal))
    (arg5 : (⟨S128x128, .f32⟩ : BufTy).Contents (Elt Ideal))
    (arg9 arg10 arg11 arg12 : (⟨S128, .f32⟩ : BufTy).Contents (Elt Ideal)) :
    (⟨S16384x128, .f32⟩ : BufTy).Contents (Elt Ideal) :=
  let v67 : FVec Ideal S128 .f32 := ((fun x v => Host.reduceAdd (F := Ideal) (φ := .f32) x v reducesTo_S16384x128_S128_d0 h_S_) : FVec Ideal S16384x128 .f32 → FVec Ideal S_ .f32 → FVec Ideal S128 .f32) x2 (constant (F := Ideal) S_ .f32 0x00000000#32 : FVec Ideal S_ .f32)
  let v68 : FVec Ideal S128 .f32 := (broadcastInDim S128 ![] bcast_S_S128 : FVec Ideal S_ .f32 → FVec Ideal S128 .f32) (constant (F := Ideal) S_ .f32 0x46800000#32 : FVec Ideal S_ .f32)
  let v69 : FVec Ideal S128 .f32 := (Host.divf (F := Ideal) (φ := .f32) : FVec Ideal S128 .f32 → FVec Ideal S128 .f32 → FVec Ideal S128 .f32) v67 v68
  let v70 : FVec Ideal S1x128 .f32 := (broadcastInDim S1x128 ![1] bcast_S128_S1x128_1 : FVec Ideal S128 .f32 → FVec Ideal S1x128 .f32) v69
  let v71 : FVec Ideal S16384x128 .f32 := (broadcastInDim S16384x128 ![0, 1] bcast_S1x128_S16384x128_0_1 : FVec Ideal S1x128 .f32 → FVec Ideal S16384x128 .f32) v70
  let v72 : FVec Ideal S16384x128 .f32 := (subf (F := Ideal) (φ := .f32) : FVec Ideal S16384x128 .f32 → FVec Ideal S16384x128 .f32 → FVec Ideal S16384x128 .f32) x2 v71
  let v73 : FVec Ideal S16384x128 .f32 := (mulf (F := Ideal) (φ := .f32) : FVec Ideal S16384x128 .f32 → FVec Ideal S16384x128 .f32 → FVec Ideal S16384x128 .f32) v72 v72
  let v74 : FVec Ideal S128 .f32 := ((fun x v => Host.reduceAdd (F := Ideal) (φ := .f32) x v reducesTo_S16384x128_S128_d0 h_S_) : FVec Ideal S16384x128 .f32 → FVec Ideal S_ .f32 → FVec Ideal S128 .f32) v73 (constant (F := Ideal) S_ .f32 0x00000000#32 : FVec Ideal S_ .f32)
  let v75 : FVec Ideal S128 .f32 := (broadcastInDim S128 ![] bcast_S_S128 : FVec Ideal S_ .f32 → FVec Ideal S128 .f32) (constant (F := Ideal) S_ .f32 0x46800000#32 : FVec Ideal S_ .f32)
  let v76 : FVec Ideal S128 .f32 := (Host.divf (F := Ideal) (φ := .f32) : FVec Ideal S128 .f32 → FVec Ideal S128 .f32 → FVec Ideal S128 .f32) v74 v75
  let v77 : FVec Ideal S1x128 .f32 := (broadcastInDim S1x128 ![1] bcast_S128_S1x128_1 : FVec Ideal S128 .f32 → FVec Ideal S1x128 .f32) v69
  let v78 : FVec Ideal S16384x128 .f32 := (broadcastInDim S16384x128 ![0, 1] bcast_S1x128_S16384x128_0_1 : FVec Ideal S1x128 .f32 → FVec Ideal S16384x128 .f32) v77
  let v79 : FVec Ideal S16384x128 .f32 := (subf (F := Ideal) (φ := .f32) : FVec Ideal S16384x128 .f32 → FVec Ideal S16384x128 .f32 → FVec Ideal S16384x128 .f32) x2 v78
  let v80 : FVec Ideal S128 .f32 := (broadcastInDim S128 ![] bcast_S_S128 : FVec Ideal S_ .f32 → FVec Ideal S128 .f32) (constant (F := Ideal) S_ .f32 0x3727C5AC#32 : FVec Ideal S_ .f32)
  let v81 : FVec Ideal S128 .f32 := (addf (F := Ideal) (φ := .f32) : FVec Ideal S128 .f32 → FVec Ideal S128 .f32 → FVec Ideal S128 .f32) v76 v80
  let v82 : FVec Ideal S128 .f32 := (Host.rsqrt (F := Ideal) (φ := .f32) : FVec Ideal S128 .f32 → FVec Ideal S128 .f32) v81
  let v83 : FVec Ideal S1x128 .f32 := (broadcastInDim S1x128 ![1] bcast_S128_S1x128_1 : FVec Ideal S128 .f32 → FVec Ideal S1x128 .f32) v82
  let v84 : FVec Ideal S16384x128 .f32 := (broadcastInDim S16384x128 ![0, 1] bcast_S1x128_S16384x128_0_1 : FVec Ideal S1x128 .f32 → FVec Ideal S16384x128 .f32) v83
  let v85 : FVec Ideal S16384x128 .f32 := (mulf (F := Ideal) (φ := .f32) : FVec Ideal S16384x128 .f32 → FVec Ideal S16384x128 .f32 → FVec Ideal S16384x128 .f32) v79 v84
  let v86 : FVec Ideal S1x128 .f32 := (broadcastInDim S1x128 ![1] bcast_S128_S1x128_1 : FVec Ideal S128 .f32 → FVec Ideal S1x128 .f32) arg9
  let v87 : FVec Ideal S16384x128 .f32 := (broadcastInDim S16384x128 ![0, 1] bcast_S1x128_S16384x128_0_1 : FVec Ideal S1x128 .f32 → FVec Ideal S16384x128 .f32) v86
  let v88 : FVec Ideal S16384x128 .f32 := (mulf (F := Ideal) (φ := .f32) : FVec Ideal S16384x128 .f32 → FVec Ideal S16384x128 .f32 → FVec Ideal S16384x128 .f32) v85 v87
  let v89 : FVec Ideal S1x128 .f32 := (broadcastInDim S1x128 ![1] bcast_S128_S1x128_1 : FVec Ideal S128 .f32 → FVec Ideal S1x128 .f32) arg10
  let v90 : FVec Ideal S16384x128 .f32 := (broadcastInDim S16384x128 ![0, 1] bcast_S1x128_S16384x128_0_1 : FVec Ideal S1x128 .f32 → FVec Ideal S16384x128 .f32) v89
  let v91 : FVec Ideal S16384x128 .f32 := (addf (F := Ideal) (φ := .f32) : FVec Ideal S16384x128 .f32 → FVec Ideal S16384x128 .f32 → FVec Ideal S16384x128 .f32) v88 v90
  let v92 : FVec Ideal S16384x128 .f32 := (maximumf (F := Ideal) (φ := .f32) : FVec Ideal S16384x128 .f32 → FVec Ideal S16384x128 .f32 → FVec Ideal S16384x128 .f32) v91 ((broadcastInDim S16384x128 ![] bcast_S_S16384x128 : FVec Ideal S_ .f32 → FVec Ideal S16384x128 .f32) (constant (F := Ideal) S_ .f32 0x00000000#32 : FVec Ideal S_ .f32))
  let v93 : FVec Ideal S128x128 .f32 := ((transpose S128x128 [1, 0] · transposes_S128x128_S128x128_1_0) : FVec Ideal S128x128 .f32 → FVec Ideal S128x128 .f32) arg5
  let v94 : FVec Ideal S16384x128 .f32 := ((fun l r => Host.dotGeneral (F := Ideal) (φ₁ := .f32) (φ₂ := .f32) dot_S16384x128_S128x128_S16384x128_1_0_0_1_n_n none l r) : FVec Ideal S16384x128 .f32 → FVec Ideal S128x128 .f32 → FVec Ideal S16384x128 .f32) v92 v93
  let v95 : FVec Ideal S128 .f32 := ((fun x v => Host.reduceAdd (F := Ideal) (φ := .f32) x v reducesTo_S16384x128_S128_d0 h_S_) : FVec Ideal S16384x128 .f32 → FVec Ideal S_ .f32 → FVec Ideal S128 .f32) v94 (constant (F := Ideal) S_ .f32 0x00000000#32 : FVec Ideal S_ .f32)
  let v96 : FVec Ideal S128 .f32 := (broadcastInDim S128 ![] bcast_S_S128 : FVec Ideal S_ .f32 → FVec Ideal S128 .f32) (constant (F := Ideal) S_ .f32 0x46800000#32 : FVec Ideal S_ .f32)
  let v97 : FVec Ideal S128 .f32 := (Host.divf (F := Ideal) (φ := .f32) : FVec Ideal S128 .f32 → FVec Ideal S128 .f32 → FVec Ideal S128 .f32) v95 v96
  let v98 : FVec Ideal S1x128 .f32 := (broadcastInDim S1x128 ![1] bcast_S128_S1x128_1 : FVec Ideal S128 .f32 → FVec Ideal S1x128 .f32) v97
  let v99 : FVec Ideal S16384x128 .f32 := (broadcastInDim S16384x128 ![0, 1] bcast_S1x128_S16384x128_0_1 : FVec Ideal S1x128 .f32 → FVec Ideal S16384x128 .f32) v98
  let v100 : FVec Ideal S16384x128 .f32 := (subf (F := Ideal) (φ := .f32) : FVec Ideal S16384x128 .f32 → FVec Ideal S16384x128 .f32 → FVec Ideal S16384x128 .f32) v94 v99
  let v101 : FVec Ideal S16384x128 .f32 := (mulf (F := Ideal) (φ := .f32) : FVec Ideal S16384x128 .f32 → FVec Ideal S16384x128 .f32 → FVec Ideal S16384x128 .f32) v100 v100
  let v102 : FVec Ideal S128 .f32 := ((fun x v => Host.reduceAdd (F := Ideal) (φ := .f32) x v reducesTo_S16384x128_S128_d0 h_S_) : FVec Ideal S16384x128 .f32 → FVec Ideal S_ .f32 → FVec Ideal S128 .f32) v101 (constant (F := Ideal) S_ .f32 0x00000000#32 : FVec Ideal S_ .f32)
  let v103 : FVec Ideal S128 .f32 := (broadcastInDim S128 ![] bcast_S_S128 : FVec Ideal S_ .f32 → FVec Ideal S128 .f32) (constant (F := Ideal) S_ .f32 0x46800000#32 : FVec Ideal S_ .f32)
  let v104 : FVec Ideal S128 .f32 := (Host.divf (F := Ideal) (φ := .f32) : FVec Ideal S128 .f32 → FVec Ideal S128 .f32 → FVec Ideal S128 .f32) v102 v103
  let v105 : FVec Ideal S1x128 .f32 := (broadcastInDim S1x128 ![1] bcast_S128_S1x128_1 : FVec Ideal S128 .f32 → FVec Ideal S1x128 .f32) v97
  let v106 : FVec Ideal S16384x128 .f32 := (broadcastInDim S16384x128 ![0, 1] bcast_S1x128_S16384x128_0_1 : FVec Ideal S1x128 .f32 → FVec Ideal S16384x128 .f32) v105
  let v107 : FVec Ideal S16384x128 .f32 := (subf (F := Ideal) (φ := .f32) : FVec Ideal S16384x128 .f32 → FVec Ideal S16384x128 .f32 → FVec Ideal S16384x128 .f32) v94 v106
  let v108 : FVec Ideal S128 .f32 := (broadcastInDim S128 ![] bcast_S_S128 : FVec Ideal S_ .f32 → FVec Ideal S128 .f32) (constant (F := Ideal) S_ .f32 0x3727C5AC#32 : FVec Ideal S_ .f32)
  let v109 : FVec Ideal S128 .f32 := (addf (F := Ideal) (φ := .f32) : FVec Ideal S128 .f32 → FVec Ideal S128 .f32 → FVec Ideal S128 .f32) v104 v108
  let v110 : FVec Ideal S128 .f32 := (Host.rsqrt (F := Ideal) (φ := .f32) : FVec Ideal S128 .f32 → FVec Ideal S128 .f32) v109
  let v111 : FVec Ideal S1x128 .f32 := (broadcastInDim S1x128 ![1] bcast_S128_S1x128_1 : FVec Ideal S128 .f32 → FVec Ideal S1x128 .f32) v110
  let v112 : FVec Ideal S16384x128 .f32 := (broadcastInDim S16384x128 ![0, 1] bcast_S1x128_S16384x128_0_1 : FVec Ideal S1x128 .f32 → FVec Ideal S16384x128 .f32) v111
  let v113 : FVec Ideal S16384x128 .f32 := (mulf (F := Ideal) (φ := .f32) : FVec Ideal S16384x128 .f32 → FVec Ideal S16384x128 .f32 → FVec Ideal S16384x128 .f32) v107 v112
  let v114 : FVec Ideal S1x128 .f32 := (broadcastInDim S1x128 ![1] bcast_S128_S1x128_1 : FVec Ideal S128 .f32 → FVec Ideal S1x128 .f32) arg11
  let v115 : FVec Ideal S16384x128 .f32 := (broadcastInDim S16384x128 ![0, 1] bcast_S1x128_S16384x128_0_1 : FVec Ideal S1x128 .f32 → FVec Ideal S16384x128 .f32) v114
  let v116 : FVec Ideal S16384x128 .f32 := (mulf (F := Ideal) (φ := .f32) : FVec Ideal S16384x128 .f32 → FVec Ideal S16384x128 .f32 → FVec Ideal S16384x128 .f32) v113 v115
  let v117 : FVec Ideal S1x128 .f32 := (broadcastInDim S1x128 ![1] bcast_S128_S1x128_1 : FVec Ideal S128 .f32 → FVec Ideal S1x128 .f32) arg12
  let v118 : FVec Ideal S16384x128 .f32 := (broadcastInDim S16384x128 ![0, 1] bcast_S1x128_S16384x128_0_1 : FVec Ideal S1x128 .f32 → FVec Ideal S16384x128 .f32) v117
  let v119 : FVec Ideal S16384x128 .f32 := (addf (F := Ideal) (φ := .f32) : FVec Ideal S16384x128 .f32 → FVec Ideal S16384x128 .f32 → FVec Ideal S16384x128 .f32) v116 v118
  let v120 : FVec Ideal S16384x128 .f32 := (addf (F := Ideal) (φ := .f32) : FVec Ideal S16384x128 .f32 → FVec Ideal S16384x128 .f32 → FVec Ideal S16384x128 .f32) arg1 v119
  let v121 : FVec Ideal S16384x128 .f32 := (maximumf (F := Ideal) (φ := .f32) : FVec Ideal S16384x128 .f32 → FVec Ideal S16384x128 .f32 → FVec Ideal S16384x128 .f32) v120 ((broadcastInDim S16384x128 ![] bcast_S_S16384x128 : FVec Ideal S_ .f32 → FVec Ideal S16384x128 .f32) (constant (F := Ideal) S_ .f32 0x00000000#32 : FVec Ideal S_ .f32))
  v121

end Cert.RefC

end
-- ==== Proof.RefCOps.lean ====
/-
  The reference's last stage, read operation by operation.

  The host spells a batch normalisation over the 16384 rows with whole-array operations: the sum over the rows from the
  zero word, the division by the count laid over the 128 columns, the per-column vector laid first as one row and then
  over every row, and so on. Each piece is named here and identified with the per-column formula: a vector laid over
  the rows reads its entry `j` at `(r, j)`; the sum over the rows from zero is the column sum; hence the host's means,
  centred array and variances are the column means, the array minus its column means, and the column variances; and
  the scale and shift vectors, read at `j`, are the one-row arrays they are cast to, read at `(0, j)`.
-/
import proofs.«171789_j3822520893918_1_alg».proof.ReferenceIdeal
import proofs.«171789_j3822520893918_1_alg».proof.Proof.SpecC
import proofs.«171789_j3822520893918_1_alg».proof.Proof.RefC
import Idealize.ShloMosaic.PureOps.Ideal.Laws
import Idealize.ShloMosaic.Lib.IdealHost
import Idealize.ShloMosaic.Lib.ValueLayout
import Idealize.ShloMosaic.Lib.Pipeline.Value

noncomputable section

open scoped BigOperators

namespace Cert.StageC.RefOps

open Idealize.ShloMosaic Idealize.SL.Sem Idealize.ShloMosaic.ValueIdx
open Cert.ReferenceIdeal
open Cert.ReferenceIdeal.Facts₀ Cert.ReferenceIdeal.Facts

variable [Cert.ReferenceIdeal.Facts]

/-- A vector of 128 entries laid along the columns of every row: first as one row, then that row repeated. -/
def rowBcast (v : FVec Ideal S128 .f32) : FVec Ideal S16384x128 .f32 :=
  (broadcastInDim S16384x128 ![0, 1] bcast_S1x128_S16384x128_0_1 : FVec Ideal S1x128 .f32 → FVec Ideal S16384x128 .f32)
    ((broadcastInDim S1x128 ![1] bcast_S128_S1x128_1 : FVec Ideal S128 .f32 → FVec Ideal S1x128 .f32) v)

/-- Entry `(r, j)` of the repeated row is entry `j` of the vector. -/
theorem rowBcast_eq (v : FVec Ideal S128 .f32) : rowBcast v = Cert.StageC.cols (fun j => v (ix1 j)) := by
  funext i
  obtain ⟨r, j, rfl⟩ : ∃ (r : Fin 16384) (j : Fin 128), i = ix2 r j := ⟨i 0, i 1, eq_ix2 i⟩
  rw [Cert.StageC.cols_apply]
  unfold rowBcast
  refine (broadcastInDim_apply _ _ _ (ix2 r j) (ix2 (0 : Fin 1) j) ?_).trans ?_
  · intro a; match a with
    | ⟨0, _⟩ => rfl
    | ⟨1, _⟩ => rfl
  · refine broadcastInDim_apply _ _ _ (ix2 (0 : Fin 1) j) (ix1 j) ?_
    intro a; match a with
    | ⟨0, _⟩ => rfl

/-- The host's sum over the rows, from the zero word, is the column sum. -/
theorem colsum_apply (x : FVec Ideal S16384x128 .f32) (j : Fin 128) :
    Host.reduceAdd (F := Ideal) (φ := .f32) x (constant (F := Ideal) S_ .f32 0x00000000#32) reducesTo_S16384x128_S128_d0 h_S_ (ix1 j)
      = Cert.StageC.colSum x j := by
  rw [hostReduceAdd_apply]
  refine (Ideal.hostReduceAdd_single reducesTo_S16384x128_S128_d0 (by decide : S16384x128.Reduces [0] S128) x _ (ix1 j)).trans ?_
  rw [constant_apply, Ideal.ofBits_zero_f32, zero_add]
  unfold Cert.StageC.colSum
  refine Finset.sum_congr rfl fun k _ => congrArg x ?_
  funext a; match a with
  | ⟨0, _⟩ => rfl
  | ⟨1, _⟩ => rfl

/-- The divisor 16384 at every column. -/
def cntV : FVec Ideal S128 .f32 :=
  (broadcastInDim S128 ![] bcast_S_S128 : FVec Ideal S_ .f32 → FVec Ideal S128 .f32) (constant (F := Ideal) S_ .f32 0x46800000#32 : FVec Ideal S_ .f32)

/-- The ε at every column. -/
def epsV : FVec Ideal S128 .f32 :=
  (broadcastInDim S128 ![] bcast_S_S128 : FVec Ideal S_ .f32 → FVec Ideal S128 .f32) (constant (F := Ideal) S_ .f32 0x3727C5AC#32 : FVec Ideal S_ .f32)

/-- The host's sum over the rows from the zero word. -/
def sumRows (x : FVec Ideal S16384x128 .f32) : FVec Ideal S128 .f32 :=
  ((fun x v => Host.reduceAdd (F := Ideal) (φ := .f32) x v reducesTo_S16384x128_S128_d0 h_S_) : FVec Ideal S16384x128 .f32 → FVec Ideal S_ .f32 → FVec Ideal S128 .f32) x (constant (F := Ideal) S_ .f32 0x00000000#32 : FVec Ideal S_ .f32)

/-- The column means as the host computes them. -/
def muRef (x : FVec Ideal S16384x128 .f32) : FVec Ideal S128 .f32 :=
  (Host.divf (F := Ideal) (φ := .f32) : FVec Ideal S128 .f32 → FVec Ideal S128 .f32 → FVec Ideal S128 .f32) (sumRows x) cntV

/-- The array with the column means subtracted, as the host computes it. -/
def cenRef (x : FVec Ideal S16384x128 .f32) : FVec Ideal S16384x128 .f32 :=
  (subf (F := Ideal) (φ := .f32) : FVec Ideal S16384x128 .f32 → FVec Ideal S16384x128 .f32 → FVec Ideal S16384x128 .f32) x (rowBcast (muRef x))

/-- The column variances as the host computes them. -/
def varRef (x : FVec Ideal S16384x128 .f32) : FVec Ideal S128 .f32 :=
  (Host.divf (F := Ideal) (φ := .f32) : FVec Ideal S128 .f32 → FVec Ideal S128 .f32 → FVec Ideal S128 .f32)
    (sumRows ((mulf (F := Ideal) (φ := .f32) : FVec Ideal S16384x128 .f32 → FVec Ideal S16384x128 .f32 → FVec Ideal S16384x128 .f32) (cenRef x) (cenRef x))) cntV

/-- The host's batch normalisation over the rows, operation by operation. -/
def bnRef (x : FVec Ideal S16384x128 .f32) (g b : FVec Ideal S128 .f32) : FVec Ideal S16384x128 .f32 :=
  addf (F := Ideal) (φ := .f32)
    (mulf (F := Ideal) (φ := .f32)
      (mulf (F := Ideal) (φ := .f32) (cenRef x)
        (rowBcast ((Host.rsqrt (F := Ideal) (φ := .f32) : FVec Ideal S128 .f32 → FVec Ideal S128 .f32)
          ((addf (F := Ideal) (φ := .f32) : FVec Ideal S128 .f32 → FVec Ideal S128 .f32 → FVec Ideal S128 .f32) (varRef x) epsV))))
      (rowBcast g))
    (rowBcast b)

/-- The host's rectification: the maximum with the zero word laid over the array. -/
def reluRef (v : FVec Ideal S16384x128 .f32) : FVec Ideal S16384x128 .f32 :=
  maximumf (F := Ideal) (φ := .f32) v
    ((broadcastInDim S16384x128 ![] bcast_S_S16384x128 : FVec Ideal S_ .f32 → FVec Ideal S16384x128 .f32) (constant (F := Ideal) S_ .f32 0x00000000#32 : FVec Ideal S_ .f32))

/-- The host's product with the transposed weight. -/
def mmRef (y : FVec Ideal S16384x128 .f32) (w : FVec Ideal S128x128 .f32) : FVec Ideal S16384x128 .f32 :=
  Host.dotGeneral (F := Ideal) (φ₁ := .f32) (φ₂ := .f32) dot_S16384x128_S128x128_S16384x128_1_0_0_1_n_n none y
    (transpose S128x128 [1, 0] w transposes_S128x128_S128x128_1_0)

/-- The reference's last stage is the composition of these pieces. -/
theorem ref_eq (x2 arg1 : FVec Ideal S16384x128 .f32) (arg5 : FVec Ideal S128x128 .f32) (arg9 arg10 arg11 arg12 : FVec Ideal S128 .f32) :
    Cert.RefC.ref x2 arg1 arg5 arg9 arg10 arg11 arg12
      = reluRef (addf (F := Ideal) (φ := .f32) arg1 (bnRef (mmRef (reluRef (bnRef x2 arg9 arg10)) arg5) arg11 arg12)) := rfl

theorem muRef_apply (x : FVec Ideal S16384x128 .f32) (j : Fin 128) : muRef x (ix1 j) = Cert.StageC.mean x j := by
  unfold muRef sumRows
  rw [hostDivf_apply]
  beta_reduce
  rw [colsum_apply]
  rfl

theorem cenRef_eq (x : FVec Ideal S16384x128 .f32) : cenRef x = Cert.StageC.centred x := by
  unfold cenRef Cert.StageC.centred
  rw [rowBcast_eq]
  exact congrArg (fun f => subf x (Cert.StageC.cols f)) (funext (muRef_apply x))

theorem varRef_apply (x : FVec Ideal S16384x128 .f32) (j : Fin 128) : varRef x (ix1 j) = Cert.StageC.var x j := by
  unfold varRef sumRows
  rw [hostDivf_apply]
  beta_reduce
  rw [colsum_apply, cenRef_eq]
  rfl

theorem bnRef_eq (x : FVec Ideal S16384x128 .f32) (g b : FVec Ideal S128 .f32) (hc : S128.ShapeCasts S1x128) :
    bnRef x g b = Cert.StageC.bn x (shapeCast S1x128 g hc) (shapeCast S1x128 b hc) := by
  have e2 : (fun j : Fin 128 => (Host.rsqrt (F := Ideal) (φ := .f32) (addf (F := Ideal) (φ := .f32) (varRef x) epsV)) (ix1 j))
      = fun j => Ideal.rsqrt (Cert.StageC.var x j + Cert.StageC.eps) := funext fun j => by
    show Ideal.rsqrt (varRef x (ix1 j) + _) = _
    rw [varRef_apply]; rfl
  have e3 : ∀ v : FVec Ideal S128 .f32, (fun j : Fin 128 => v (ix1 j)) = fun j => shapeCast S1x128 v hc (ix2 (0 : Fin 1) j) :=
    fun v => funext fun j => (shapeCast_a_1a_apply v hc 0 j).symm
  unfold bnRef Cert.StageC.bn Cert.StageC.scale
  rw [cenRef_eq, rowBcast_eq, rowBcast_eq, rowBcast_eq, e2, e3 g, e3 b]
  rfl

end Cert.StageC.RefOps

end
-- ==== Proof.RefCVal.lean ====
/-
  The reference's last stage computes the stated value: batch normalisation, rectification, the product with the
  transposed weight, a second batch normalisation, the residual addition and a last rectification. The two batch
  normalisations are the per-column formula by the operation-by-operation reading; the rectification's zero laid over
  the array is the constant array; the host's product onto no accumulator is the contraction onto a zero accumulator
  with the same dimension numbers.
-/
import proofs.«171789_j3822520893918_1_alg».proof.Proof.RefCOps

noncomputable section

namespace Cert.StageC

open Idealize.ShloMosaic Idealize.SL.Sem Idealize.ShloMosaic.ValueIdx
open Cert.ReferenceIdeal
open Cert.ReferenceIdeal.Facts₀ Cert.ReferenceIdeal.Facts

variable [Cert.ReferenceIdeal.Facts]

/-- The maximum with the zero word laid over the array is the maximum with the constant zero array. -/
theorem reluRef_eq (v : FVec Ideal S16384x128 .f32) : RefOps.reluRef v = relu v := rfl

/-- The host's product with the transposed weight is the contraction onto a zero accumulator. -/
theorem mmRef_eq (y : FVec Ideal S16384x128 .f32) (w : FVec Ideal S128x128 .f32) : RefOps.mmRef y w = mm y w := rfl

/-- THE REFERENCE'S LAST STAGE IS THE STATED VALUE, the scales and shifts read as one-row arrays (`hc`: any proof that
    128 entries cast to one row of 128). -/
theorem ref_value (x2 arg1 : (⟨S16384x128, .f32⟩ : BufTy).Contents (Elt Ideal))
    (arg5 : (⟨S128x128, .f32⟩ : BufTy).Contents (Elt Ideal))
    (arg9 arg10 arg11 arg12 : (⟨S128, .f32⟩ : BufTy).Contents (Elt Ideal)) (hc : S128.ShapeCasts S1x128) :
    Cert.RefC.ref x2 arg1 arg5 arg9 arg10 arg11 arg12
      = Cert.StageC.out x2 arg1 arg5 (shapeCast S1x128 arg9 hc) (shapeCast S1x128 arg10 hc)
          (shapeCast S1x128 arg11 hc) (shapeCast S1x128 arg12 hc) := by
  rw [RefOps.ref_eq, RefOps.bnRef_eq _ _ _ hc, RefOps.bnRef_eq _ _ _ hc, reluRef_eq, mmRef_eq, reluRef_eq]
  rfl

end Cert.StageC

end
-- ==== Proof.SpecBK.lean ====
import Idealize.ShloMosaic.PureOps.Ideal
import Idealize.ShloMosaic.Lib.ValueIdx
import proofs.«171789_j3822520893918_1_alg».proof.KernelIdeal

/-!
# The influence-weighted aggregate of the kernel-point convolution, index by index

For a point `n`, a neighbour slot `h` and a kernel point `k`, the influence of the kernel point on the
neighbour is `max (1 - sqrt (max (|r|² - 2 r·p + |p|²) 0)) 0`, where `r` is the neighbour's offset from the
point (three coordinates of `relpos`) and `p` the kernel point (a column of `kpT`): the clipped linear
fall-off of the distance `|r - p|`, with the squared distance expanded. The aggregate at `(n, c)` sums, over
the 32 neighbour slots, the neighbour's feature `c` times the influence-weighted combination of the 43
kernel-point weights of channel `c`.

Every sum and product is written with the association in which the pieces are computed: the three-term
sums as `(a + b) + c`, the squared distance as `(|r|² - 2 r·p) + |p|²`.
-/

noncomputable section

open scoped BigOperators

namespace Cert.SpecB

open Idealize.ShloMosaic Idealize.ShloMosaic.ValueIdx
open Cert.KernelIdeal (S16384x32x3 S16384x32x128 S43x128 S3x43 S16384x128)

/-- The inner product `r · p` of neighbour `(n, h)`'s offset with kernel point `k`: `(x x' + y y') + z z'`. -/
def crossK (relpos : FVec Ideal S16384x32x3 .f32) (kpT : FVec Ideal S3x43 .f32) (n : Fin 16384) (h : Fin 32) (k : Fin 43) : EReal :=
  (relpos (ix3 n h (0 : Fin 3)) * kpT (ix2 (0 : Fin 3) k) + relpos (ix3 n h (1 : Fin 3)) * kpT (ix2 (1 : Fin 3) k))
    + relpos (ix3 n h (2 : Fin 3)) * kpT (ix2 (2 : Fin 3) k)

/-- The squared length `|r|²` of neighbour `(n, h)`'s offset: `(x x + y y) + z z`. -/
def rsqK (relpos : FVec Ideal S16384x32x3 .f32) (n : Fin 16384) (h : Fin 32) : EReal :=
  (relpos (ix3 n h (0 : Fin 3)) * relpos (ix3 n h (0 : Fin 3)) + relpos (ix3 n h (1 : Fin 3)) * relpos (ix3 n h (1 : Fin 3)))
    + relpos (ix3 n h (2 : Fin 3)) * relpos (ix3 n h (2 : Fin 3))

/-- The squared length `|p|²` of kernel point `k`: `(x x + y y) + z z`. -/
def kpsqK (kpT : FVec Ideal S3x43 .f32) (k : Fin 43) : EReal :=
  (kpT (ix2 (0 : Fin 3) k) * kpT (ix2 (0 : Fin 3) k) + kpT (ix2 (1 : Fin 3) k) * kpT (ix2 (1 : Fin 3) k))
    + kpT (ix2 (2 : Fin 3) k) * kpT (ix2 (2 : Fin 3) k)

/-- The influence of kernel point `k` on neighbour `(n, h)`: `max (1 - sqrt (max ((|r|² - 2 r·p) + |p|²) 0)) 0`,
    the numerals `2`, `1`, `0` as the extended reals their single-precision words denote. -/
def inflK (relpos : FVec Ideal S16384x32x3 .f32) (kpT : FVec Ideal S3x43 .f32) (n : Fin 16384) (h : Fin 32) (k : Fin 43) : EReal :=
  max (Ideal.ofBits .f32 0x3F800000#32
        - Ideal.sqrt (max ((rsqK relpos n h - Ideal.ofBits .f32 0x40000000#32 * crossK relpos kpT n h k) + kpsqK kpT k)
            (Ideal.ofBits .f32 0x00000000#32)))
    (Ideal.ofBits .f32 0x00000000#32)

/-- The aggregate at point `n`, channel `c`: over the neighbour slots, the neighbour's feature times the
    influence-weighted combination of the kernel-point weights. -/
def aggK (relpos : FVec Ideal S16384x32x3 .f32) (nfeats : FVec Ideal S16384x32x128 .f32) (convw : FVec Ideal S43x128 .f32)
    (kpT : FVec Ideal S3x43 .f32) (n : Fin 16384) (c : Fin 128) : EReal :=
  ∑ h : Fin 32, nfeats (ix3 n h c) * ∑ k : Fin 43, inflK relpos kpT n h k * convw (ix2 k c)

/-- The whole aggregate array: `aggK` at each index's two coordinates. -/
def outK (relpos : FVec Ideal S16384x32x3 .f32) (nfeats : FVec Ideal S16384x32x128 .f32) (convw : FVec Ideal S43x128 .f32)
    (kpT : FVec Ideal S3x43 .f32) : FVec Ideal S16384x128 .f32 :=
  fun i => aggK relpos nfeats convw kpT (i 0) (i 1)

/-- The array at `(n, c)` is the aggregate there. -/
theorem outK_ix2 (relpos : FVec Ideal S16384x32x3 .f32) (nfeats : FVec Ideal S16384x32x128 .f32) (convw : FVec Ideal S43x128 .f32)
    (kpT : FVec Ideal S3x43 .f32) (n : Fin 16384) (c : Fin 128) :
    outK relpos nfeats convw kpT (ix2 n c) = aggK relpos nfeats convw kpT n c := rfl

end Cert.SpecB

end
-- ==== Proof.KernBInfl.lean ====
import proofs.«171789_j3822520893918_1_alg».proof.Proof.Gen.KernelIdeal.Skeleton
import proofs.«171789_j3822520893918_1_alg».proof.Proof.SpecBK
import Idealize.ShloMosaic.Lib.Pipeline.Value
import Idealize.ShloMosaic.Lib.ValueLayout

/-!
# The influence block at an index

One grid point handles 256 points. From its block of neighbour offsets (`[256, 32, 3]`) and the table of
kernel points (`[3, 43]`) the body forms the `[256, 32, 43]` block of influences and flattens it to
`[8192, 43]`, row `32 p + h` holding neighbour slot `h` of point `p`. This module reads that flattened block
at an index: it is the influence of the specification at the array point the block's row `p` comes from.
-/

noncomputable section

namespace Cert.KernB

open Idealize.ShloMosaic Idealize.ShloMosaic.ValueIdx
open Cert.KernelIdeal Cert.KernelIdeal.Gen

section Layout
variable {α : Type}

/-- A `[256, 32, 1]` column broadcast along the last axis reads, at `(p, h, k)`, the column at `(p, h, 0)`. -/
theorem bcast_col (v : S256x32x1.Idx → α) (hb : S256x32x1.Broadcasts S256x32x43) (p : Fin 256) (h : Fin 32) (k : Fin 43) :
    broadcastTo S256x32x43 v hb (ix3 p h k) = v (ix3 p h (0 : Fin 1)) := by
  refine broadcastTo_apply v hb (ix3 p h k) (ix3 p h (0 : Fin 1)) fun a => ?_
  match a with
  | ⟨0, _⟩ => rfl
  | ⟨1, _⟩ => rfl
  | ⟨2, _⟩ => rfl

/-- A `[1, 1, 43]` row broadcast along the first two axes reads, at `(p, h, k)`, the row at `(0, 0, k)`. -/
theorem bcast_row (v : S1x1x43.Idx → α) (hb : S1x1x43.Broadcasts S256x32x43) (p : Fin 256) (h : Fin 32) (k : Fin 43) :
    broadcastTo S256x32x43 v hb (ix3 p h k) = v (ix3 (0 : Fin 1) (0 : Fin 1) k) := by
  refine broadcastTo_apply v hb (ix3 p h k) (ix3 (0 : Fin 1) (0 : Fin 1) k) fun a => ?_
  match a with
  | ⟨0, _⟩ => rfl
  | ⟨1, _⟩ => rfl
  | ⟨2, _⟩ => rfl

/-- A `[1, 43]` row viewed as `[1, 1, 43]` reads, at `(0, 0, k)`, the row at `(0, k)`. -/
theorem cast_row (v : S1x43.Idx → α) (hc : S1x43.ShapeCasts S1x1x43) (k : Fin 43) :
    shapeCast S1x1x43 v hc (ix3 (0 : Fin 1) (0 : Fin 1) k) = v (ix2 (0 : Fin 1) k) :=
  shapeCast_ab_1ab_apply v hc (0 : Fin 1) (0 : Fin 1) k

/-- The `[256, 32, 43]` block flattened to `[8192, 43]` reads, at row `32 p + h`, the block at `(p, h, ·)`. -/
theorem cast_flat43 (v : S256x32x43.Idx → α) (hc : S256x32x43.ShapeCasts S8192x43) (p : Fin 256) (h : Fin 32) (k : Fin 43)
    (q : Fin 8192) (hq : q.val = 32 * p.val + h.val) :
    shapeCast S8192x43 v hc (ix2 q k) = v (ix3 p h k) :=
  shapeCast_apply v hc _ _ (by
    rw [Shape.rowMajor_val_three, Shape.rowMajor_val_two]
    show (p.val * 32 + h.val) * 43 + k.val = q.val * 43 + k.val
    rw [hq, Nat.mul_comm 32 p.val])

/-- Coordinate `0` of the offsets: the slice at offset `(0, 0, 0)`. -/
theorem slice_col0 (v : S256x32x3.Idx → α) (hs : S256x32x3.Slices ![0, 0, 0] S256x32x1) (p : Fin 256) (h : Fin 32) :
    extractStridedSlice S256x32x1 ![0, 0, 0] v hs (ix3 p h (0 : Fin 1)) = v (ix3 p h (0 : Fin 3)) := by
  refine extractStridedSlice_apply _ v hs _ _ fun a => ?_
  match a with
  | ⟨0, _⟩ => show p.val = 0 + p.val; omega
  | ⟨1, _⟩ => show h.val = 0 + h.val; omega
  | ⟨2, _⟩ => rfl

/-- Coordinate `1` of the offsets: the slice at offset `(0, 0, 1)`. -/
theorem slice_col1 (v : S256x32x3.Idx → α) (hs : S256x32x3.Slices ![0, 0, 1] S256x32x1) (p : Fin 256) (h : Fin 32) :
    extractStridedSlice S256x32x1 ![0, 0, 1] v hs (ix3 p h (0 : Fin 1)) = v (ix3 p h (1 : Fin 3)) := by
  refine extractStridedSlice_apply _ v hs _ _ fun a => ?_
  match a with
  | ⟨0, _⟩ => show p.val = 0 + p.val; omega
  | ⟨1, _⟩ => show h.val = 0 + h.val; omega
  | ⟨2, _⟩ => rfl

/-- Coordinate `2` of the offsets: the slice at offset `(0, 0, 2)`. -/
theorem slice_col2 (v : S256x32x3.Idx → α) (hs : S256x32x3.Slices ![0, 0, 2] S256x32x1) (p : Fin 256) (h : Fin 32) :
    extractStridedSlice S256x32x1 ![0, 0, 2] v hs (ix3 p h (0 : Fin 1)) = v (ix3 p h (2 : Fin 3)) := by
  refine extractStridedSlice_apply _ v hs _ _ fun a => ?_
  match a with
  | ⟨0, _⟩ => show p.val = 0 + p.val; omega
  | ⟨1, _⟩ => show h.val = 0 + h.val; omega
  | ⟨2, _⟩ => rfl

/-- Row `0` of the kernel-point table: the slice at offset `(0, 0)`. -/
theorem slice_row0 (v : S3x43.Idx → α) (hs : S3x43.Slices ![0, 0] S1x43) (k : Fin 43) :
    extractStridedSlice S1x43 ![0, 0] v hs (ix2 (0 : Fin 1) k) = v (ix2 (0 : Fin 3) k) := by
  refine extractStridedSlice_apply _ v hs _ _ fun a => ?_
  match a with
  | ⟨0, _⟩ => rfl
  | ⟨1, _⟩ => show k.val = 0 + k.val; omega

/-- Row `1` of the kernel-point table: the slice at offset `(1, 0)`. -/
theorem slice_row1 (v : S3x43.Idx → α) (hs : S3x43.Slices ![1, 0] S1x43) (k : Fin 43) :
    extractStridedSlice S1x43 ![1, 0] v hs (ix2 (0 : Fin 1) k) = v (ix2 (1 : Fin 3) k) := by
  refine extractStridedSlice_apply _ v hs _ _ fun a => ?_
  match a with
  | ⟨0, _⟩ => rfl
  | ⟨1, _⟩ => show k.val = 0 + k.val; omega

/-- Row `2` of the kernel-point table: the slice at offset `(2, 0)`. -/
theorem slice_row2 (v : S3x43.Idx → α) (hs : S3x43.Slices ![2, 0] S1x43) (k : Fin 43) :
    extractStridedSlice S1x43 ![2, 0] v hs (ix2 (0 : Fin 1) k) = v (ix2 (2 : Fin 3) k) := by
  refine extractStridedSlice_apply _ v hs _ _ fun a => ?_
  match a with
  | ⟨0, _⟩ => rfl
  | ⟨1, _⟩ => show k.val = 0 + k.val; omega

end Layout

/-- A square root at an index is the extended reals' square root of the element. -/
theorem sqrt_apply {s : Shape} {φ : FTy} (a : FVec Ideal s φ) (i : s.Idx) : sqrt a i = Ideal.sqrt (a i) := rfl

/-- A scalar literal at the extended reals is the extended real its word denotes. -/
theorem scalar_ofBits (φ : FTy) (b : BitVec φ.bits) : Scalar.ofBits (F := Ideal) φ b = Ideal.ofBits φ b := rfl

/-- THE FLATTENED INFLUENCE BLOCK AT AN INDEX. If row `p` of the offsets' block is the array's point `n` (`hx0`)
    and the kernel-point block is the whole table (`hx3`), then the flattened block at row `32 p + h`, column
    `k` is the influence of kernel point `k` on neighbour `(n, h)`. -/
theorem pay2_apply (x0 : FVec Ideal S256x32x3 .f32) (x3 : FVec Ideal S3x43 .f32)
    (relpos : FVec Ideal S16384x32x3 .f32) (kpT : FVec Ideal S3x43 .f32)
    (p : Fin 256) (h : Fin 32) (k : Fin 43) (n : Fin 16384) (q : Fin 8192) (hq : q.val = 32 * p.val + h.val)
    (hx0 : ∀ d : Fin 3, x0 (ix3 p h d) = relpos (ix3 n h d)) (hx3 : x3 = kpT) :
    k1_pay2 (F := Ideal) x0 x3 (ix2 q k) = Cert.SpecB.inflK relpos kpT n h k := by
  subst hx3
  unfold k1_pay2
  refine (truncf_apply (s := S8192x43) (φ := .f32) (ψ := .bf16) _ bitsLt_bf16_f32 (ix2 q k)).trans
    ((cast_flat43 _ shapeCasts_S256x32x43_S8192x43 p h k q hq).trans ?_)
  simp only [maximumf_apply, subf_apply, addf_apply, mulf_apply, sqrt_apply, broadcast_apply, scalar_ofBits, Ideal.ofBits_def,
    bcast_col, bcast_row, cast_row, slice_col0, slice_col1, slice_col2, slice_row0, slice_row1, slice_row2,
    shapeCast_self, hx0]
  rfl

end Cert.KernB

end
-- ==== Proof.KernBPay.lean ====
import proofs.«171789_j3822520893918_1_alg».proof.Proof.Gen.KernelIdeal.Skeleton
import Idealize.ShloMosaic.PureOps.Ideal.Laws
import Idealize.ShloMosaic.Lib.Pipeline.Value
import Idealize.ShloMosaic.Lib.ValueIdx

/-!
# The aggregate block at an index

From the flattened `[8192, 43]` block of influences, the `[43, 128]` weights and the `[256, 32, 128]` block of
neighbour features, the body forms the `[8192, 128]` product of the first two, views it as `[256, 32, 128]`
(row `32 p + h` becomes `(p, h)`), multiplies by the features and sums over the 32 neighbour slots. Read at
`(p, c)`: the sum over `h` of the feature `(p, h, c)` times the sum over the 43 kernel points of the influence at
row `32 p + h` times the weight `(k, c)`.
-/

noncomputable section

open scoped BigOperators

namespace Cert.KernB

open Idealize.ShloMosaic Idealize.ShloMosaic.ValueIdx
open Cert.KernelIdeal Cert.KernelIdeal.Gen

/-- The product's dimension numbers: rows of the left operand against columns of the right one, one contracted axis. -/
abbrev dotIW : DotDims S8192x43 S43x128 S8192x128 := dot_S8192x43_S43x128_S8192x128_1_0_0_1_n_n

/-- Row `32 p + h` of the flattened block. -/
abbrev flatRow (p : Fin 256) (h : Fin 32) : Fin 8192 := ⟨32 * p.val + h.val, by have := p.isLt; have := h.isLt; omega⟩

theorem dotIW_lhs_0 (i : S8192x128.Idx) (q : dotIW.contr.Idx) : (dotIW.lhsIdx i q 0).val = (i 0).val := by
  unfold DotDims.lhsIdx
  rw [dif_neg (show ¬(0 : Fin S8192x43.rank) ∈ dotIW.lhsBatch by decide),
    dif_pos (show (0 : Fin S8192x43.rank) ∈ dotIW.lhsNonContracting by decide)]
  rfl
theorem dotIW_lhs_1 (i : S8192x128.Idx) (q : dotIW.contr.Idx) : (dotIW.lhsIdx i q 1).val = (q ⟨0, by decide⟩).val :=
  dotIW.lhsIdx_val_of_single rfl i q
theorem dotIW_rhs_0 (i : S8192x128.Idx) (q : dotIW.contr.Idx) : (dotIW.rhsIdx i q 0).val = (q ⟨0, by decide⟩).val :=
  dotIW.rhsIdx_val_of_single rfl i q
theorem dotIW_rhs_1 (i : S8192x128.Idx) (q : dotIW.contr.Idx) : (dotIW.rhsIdx i q 1).val = (i 1).val := by
  unfold DotDims.rhsIdx
  rw [dif_neg (show ¬(1 : Fin S43x128.rank) ∈ dotIW.rhsBatch by decide),
    dif_pos (show (1 : Fin S43x128.rank) ∈ dotIW.rhsNonContracting by decide)]
  rfl

/-- The product into a zero accumulator at `(q, c)`: the sum over the 43 kernel points of left `(q, k)` times right
    `(k, c)`. -/
theorem matmulIW_apply (L : FVec Ideal S8192x43 .bf16) (R : FVec Ideal S43x128 .bf16) (q : Fin 8192) (c : Fin 128) :
    matmul dotIW none L R (constant (F := Ideal) S8192x128 .f32 0x00000000#32) (ix2 q c)
      = ∑ k : Fin 43, L (ix2 q k) * R (ix2 k c) := by
  refine (Ideal.matmul_constant_zero_apply dotIW none L R (ix2 q c)).trans ?_
  rw [← Equiv.sum_comp (contrEquiv1 dotIW 43 rfl rfl).symm]
  refine Finset.sum_congr rfl fun k _ => ?_
  have hk := contrEquiv1_symm_val dotIW 43 rfl rfl k
  have el : dotIW.lhsIdx (ix2 q c) ((contrEquiv1 dotIW 43 rfl rfl).symm k) = ix2 q k := funext fun a => Fin.ext (by
    match a with
    | ⟨0, _⟩ => exact dotIW_lhs_0 _ _
    | ⟨1, _⟩ => exact (dotIW_lhs_1 _ _).trans hk)
  have er : dotIW.rhsIdx (ix2 q c) ((contrEquiv1 dotIW 43 rfl rfl).symm k) = ix2 k c := funext fun a => Fin.ext (by
    match a with
    | ⟨0, _⟩ => exact (dotIW_rhs_0 _ _).trans hk
    | ⟨1, _⟩ => exact dotIW_rhs_1 _ _)
  rw [el, er]

/-- The `[8192, 128]` product viewed as `[256, 32, 128]` reads, at `(p, h, c)`, the product at row `32 p + h`. -/
theorem cast_unflat128 {α : Type} (v : S8192x128.Idx → α) (hc : S8192x128.ShapeCasts S256x32x128) (p : Fin 256) (h : Fin 32)
    (c : Fin 128) : shapeCast S256x32x128 v hc (ix3 p h c) = v (ix2 (flatRow p h) c) :=
  shapeCast_apply v hc _ _ (by
    rw [Shape.rowMajor_val_three, Shape.rowMajor_val_two]
    show (32 * p.val + h.val) * 128 + c.val = (p.val * 32 + h.val) * 128 + c.val
    rw [Nat.mul_comm 32 p.val])

/-- The index the lane sum inserts: slot `h` put between the coordinates of `(p, c)`. -/
theorem lift_slot (hr : S256x32x128.Reduces [1] S256x128) (p : Fin 256) (c : Fin 128) (h : Fin 32) :
    hr.lift (ix2 p c) h = ix3 p h c := by
  funext a; apply Fin.ext
  match a with
  | ⟨0, _⟩ => rfl
  | ⟨1, _⟩ => rfl
  | ⟨2, _⟩ => rfl

/-- THE AGGREGATE BLOCK AT AN INDEX. -/
theorem pay1_apply (v48 : FVec Ideal S8192x43 .bf16) (v49 : FVec Ideal S43x128 .f32) (v53 : FVec Ideal S256x32x128 .f32)
    (p : Fin 256) (c : Fin 128) :
    k1_pay1 (F := Ideal) v48 v49 v53 (ix2 p c)
      = ∑ h : Fin 32, v53 (ix3 p h c) * ∑ k : Fin 43, v48 (ix2 (flatRow p h) k) * v49 (ix2 k c) := by
  unfold k1_pay1
  refine (Ideal.multiReduction_add_single (s := S256x32x128) (t := S256x128) (a := 1) _ 0x00000000#32
    reduces_S256x32x128_S256x128 _ _ (ix2 p c)).trans ?_
  show ∑ h : Fin 32, _ = _
  refine Finset.sum_congr rfl fun h _ => ?_
  rw [lift_slot]
  refine (mulf_apply _ _ _).trans ?_
  rw [shapeCast_self, cast_unflat128]
  refine congrArg (v53 (ix3 p h c) * ·) ?_
  exact matmulIW_apply v48 (truncf .bf16 v49 bitsLt_bf16_f32) (flatRow p h) c

end Cert.KernB

end
-- ==== Proof.KernBBlock.lean ====
import proofs.«171789_j3822520893918_1_alg».proof.Proof.KernBInfl
import proofs.«171789_j3822520893918_1_alg».proof.Proof.KernBPay

/-!
# One grid point's output block at an index

The body's result at `(p, c)` of its `[256, 128]` output block, when row `p` of the offsets' and features' blocks is
the arrays' point `n` and the weight and kernel-point blocks are the whole tables: the specification's aggregate
at `(n, c)`.
-/

noncomputable section

open scoped BigOperators

namespace Cert.KernB

open Idealize.ShloMosaic Idealize.ShloMosaic.ValueIdx
open Cert.KernelIdeal Cert.KernelIdeal.Gen

/-- THE OUTPUT BLOCK AT AN INDEX: the lane sum of features times the influence-weighted weights, with the influence
    block read through its flattening (row `32 p + h` is neighbour slot `h` of block row `p`). -/
theorem block_apply (x0 : FVec Ideal S256x32x3 .f32) (x1 : FVec Ideal S256x32x128 .f32) (x2 : FVec Ideal S43x128 .f32)
    (x3 : FVec Ideal S3x43 .f32)
    (relpos : FVec Ideal S16384x32x3 .f32) (nfeats : FVec Ideal S16384x32x128 .f32) (convw : FVec Ideal S43x128 .f32)
    (kpT : FVec Ideal S3x43 .f32) (p : Fin 256) (c : Fin 128) (n : Fin 16384)
    (hx0 : ∀ (h : Fin 32) (d : Fin 3), x0 (ix3 p h d) = relpos (ix3 n h d))
    (hx1 : ∀ h : Fin 32, x1 (ix3 p h c) = nfeats (ix3 n h c))
    (hx2 : x2 = convw) (hx3 : x3 = kpT) :
    k1_pay1 (F := Ideal) (k1_pay2 (F := Ideal) x0 x3) x2 x1 (ix2 p c) = Cert.SpecB.aggK relpos nfeats convw kpT n c := by
  rw [pay1_apply]
  unfold Cert.SpecB.aggK
  refine Finset.sum_congr rfl fun h _ => ?_
  rw [hx1 h]
  refine congrArg (nfeats (ix3 n h c) * ·) ?_
  refine Finset.sum_congr rfl fun k _ => ?_
  rw [pay2_apply x0 x3 relpos kpT p h k n (flatRow p h) rfl (hx0 h) hx3, hx2]

end Cert.KernB

end
-- ==== Proof.KernB.lean ====
import proofs.«171789_j3822520893918_1_alg».proof.Proof.Gen.KernelIdeal.Frame
import proofs.«171789_j3822520893918_1_alg».proof.Proof.SpecBK
import proofs.«171789_j3822520893918_1_alg».proof.Proof.KernBBlock
import Idealize.ShloMosaic.Lib.Pipeline.Value

/-!
# The second region's output array

The region runs over 64 grid points; point `t` handles the 256 points `256 t … 256 t + 255`: it reads rows
`256 t + p` of the neighbour offsets and neighbour features, the whole weight and kernel-point tables, and writes
rows `256 t + p` of the output. Each written block is therefore the block of one whole-array function — the
specification's aggregate — and the 64 blocks cover the array (row `r` lies in point `r / 256`'s block), so the
array after the region is that function.
-/

noncomputable section

namespace Cert.KernB

open Cert.KernelIdeal Cert.KernelIdeal.Gen
open Idealize.ShloMosaic Idealize.ShloMosaic.TcCoe Idealize.SL.Sem Idealize.ShloMosaic.ValueIdx
open Idealize.ShloMosaic.Pipeline (Dat)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block indices at grid point `t`: the offsets', the features' and the output's blocks are block `t` along
    the points' axis and block `0` along the others; the two tables' blocks are the whole tables. -/
theorem block_indices : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Row `p` of the offsets' block at point `t` is row `256 t + p` of the offsets. -/
theorem offsets_block (c : Dev nD) (t : Fin cfg1.N) (p : Fin 256) (h : Fin 32) (d : Fin 3) (n : Fin 16384)
    (hn : n.val = 256 * t.val + p.val) :
    (iblk1 V c 0 t : FVec Ideal S256x32x3 .f32) (ix3 p h d) = (V c main_v16 : FVec Ideal S16384x32x3 .f32) (ix3 n h d) := by
  obtain ⟨e0, e1, e2, -⟩ := block_indices t
  unfold iblk1
  rw [View.read_apply]
  show V c main_v16 (((cfg1.win 0).blk t).view.emb (ix3 p h d)) = V c main_v16 (ix3 n h d)
  refine congrArg (V c main_v16) (funext fun a => Fin.ext ?_)
  match a with
  | ⟨0, _⟩ => show win1_0.index t (0 : Fin 3) * 256 + 1 * p.val = n.val; rw [e0, hn]; omega
  | ⟨1, _⟩ => show win1_0.index t (1 : Fin 3) * 32 + 1 * h.val = h.val; rw [e1]; omega
  | ⟨2, _⟩ => show win1_0.index t (2 : Fin 3) * 3 + 1 * d.val = d.val; rw [e2]; omega

/-- Row `p` of the features' block at point `t` is row `256 t + p` of the features. -/
theorem features_block (c : Dev nD) (t : Fin cfg1.N) (p : Fin 256) (h : Fin 32) (cc : Fin 128) (n : Fin 16384)
    (hn : n.val = 256 * t.val + p.val) :
    (iblk1 V c 1 t : FVec Ideal S256x32x128 .f32) (ix3 p h cc) = (V c main_v23 : FVec Ideal S16384x32x128 .f32) (ix3 n h cc) := by
  obtain ⟨-, -, -, e0, e1, e2, -⟩ := block_indices t
  unfold iblk1
  rw [View.read_apply]
  show V c main_v23 (((cfg1.win 1).blk t).view.emb (ix3 p h cc)) = V c main_v23 (ix3 n h cc)
  refine congrArg (V c main_v23) (funext fun a => Fin.ext ?_)
  match a with
  | ⟨0, _⟩ => show win1_1.index t (0 : Fin 3) * 256 + 1 * p.val = n.val; rw [e0, hn]; omega
  | ⟨1, _⟩ => show win1_1.index t (1 : Fin 3) * 32 + 1 * h.val = h.val; rw [e1]; omega
  | ⟨2, _⟩ => show win1_1.index t (2 : Fin 3) * 128 + 1 * cc.val = cc.val; rw [e2]; omega

/-- The weights' block at every point is the whole table. -/
theorem weights_block (c : Dev nD) (t : Fin cfg1.N) :
    (iblk1 V c 2 t : FVec Ideal S43x128 .f32) = (V c main_arg6 : FVec Ideal S43x128 .f32) := by
  obtain ⟨-, -, -, -, -, -, e0, e1, -⟩ := block_indices t
  funext y
  unfold iblk1
  rw [View.read_apply]
  show V c main_arg6 (((cfg1.win 2).blk t).view.emb y) = V c main_arg6 y
  refine congrArg (V c main_arg6) (funext fun a => Fin.ext ?_)
  match a with
  | ⟨0, _⟩ => show win1_2.index t (0 : Fin 2) * 43 + 1 * (y 0).val = (y 0).val; rw [e0]; omega
  | ⟨1, _⟩ => show win1_2.index t (1 : Fin 2) * 128 + 1 * (y 1).val = (y 1).val; rw [e1]; omega

/-- The kernel points' block at every point is the whole table. -/
theorem kernel_points_block (c : Dev nD) (t : Fin cfg1.N) :
    (iblk1 V c 3 t : FVec Ideal S3x43 .f32) = (V c main_cst : FVec Ideal S3x43 .f32) := by
  obtain ⟨-, -, -, -, -, -, -, -, e0, e1, -⟩ := block_indices t
  funext y
  unfold iblk1
  rw [View.read_apply]
  show V c main_cst (((cfg1.win 3).blk t).view.emb y) = V c main_cst y
  refine congrArg (V c main_cst) (funext fun a => Fin.ext ?_)
  match a with
  | ⟨0, _⟩ => show win1_3.index t (0 : Fin 2) * 3 + 1 * (y 0).val = (y 0).val; rw [e0]; omega
  | ⟨1, _⟩ => show win1_3.index t (1 : Fin 2) * 43 + 1 * (y 1).val = (y 1).val; rw [e1]; omega

/-- WHAT POINT `t` WRITES BACK is block `t` of the aggregate of the four arrays as the region finds them. -/
theorem written_block (c : Dev nD) (t : Fin cfg1.N) :
    (dat1 (F := Ideal) V c).flushed 4 t = ((cfg1.win 4).blk t).view.read (Elt Ideal)
      (Cert.SpecB.outK (V c main_v16) (V c main_v23) (V c main_arg6) (V c main_cst)) := by
  show (cfg1.win 4).cut (grid1.coords t) ((dat1 V c).after 4 t) = _
  rw [after1_4]
  unfold out1_4
  rw [View.canon_unit_zero zeros2]
  simp only [View.ld_unit_zero (S := S256x32x3) zeros3, View.ld_unit_zero (S := S3x43) zeros2,
    View.ld_unit_zero (S := S43x128) zeros2, View.ld_unit_zero (S := S256x32x128) zeros3]
  have ht : t.val < 64 := by
    have h : t.val < cfg1.N := t.isLt
    have hN : cfg1.N = 64 := N_1
    omega
  obtain ⟨-, -, -, -, -, -, -, -, -, -, e0, e1⟩ := block_indices t
  funext j
  obtain ⟨p, cc, rfl⟩ : ∃ (p : Fin 256) (cc : Fin 128), j = ix2 p cc := ⟨j 0, j 1, eq_ix2 j⟩
  rw [View.read_apply]
  have hemb : ((cfg1.win 4).blk t).view.emb (ix2 p cc)
      = ix2 (⟨256 * t.val + p.val, by have := p.isLt; omega⟩ : Fin 16384) cc := by
    funext a; apply Fin.ext
    match a with
    | ⟨0, _⟩ => show win1_4.index t (0 : Fin 2) * 256 + 1 * p.val = 256 * t.val + p.val; rw [e0]; omega
    | ⟨1, _⟩ => show win1_4.index t (1 : Fin 2) * 128 + 1 * cc.val = cc.val; rw [e1]; omega
  rw [hemb, Cert.SpecB.outK_ix2]
  exact block_apply (iblk1 V c 0 t) (iblk1 V c 1 t) (iblk1 V c 2 t) (iblk1 V c 3 t)
    (V c main_v16) (V c main_v23) (V c main_arg6) (V c main_cst) p cc ⟨256 * t.val + p.val, by have := p.isLt; omega⟩
    (fun h d => offsets_block V c t p h d _ rfl) (fun h => features_block V c t p h cc _ rfl)
    (weights_block V c t) (kernel_points_block V c t)

/-- Every index of the output array lies in some point's block: row `r` in point `r / 256`'s. -/
theorem covered (i : S16384x128.Idx) :
    ∃ t : Fin cfg1.N, (cfg1.win 4).flush t = true ∧ i ∈ ((cfg1.win 4).blk t).view.set := by
  have hi0 : (i 0).val < 16384 := (i 0).isLt
  have hi1 : (i 1).val < 128 := (i 1).isLt
  obtain ⟨t, ht⟩ : ∃ t : Fin cfg1.N, t.val = (i 0).val / 256 :=
    ⟨⟨(i 0).val / 256, by rw [show cfg1.N = 64 from N_1]; omega⟩, rfl⟩
  obtain ⟨-, -, -, -, -, -, -, -, -, -, e0, e1⟩ := block_indices t
  refine ⟨t, flush1_4 t, ?_⟩
  show i ∈ ((View.whole main_v24).slice (win1_4.rect t)).set
  rw [View.set_slice_whole, Rect.mem_set_unit]
  intro a
  match a with
  | ⟨0, _⟩ =>
    show win1_4.index t (0 : Fin 2) * 256 ≤ (i 0).val ∧ (i 0).val < win1_4.index t (0 : Fin 2) * 256 + 256
    rw [e0, ht]; omega
  | ⟨1, _⟩ =>
    show win1_4.index t (1 : Fin 2) * 128 ≤ (i 1).val ∧ (i 1).val < win1_4.index t (1 : Fin 2) * 128 + 128
    rw [e1]; omega

/-- After the second region's write-backs, its output array is the influence-weighted aggregate of the four arrays
    the region reads, index by index. -/
theorem kernel_value
    (V : (c : Dev Cert.KernelIdeal.nD) → (b : Ref Cert.KernelIdeal.sig .tc) →
      Buf (Elt Ideal) ((c : Thread Cert.KernelIdeal.nD Cert.KernelIdeal.τ).loc b))
    (c : Dev Cert.KernelIdeal.nD) :
    (Cert.KernelIdeal.Gen.dat1 (F := Ideal) V c).arrAt 4 Cert.KernelIdeal.cfg1.N
      = Cert.SpecB.outK (V c Cert.KernelIdeal.main_v16) (V c Cert.KernelIdeal.main_v23)
          (V c Cert.KernelIdeal.main_arg6) (V c Cert.KernelIdeal.main_cst) :=
  (dat1 (F := Ideal) V c).arrAt_eq_of_cover 4
    (Cert.SpecB.outK (V c main_v16) (V c main_v23) (V c main_arg6) (V c main_cst))
    (fun t _ => written_block V c t) covered

end Cert.KernB

end
-- ==== Proof.SpecBR.lean ====
import proofs.«171789_j3822520893918_1_alg».proof.ReferenceIdeal
import Idealize.ShloMosaic.PureOps.Ideal
import Idealize.ShloMosaic.Lib.ValueIdx

/-!
  The neighbour-aggregation stage as one function of its operands, entry by entry, on the extended reals.

  For a point `n`, a neighbour slot `h` and a kernel point `k`:
  * `sqdR` is the squared distance between the relative position of neighbour `h` of `n` and kernel point `k`: the
    initial value zero plus the sum over the three coordinates of the squared differences;
  * `inflR` is the influence `max 0 (1 − √sqdR / 1)`;
  * `outRAt` is, for an output channel `c`, the initial value zero plus the sum over the kernel points of
    (the sum over the neighbour slots of influence times neighbour feature) times the weight.
  Every literal is kept as the word it was written with; the operations and their association are the reference's.
-/

noncomputable section

open scoped BigOperators

namespace Cert.SpecB

open Idealize.ShloMosaic Idealize.ShloMosaic.ValueIdx
open Cert.ReferenceIdeal

/-- Squared distance from the relative position of neighbour `h` of point `n` to kernel point `k`. -/
def sqdR (relpos : FVec Ideal S16384x32x3 .f32) (kp : FVec Ideal S43x3 .f32) (n : Fin 16384) (h : Fin 32) (k : Fin 43) : EReal :=
  Ideal.ofBits .f32 0x00000000#32
    + ∑ d : Fin 3, (relpos (ix3 n h d) - kp (ix2 k d)) * (relpos (ix3 n h d) - kp (ix2 k d))

/-- Influence of kernel point `k` on neighbour `h` of point `n`: `max 0 (1 − √(squared distance) / 1)`. -/
def inflR (relpos : FVec Ideal S16384x32x3 .f32) (kp : FVec Ideal S43x3 .f32) (n : Fin 16384) (h : Fin 32) (k : Fin 43) : EReal :=
  max (Ideal.ofBits .f32 0x00000000#32)
    (Ideal.ofBits .f32 0x3F800000#32 - Ideal.div (Ideal.sqrt (sqdR relpos kp n h k)) (Ideal.ofBits .f32 0x3F800000#32))

/-- The aggregate at point `n`, channel `c`. -/
def outRAt (relpos : FVec Ideal S16384x32x3 .f32) (nfeats : FVec Ideal S16384x32x128 .f32) (convw : FVec Ideal S43x128 .f32)
    (kp : FVec Ideal S43x3 .f32) (n : Fin 16384) (c : Fin 128) : EReal :=
  Ideal.ofBits .f32 0x00000000#32
    + ∑ k : Fin 43, (∑ h : Fin 32, inflR relpos kp n h k * nfeats (ix3 n h c)) * convw (ix2 k c)

/-- The aggregate as an array. -/
def outR (relpos : FVec Ideal S16384x32x3 .f32) (nfeats : FVec Ideal S16384x32x128 .f32) (convw : FVec Ideal S43x128 .f32)
    (kp : FVec Ideal S43x3 .f32) : FVec Ideal S16384x128 .f32 :=
  fun i => outRAt relpos nfeats convw kp (i 0) (i 1)

/-- The array at the index with coordinates `n`, `c`. -/
theorem outR_apply (relpos : FVec Ideal S16384x32x3 .f32) (nfeats : FVec Ideal S16384x32x128 .f32) (convw : FVec Ideal S43x128 .f32)
    (kp : FVec Ideal S43x3 .f32) (n : Fin 16384) (c : Fin 128) :
    outR relpos nfeats convw kp (ix2 n c) = outRAt relpos nfeats convw kp n c := rfl

end Cert.SpecB

end
-- ==== Proof.RefBValSq.lean ====
import proofs.«171789_j3822520893918_1_alg».proof.Proof.RefB
import proofs.«171789_j3822520893918_1_alg».proof.Proof.SpecBR
import Idealize.ShloMosaic.Lib.IdealHost
import Idealize.ShloMosaic.Lib.Pipeline.Value

/-!
  The reference's squared distances and influences read at an index: the two broadcasts of the relative positions
  and of the kernel points read one coordinate each, the sum over the last axis is the initial value plus the sum over
  the three coordinates, and the square root, quotient, difference and maximum are taken entry by entry.
-/

noncomputable section

open scoped BigOperators

namespace Cert.StageBRef

open Idealize.ShloMosaic Idealize.ShloMosaic.ValueIdx
open Cert.ReferenceIdeal

variable [Cert.ReferenceIdeal.Facts]

/-- The difference array at (n, h, k, d) is the relative position's coordinate d minus kernel point k's coordinate d. -/
theorem diffs_apply (rp : FVec Ideal S16384x32x3 .f32) (n : Fin 16384) (h : Fin 32) (k : Fin 43) (d : Fin 3) :
    Cert.RefB.diffs rp (ix4 n h k d) = rp (ix3 n h d) - Cert.RefB.kp (ix2 k d) := by
  unfold Cert.RefB.diffs
  refine congrArg₂ (· - ·) ?_ ?_
  · refine (broadcastInDim_apply _ _ _ _ (ix4 n h (0 : Fin 1) d) (fun a => by
      match a with | ⟨0, _⟩ => rfl | ⟨1, _⟩ => rfl | ⟨2, _⟩ => rfl | ⟨3, _⟩ => rfl)).trans ?_
    exact broadcastInDim_apply _ _ _ _ (ix3 n h d) (fun a => by
      match a with | ⟨0, _⟩ => rfl | ⟨1, _⟩ => rfl | ⟨2, _⟩ => rfl)
  · refine (broadcastInDim_apply _ _ _ _ (ix4 (0 : Fin 1) (0 : Fin 1) k d) (fun a => by
      match a with | ⟨0, _⟩ => rfl | ⟨1, _⟩ => rfl | ⟨2, _⟩ => rfl | ⟨3, _⟩ => rfl)).trans ?_
    exact broadcastInDim_apply _ _ _ _ (ix2 k d) (fun a => by
      match a with | ⟨0, _⟩ => rfl | ⟨1, _⟩ => rfl)

/-- The squared distance at (n, h, k): the initial value plus the sum over the three coordinates of the squared
    differences. -/
theorem sqdist_apply (rp : FVec Ideal S16384x32x3 .f32) (n : Fin 16384) (h : Fin 32) (k : Fin 43) :
    Cert.RefB.sqdist rp (ix3 n h k) = Cert.SpecB.sqdR rp Cert.RefB.kp n h k := by
  unfold Cert.RefB.sqdist Cert.SpecB.sqdR
  refine (hostReduceAdd_apply _ _ _ _ _).trans ?_
  refine (Ideal.hostReduceAdd_single Facts₀.reducesTo_S16384x32x43x3_S16384x32x43_d3 (by decide) _ _ _).trans ?_
  refine congrArg₂ (· + ·) rfl (Finset.sum_congr rfl fun d _ => ?_)
  have e : (by decide : S16384x32x43x3.Reduces [3] S16384x32x43).lift (ix3 n h k) d = ix4 n h k d :=
    funext fun a => Fin.ext (by match a with | ⟨0, _⟩ => rfl | ⟨1, _⟩ => rfl | ⟨2, _⟩ => rfl | ⟨3, _⟩ => rfl)
  refine (congrArg (mulf (F := Ideal) (Cert.RefB.diffs rp) (Cert.RefB.diffs rp)) e).trans ?_
  exact congrArg₂ (· * ·) (diffs_apply rp n h k d) (diffs_apply rp n h k d)

/-- The host's square root at an index is the square root of the entry. -/
theorem hostSqrt_apply {s : Shape} (x : FVec Ideal s .f32) (i : s.Idx) : Host.sqrt x i = Ideal.sqrt (x i) := rfl

/-- The influence at (n, h, k): the maximum of zero and one minus the square root of the squared distance over one. -/
theorem infl_apply (rp : FVec Ideal S16384x32x3 .f32) (n : Fin 16384) (h : Fin 32) (k : Fin 43) :
    Cert.RefB.infl rp (ix3 n h k) = Cert.SpecB.inflR rp Cert.RefB.kp n h k := by
  unfold Cert.RefB.infl Cert.SpecB.inflR
  rw [maximumf_apply, subf_apply, hostDivf_apply, hostSqrt_apply, sqdist_apply,
    broadcastInDim_scalar_apply, broadcastInDim_scalar_apply]
  rfl

end Cert.StageBRef

end
-- ==== Proof.RefBValTail.lean ====
import proofs.«171789_j3822520893918_1_alg».proof.Proof.RefBValSq

/-!
  The reference's aggregate read at an index. The batched contraction of the influences [16384, 32, 43] with the
  neighbour features [16384, 32, 128] over the neighbour axis is, at (n, k, c), the sum over the 32 neighbour slots of
  influence (n, h, k) times feature (n, h, c); the weights are broadcast along the points; the final sum over the kernel
  points is the initial value plus the sum over the 43 of them.
-/

noncomputable section

open scoped BigOperators

namespace Cert.StageBRef

open Idealize.ShloMosaic Idealize.ShloMosaic.ValueIdx
open Cert.ReferenceIdeal

variable [Cert.ReferenceIdeal.Facts]

/-! ### The contraction's operand indices, axis by axis: axis 0 is the batch axis on both sides (the output's axis 0),
axis 2 the free one (the output's axis 1 on the left, axis 2 on the right) -/

theorem lhs_dot_0 (i : S16384x43x128.Idx) (q : dot_S16384x32x43_S16384x32x128_S16384x43x128_1_1_2_2_0_0.contr.Idx) :
    (dot_S16384x32x43_S16384x32x128_S16384x43x128_1_1_2_2_0_0.lhsIdx i q 0).val = (i 0).val := by
  have hb : (0 : Fin S16384x32x43.rank) ∈ dot_S16384x32x43_S16384x32x128_S16384x43x128_1_1_2_2_0_0.lhsBatch := List.mem_singleton.mpr rfl
  unfold DotDims.lhsIdx
  rw [dif_pos hb]
  rfl
theorem lhs_dot_2 (i : S16384x43x128.Idx) (q : dot_S16384x32x43_S16384x32x128_S16384x43x128_1_1_2_2_0_0.contr.Idx) :
    (dot_S16384x32x43_S16384x32x128_S16384x43x128_1_1_2_2_0_0.lhsIdx i q 2).val = (i 1).val := by
  have hb : ¬(2 : Fin S16384x32x43.rank) ∈ dot_S16384x32x43_S16384x32x128_S16384x43x128_1_1_2_2_0_0.lhsBatch :=
    (by decide : ¬(2 : Fin 3) ∈ ([0] : List (Fin 3)))
  have hf : (2 : Fin S16384x32x43.rank) ∈ dot_S16384x32x43_S16384x32x128_S16384x43x128_1_1_2_2_0_0.lhsNonContracting := List.mem_singleton.mpr rfl
  unfold DotDims.lhsIdx
  rw [dif_neg hb, dif_pos hf]
  rfl
theorem rhs_dot_0 (i : S16384x43x128.Idx) (q : dot_S16384x32x43_S16384x32x128_S16384x43x128_1_1_2_2_0_0.contr.Idx) :
    (dot_S16384x32x43_S16384x32x128_S16384x43x128_1_1_2_2_0_0.rhsIdx i q 0).val = (i 0).val := by
  have hb : (0 : Fin S16384x32x128.rank) ∈ dot_S16384x32x43_S16384x32x128_S16384x43x128_1_1_2_2_0_0.rhsBatch := List.mem_singleton.mpr rfl
  unfold DotDims.rhsIdx
  rw [dif_pos hb]
  rfl
theorem rhs_dot_2 (i : S16384x43x128.Idx) (q : dot_S16384x32x43_S16384x32x128_S16384x43x128_1_1_2_2_0_0.contr.Idx) :
    (dot_S16384x32x43_S16384x32x128_S16384x43x128_1_1_2_2_0_0.rhsIdx i q 2).val = (i 2).val := by
  have hb : ¬(2 : Fin S16384x32x128.rank) ∈ dot_S16384x32x43_S16384x32x128_S16384x43x128_1_1_2_2_0_0.rhsBatch :=
    (by decide : ¬(2 : Fin 3) ∈ ([0] : List (Fin 3)))
  have hf : (2 : Fin S16384x32x128.rank) ∈ dot_S16384x32x43_S16384x32x128_S16384x43x128_1_1_2_2_0_0.rhsNonContracting := List.mem_singleton.mpr rfl
  unfold DotDims.rhsIdx
  rw [dif_neg hb, dif_pos hf]
  rfl

/-- The contraction at (n, k, c): the sum over the neighbour slots of influence times neighbour feature. The left
    operand's index at contraction position h is (n, h, k), the right operand's (n, h, c). -/
theorem dot_apply (rp : FVec Ideal S16384x32x3 .f32) (nf : FVec Ideal S16384x32x128 .f32)
    (n : Fin 16384) (k : Fin 43) (c : Fin 128) :
    Host.dotGeneral (F := Ideal) dot_S16384x32x43_S16384x32x128_S16384x43x128_1_1_2_2_0_0 none (Cert.RefB.infl rp) nf (ix3 n k c)
      = ∑ h : Fin 32, Cert.SpecB.inflR rp Cert.RefB.kp n h k * nf (ix3 n h c) := by
  simp only [Host.dotGeneral]
  rw [Ideal.dotGeneral_apply, ← Equiv.sum_comp (contrEquiv1 dot_S16384x32x43_S16384x32x128_S16384x43x128_1_1_2_2_0_0 32 rfl rfl).symm]
  refine Finset.sum_congr rfl fun h _ => ?_
  have hk := contrEquiv1_symm_val dot_S16384x32x43_S16384x32x128_S16384x43x128_1_1_2_2_0_0 32 rfl rfl h
  have el : dot_S16384x32x43_S16384x32x128_S16384x43x128_1_1_2_2_0_0.lhsIdx (ix3 n k c) ((contrEquiv1 dot_S16384x32x43_S16384x32x128_S16384x43x128_1_1_2_2_0_0 32 rfl rfl).symm h) = ix3 n h k :=
    funext fun a => Fin.ext (by
      match a with
      | ⟨0, _⟩ => exact lhs_dot_0 _ _
      | ⟨1, _⟩ => exact (dot_S16384x32x43_S16384x32x128_S16384x43x128_1_1_2_2_0_0.lhsIdx_val_of_single rfl _ _).trans hk
      | ⟨2, _⟩ => exact lhs_dot_2 _ _)
  have er : dot_S16384x32x43_S16384x32x128_S16384x43x128_1_1_2_2_0_0.rhsIdx (ix3 n k c) ((contrEquiv1 dot_S16384x32x43_S16384x32x128_S16384x43x128_1_1_2_2_0_0 32 rfl rfl).symm h) = ix3 n h c :=
    funext fun a => Fin.ext (by
      match a with
      | ⟨0, _⟩ => exact rhs_dot_0 _ _
      | ⟨1, _⟩ => exact (dot_S16384x32x43_S16384x32x128_S16384x43x128_1_1_2_2_0_0.rhsIdx_val_of_single rfl _ _).trans hk
      | ⟨2, _⟩ => exact rhs_dot_2 _ _)
  rw [el, er, infl_apply]

/-- The aggregate at (n, c). -/
theorem tail_apply (rp : FVec Ideal S16384x32x3 .f32) (nf : FVec Ideal S16384x32x128 .f32) (arg6 : FVec Ideal S43x128 .f32)
    (n : Fin 16384) (c : Fin 128) :
    Cert.RefB.tail rp nf arg6 (ix2 n c) = Cert.SpecB.outRAt rp nf arg6 Cert.RefB.kp n c := by
  unfold Cert.RefB.tail Cert.SpecB.outRAt
  have hR : S16384x43x128.Reduces [1] S16384x128 := by decide
  refine (hostReduceAdd_apply _ _ _ _ _).trans ?_
  refine (Ideal.hostReduceAdd_single Facts₀.reducesTo_S16384x43x128_S16384x128_d1 hR _ _ _).trans ?_
  refine congrArg₂ (· + ·) rfl (Finset.sum_congr rfl fun (k : Fin 43) _ => ?_)
  have e : hR.lift (ix2 n c) k = ix3 n k c :=
    funext fun a => Fin.ext (by match a with | ⟨0, _⟩ => rfl | ⟨1, _⟩ => rfl | ⟨2, _⟩ => rfl)
  rw [e, mulf_apply]
  refine congrArg₂ (· * ·) (dot_apply rp nf n k c) ?_
  refine (broadcastInDim_apply _ _ _ _ (ix3 (0 : Fin 1) k c) (fun a => by
    match a with | ⟨0, _⟩ => rfl | ⟨1, _⟩ => rfl | ⟨2, _⟩ => rfl)).trans ?_
  exact broadcastInDim_apply _ _ _ _ (ix2 k c) (fun a => by
    match a with | ⟨0, _⟩ => rfl | ⟨1, _⟩ => rfl)

/-- The reference's aggregate is the specified function of its operands. -/
theorem tail_value (rp : FVec Ideal S16384x32x3 .f32) (nf : FVec Ideal S16384x32x128 .f32) (arg6 : FVec Ideal S43x128 .f32) :
    Cert.RefB.tail rp nf arg6 = Cert.SpecB.outR rp nf arg6 Cert.RefB.kp := by
  funext i
  obtain ⟨n, c, rfl⟩ : ∃ (n : Fin 16384) (c : Fin 128), i = ix2 n c := ⟨i 0, i 1, eq_ix2 i⟩
  exact (tail_apply rp nf arg6 n c).trans (Cert.SpecB.outR_apply rp nf arg6 Cert.RefB.kp n c).symm

end Cert.StageBRef

end
-- ==== Proof.RefBValReal.lean ====
import proofs.«171789_j3822520893918_1_alg».proof.Proof.RefB
import Idealize.ShloMosaic.Lib.IdealHost
import Idealize.ShloMosaic.Lib.Pipeline.Value

/-!
  The gathered arrays have real entries when the tables they are gathered from do.

  A gather reads, at every result index, SOME entry of its operand (whatever the start index: it is clamped into the
  table). The coordinate table is the coordinates followed by one row holding the real number 10⁶; the feature table is
  the features followed by one row of zeros. So every gathered entry is an entry of the argument or one of those two
  reals, and a difference of two reals is a real.
-/

noncomputable section

namespace Cert.StageBRef

open Idealize.ShloMosaic Idealize.ShloMosaic.ValueIdx
open Cert.ReferenceIdeal

variable [Cert.ReferenceIdeal.Facts]

/-- The word 0x49742400 denotes the real number 10⁶. -/
theorem ofBits_million : Ideal.ofBits .f32 0x49742400#32 = ((1000000 : ℝ) : EReal) := by
  simp [Ideal.ofBits, Ideal.ieee, -EReal.coe_mul]; norm_num

/-- Every entry of the coordinate table is real: a coordinate, or 10⁶ in the last row. -/
theorem coordTable_real (arg0 : FVec Ideal S16384x3 .f32) (h0 : ∀ i, ∃ r : ℝ, arg0 i = (r : EReal)) (j : S16385x3.Idx) :
    ∃ r : ℝ, Cert.RefB.coordTable arg0 j = (r : EReal) := by
  unfold Cert.RefB.coordTable
  have hj0 : (j 0).val < 16385 := idx2_lt0 j
  by_cases hj : (j 0).val < 16384
  · obtain ⟨r, hr⟩ := h0 (ix2 (⟨(j 0).val, hj⟩ : Fin 16384) (⟨(j 1).val, idx2_lt1 j⟩ : Fin 3))
    refine ⟨r, ?_⟩
    refine (concatenate_pair_apply_left (s₁ := S16384x3) (s₂ := S1x3) (0 : Fin 2) _ _ _ j rfl
      (ix2 (⟨(j 0).val, hj⟩ : Fin 16384) (⟨(j 1).val, idx2_lt1 j⟩ : Fin 3)) (fun b => by
        match b with | ⟨0, _⟩ => rfl | ⟨1, _⟩ => rfl)).trans hr
  · refine ⟨1000000, ?_⟩
    refine (concatenate_pair_apply_right (s₁ := S16384x3) (s₂ := S1x3) (0 : Fin 2) _ _ _ j rfl rfl
      (ix2 (0 : Fin 1) (⟨(j 1).val, idx2_lt1 j⟩ : Fin 3)) (fun b hb => by
        match b, hb with
        | ⟨0, _⟩, hb => exact absurd rfl hb
        | ⟨1, _⟩, _ => rfl) (by show 0 + 16384 = (j 0).val; omega)).trans ?_
    exact (broadcastInDim_scalar_apply _ _ _).trans ofBits_million

/-- Every entry of the feature table is real: a feature, or zero in the last row. -/
theorem featTable_real (x1 : FVec Ideal S16384x128 .f32) (h1 : ∀ i, ∃ r : ℝ, x1 i = (r : EReal)) (j : S16385x128.Idx) :
    ∃ r : ℝ, Cert.RefB.featTable x1 j = (r : EReal) := by
  unfold Cert.RefB.featTable
  have hj0 : (j 0).val < 16385 := idx2_lt0 j
  by_cases hj : (j 0).val < 16384
  · obtain ⟨r, hr⟩ := h1 (ix2 (⟨(j 0).val, hj⟩ : Fin 16384) (⟨(j 1).val, idx2_lt1 j⟩ : Fin 128))
    refine ⟨r, ?_⟩
    refine (concatenate_pair_apply_left (s₁ := S16384x128) (s₂ := S1x128) (0 : Fin 2) _ _ _ j rfl
      (ix2 (⟨(j 0).val, hj⟩ : Fin 16384) (⟨(j 1).val, idx2_lt1 j⟩ : Fin 128)) (fun b => by
        match b with | ⟨0, _⟩ => rfl | ⟨1, _⟩ => rfl)).trans hr
  · refine ⟨0, ?_⟩
    refine (concatenate_pair_apply_right (s₁ := S16384x128) (s₂ := S1x128) (0 : Fin 2) _ _ _ j rfl rfl
      (ix2 (0 : Fin 1) (⟨(j 1).val, idx2_lt1 j⟩ : Fin 128)) (fun b hb => by
        match b, hb with
        | ⟨0, _⟩, hb => exact absurd rfl hb
        | ⟨1, _⟩, _ => rfl) (by show 0 + 16384 = (j 0).val; omega)).trans ?_
    exact (broadcastInDim_scalar_apply _ _ _).trans (Ideal.ofBits_zero_f32.trans EReal.coe_zero.symm)

/-- The relative positions are real when the coordinates are. -/
theorem relpos_real (arg0 : FVec Ideal S16384x3 .f32) (arg3 : (⟨S16384x32, .i32⟩ : BufTy).Contents (Elt Ideal))
    (h0 : ∀ i, ∃ r : ℝ, arg0 i = (r : EReal)) : ∀ i, ∃ r : ℝ, Cert.RefB.relpos arg0 arg3 i = (r : EReal) := fun i => by
  obtain ⟨a, ha⟩ := coordTable_real arg0 h0
    (gather_S16385x3_S16384x32x1_S16384x32x3_2_0_n_n_0_2_13.operandIdx i (Cert.RefB.wrapIdx arg3))
  obtain ⟨b, hb⟩ : ∃ r : ℝ, (broadcastInDim S16384x32x3 ![0, 1, 2] Facts₀.bcast_S16384x1x3_S16384x32x3_0_1_2
      (broadcastInDim S16384x1x3 ![0, 2] Facts₀.bcast_S16384x3_S16384x1x3_0_2 arg0)) i = (r : EReal) := h0 _
  refine ⟨a - b, ?_⟩
  unfold Cert.RefB.relpos
  exact (congrArg₂ (· - ·) ha hb).trans (EReal.coe_sub a b).symm

/-- The neighbour features are real when the features are. -/
theorem nfeats_real (x1 : FVec Ideal S16384x128 .f32) (arg3 : (⟨S16384x32, .i32⟩ : BufTy).Contents (Elt Ideal))
    (h1 : ∀ i, ∃ r : ℝ, x1 i = (r : EReal)) : ∀ i, ∃ r : ℝ, Cert.RefB.nfeats x1 arg3 i = (r : EReal) := fun i =>
  featTable_real x1 h1
    (gather_S16385x128_S16384x32x1_S16384x32x128_2_0_n_n_0_2_1128.operandIdx i (Cert.RefB.wrapIdx arg3))

end Cert.StageBRef

end
-- ==== Proof.StageBRef.lean ====
import proofs.«171789_j3822520893918_1_alg».proof.Proof.RefBValTail
import proofs.«171789_j3822520893918_1_alg».proof.Proof.RefBValReal

/-!
  The reference side of the neighbour-aggregation stage, in one place. Everything is proved in the modules imported
  here, in the namespace `Cert.StageBRef`:

  * `tail_value`: the reference's aggregate, as the composition of its printed operations, is the function
    `Cert.SpecB.outR` of the relative positions, the neighbour features, the weights and the kernel points, entry by
    entry (the sums read as the initial value plus a sum over the reduced axis, the batched contraction as a sum over
    the neighbour slots);
  * `relpos_real`, `nfeats_real`: the gathered relative positions and neighbour features have real entries when
    the coordinates and the features do.
-/
-- ==== Proof.SpecBReal.lean ====
/-
  Real-number facts behind the two spellings of the kernel-point aggregate: the numerals as reals, the embedding of the
  reals in the extended reals against finite sums, maxima, square roots and division by one, the expansion of a
  squared distance, and the exchange of the two finite sums.
-/
import Idealize.ShloMosaic.PureOps.Ideal

noncomputable section

open scoped BigOperators

namespace Cert.SpecB.Real

open Idealize.ShloMosaic

/-- The word of `2.0` denotes the real `2`. -/
theorem ofBits_two : Ideal.ofBits .f32 0x40000000#32 = ((2 : ℝ) : EReal) := by
  simp [Ideal.ofBits, Ideal.ieee, -EReal.coe_mul]; norm_num

/-- The word of `1.0` denotes the real `1`. -/
theorem ofBits_one : Ideal.ofBits .f32 0x3F800000#32 = ((1 : ℝ) : EReal) := by
  simp [Ideal.ofBits, Ideal.ieee, -EReal.coe_mul]; norm_num

/-- The zero word denotes the real `0`. -/
theorem ofBits_zero : Ideal.ofBits .f32 0x00000000#32 = ((0 : ℝ) : EReal) := by
  simp [Ideal.ofBits, Ideal.ieee]

/-- The embedding of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The embedding of the reals commutes with the maximum. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- The square root of a nonnegative real, on the extended reals. -/
theorem sqrt_coe_of_nonneg {r : ℝ} (h : 0 ≤ r) : Ideal.sqrt (r : EReal) = ((Real.sqrt r : ℝ) : EReal) := by
  rw [Ideal.sqrt_coe, if_neg (not_lt.2 h)]

/-- Division by one is the identity on the reals inside the extended reals. -/
theorem div_one_coe (x : ℝ) : Ideal.div (x : EReal) ((1 : ℝ) : EReal) = (x : EReal) := by
  rw [Ideal.div_coe one_ne_zero, ← EReal.coe_mul]; simp

/-- The squared distance of a point `r` from a kernel point `k`, expanded: `|r|² − 2 r·k + |k|²`. -/
theorem sqdist_expand (r0 r1 r2 k0 k1 k2 : ℝ) :
    (((r0 * r0 + r1 * r1) + r2 * r2 - 2 * ((r0 * k0 + r1 * k1) + r2 * k2)) + ((k0 * k0 + k1 * k1) + k2 * k2))
      = (r0 - k0) * (r0 - k0) + (r1 - k1) * (r1 - k1) + (r2 - k2) * (r2 - k2) := by ring

theorem sqdist_nonneg (r0 r1 r2 k0 k1 k2 : ℝ) :
    0 ≤ (r0 - k0) * (r0 - k0) + (r1 - k1) * (r1 - k1) + (r2 - k2) * (r2 - k2) := by
  have h0 := mul_self_nonneg (r0 - k0); have h1 := mul_self_nonneg (r1 - k1); have h2 := mul_self_nonneg (r2 - k2)
  linarith

/-- The influence of a kernel point, in its two spellings, over the reals. -/
theorem infl_eq (r0 r1 r2 k0 k1 k2 : ℝ) :
    max 0 (1 - Real.sqrt (0 + ∑ d : Fin 3, (![r0, r1, r2] d - ![k0, k1, k2] d) * (![r0, r1, r2] d - ![k0, k1, k2] d)))
      = max (1 - Real.sqrt (max (((r0 * r0 + r1 * r1) + r2 * r2 - 2 * ((r0 * k0 + r1 * k1) + r2 * k2)) + ((k0 * k0 + k1 * k1) + k2 * k2)) 0)) 0 := by
  rw [sqdist_expand, max_eq_left (sqdist_nonneg r0 r1 r2 k0 k1 k2), max_comm, Fin.sum_univ_three, zero_add]
  simp

/-- Exchanging the sum over neighbours with the sum over kernel points. -/
theorem agg_swap {H K : Type*} [Fintype H] [Fintype K] (nf : H → ℝ) (w : K → ℝ) (infl : H → K → ℝ) :
    ∑ k, (∑ h, infl h k * nf h) * w k = ∑ h, nf h * ∑ k, infl h k * w k := by
  simp only [Finset.sum_mul, Finset.mul_sum]
  rw [Finset.sum_comm]
  exact Finset.sum_congr rfl fun h _ => Finset.sum_congr rfl fun k _ => by ring

end Cert.SpecB.Real

end
-- ==== Proof.SpecBMath.lean ====
/-
  The two spellings of the kernel-point aggregate agree on real data.

  One program computes, for a point `n` and a channel `c`, the sum over the neighbours `h` of the neighbour's feature
  times the influence-weighted combination of the weights, with the squared distance expanded as
  `|r|² − 2 r·p + |p|²` and clipped at zero before the square root; the other computes the sum over the kernel points
  `k` of (the influence-weighted sum of the neighbour features) times the weight, with the squared distance as the sum
  of the squared coordinate differences, the root divided by one and the maximum taken with its operands exchanged.
  On real numbers the expanded form IS the sum of squares (so it is nonnegative and the inner clip does nothing),
  dividing by one and exchanging the operands of a maximum change nothing, and the two double sums differ by the
  order of summation and the distributive law. All of this needs the entries to be real: the extended reals do not
  distribute at the infinities.
-/
import proofs.«171789_j3822520893918_1_alg».proof.Proof.SpecBK
import proofs.«171789_j3822520893918_1_alg».proof.Proof.SpecBR
import proofs.«171789_j3822520893918_1_alg».proof.Proof.SpecBReal

noncomputable section

open scoped BigOperators

namespace Cert.SpecB

open Idealize.ShloMosaic Idealize.ShloMosaic.ValueIdx Cert.SpecB.Real

/-- The influence with the squared distance expanded, over the reals: `r` the neighbour's offset, `p` the kernel point. -/
def iKr (r p : Fin 3 → ℝ) : ℝ :=
  max (1 - Real.sqrt (max ((((r 0 * r 0 + r 1 * r 1) + r 2 * r 2) - 2 * ((r 0 * p 0 + r 1 * p 1) + r 2 * p 2))
    + ((p 0 * p 0 + p 1 * p 1) + p 2 * p 2)) 0)) 0

/-- The influence with the squared distance as a sum of squared differences, over the reals. -/
def iRr (r p : Fin 3 → ℝ) : ℝ :=
  max 0 (1 - Real.sqrt (0 + ∑ d : Fin 3, (r d - p d) * (r d - p d)))

/-- The two real influences are one function: the expansion is an identity, a sum of squares is nonnegative. -/
theorem iRr_eq_iKr (r p : Fin 3 → ℝ) : iRr r p = iKr r p := by
  unfold iRr iKr
  rw [sqdist_expand, max_eq_left (sqdist_nonneg _ _ _ _ _ _), max_comm, Fin.sum_univ_three, zero_add]

/-- On real data the first program's influence is the embedded real influence. -/
theorem inflK_coe (relpos : FVec Ideal Cert.KernelIdeal.S16384x32x3 .f32) (kpT : FVec Ideal Cert.KernelIdeal.S3x43 .f32)
    (rp : Cert.KernelIdeal.S16384x32x3.Idx → ℝ) (kpr : Cert.ReferenceIdeal.S43x3.Idx → ℝ)
    (hrp : ∀ i, relpos i = (rp i : EReal)) (hkt : ∀ (d : Fin 3) (k : Fin 43), kpT (ix2 d k) = (kpr (ix2 k d) : EReal))
    (n : Fin 16384) (h : Fin 32) (k : Fin 43) :
    inflK relpos kpT n h k = ((iKr (fun d => rp (ix3 n h d)) (fun d => kpr (ix2 k d)) : ℝ) : EReal) := by
  unfold inflK rsqK crossK kpsqK iKr
  simp only [hrp, hkt, ofBits_one, ofBits_two, ofBits_zero]
  simp only [← EReal.coe_mul, ← EReal.coe_add, ← EReal.coe_sub, ← coe_max]
  rw [sqrt_coe_of_nonneg (le_max_right _ _)]
  simp only [← EReal.coe_sub, ← coe_max]

/-- On real data the second program's influence is the embedded real influence. -/
theorem inflR_coe (relpos : FVec Ideal Cert.ReferenceIdeal.S16384x32x3 .f32) (kp : FVec Ideal Cert.ReferenceIdeal.S43x3 .f32)
    (rp : Cert.ReferenceIdeal.S16384x32x3.Idx → ℝ) (kpr : Cert.ReferenceIdeal.S43x3.Idx → ℝ)
    (hrp : ∀ i, relpos i = (rp i : EReal)) (hkp : ∀ i, kp i = (kpr i : EReal))
    (n : Fin 16384) (h : Fin 32) (k : Fin 43) :
    inflR relpos kp n h k = ((iRr (fun d => rp (ix3 n h d)) (fun d => kpr (ix2 k d)) : ℝ) : EReal) := by
  unfold inflR sqdR iRr
  simp only [hrp, hkp, ofBits_one, ofBits_zero]
  simp only [← EReal.coe_mul, ← EReal.coe_sub, ← coe_sum, ← EReal.coe_add]
  rw [sqrt_coe_of_nonneg (add_nonneg le_rfl (Finset.sum_nonneg fun d _ => mul_self_nonneg _)), div_one_coe]
  simp only [← EReal.coe_sub, ← coe_max]

/-- THE LAW OF THE AGGREGATE: on real data the two spellings give the same array. -/
theorem outR_eq_outK (relpos : FVec Ideal Cert.KernelIdeal.S16384x32x3 .f32) (nfeats : FVec Ideal Cert.KernelIdeal.S16384x32x128 .f32)
    (convw : FVec Ideal Cert.KernelIdeal.S43x128 .f32) (kpT : FVec Ideal Cert.KernelIdeal.S3x43 .f32)
    (kp : FVec Ideal Cert.ReferenceIdeal.S43x3 .f32)
    (hT : ∀ (d : Fin 3) (k : Fin 43), kpT (ix2 d k) = kp (ix2 k d))
    (hkp : ∀ i, ∃ r : ℝ, kp i = (r : EReal)) (hrp : ∀ i, ∃ r : ℝ, relpos i = (r : EReal))
    (hnf : ∀ i, ∃ r : ℝ, nfeats i = (r : EReal)) (hcw : ∀ i, ∃ r : ℝ, convw i = (r : EReal)) :
    outR relpos nfeats convw kp = outK relpos nfeats convw kpT := by
  choose kpr hkp using hkp
  choose rp hrp using hrp
  choose nf hnf using hnf
  choose cw hcw using hcw
  funext i
  obtain ⟨n, c, rfl⟩ : ∃ (n : Fin 16384) (c : Fin 128), i = ix2 n c := ⟨i 0, i 1, eq_ix2 i⟩
  rw [outR_apply, outK_ix2]
  unfold outRAt aggK
  simp only [inflR_coe relpos kp rp kpr hrp hkp, inflK_coe relpos kpT rp kpr hrp (fun d k => (hT d k).trans (hkp _)),
    hnf, hcw, ofBits_zero]
  simp only [← EReal.coe_mul, ← coe_sum, ← EReal.coe_add]
  congr 1
  rw [zero_add]
  simp only [iRr_eq_iKr]
  exact agg_swap (fun h => nf (ix3 n h c)) (fun k => cw (ix2 k c))
    (fun h k => iKr (fun d => rp (ix3 n h d)) (fun d => kpr (ix2 k d)))

end Cert.SpecB

end
-- ==== Proof.ConstKP.lean ====
/-
  The 43 kernel points as a constant table. One program spells the table coordinate-major (3 rows of 43), the other
  point-major (43 rows of 3); both list the same 129 single-precision words, one table the transpose of the other, and
  every word has an exponent field below all-ones, so each denotes a real number.
-/
import proofs.«171789_j3822520893918_1_alg».proof.KernelIdeal
import proofs.«171789_j3822520893918_1_alg».proof.ReferenceIdeal
import Idealize.ShloMosaic.PureOps.Ideal
import Idealize.ShloMosaic.Lib.ValueIdx

noncomputable section

namespace Cert.ConstKP

open Idealize.ShloMosaic Idealize.ShloMosaic.ValueIdx

/-- The kernel's table of the 43 kernel points, coordinate-major: row `d` holds coordinate `d` of every point. -/
def kpT : FVec Ideal Cert.KernelIdeal.S3x43 .f32 :=
  fun i => FloatOps.ofBits .f32 (Cert.KernelIdeal.lit0 (Cert.KernelIdeal.S3x43.rowMajor i))

theorem ltT (d : Fin 3) (k : Fin 43) : d.val * 43 + k.val < 129 := by have := d.isLt; have := k.isLt; omega
theorem ltP (k : Fin 43) (d : Fin 3) : k.val * 3 + d.val < 129 := by have := d.isLt; have := k.isLt; omega

/-- Entry `(d, k)` of the coordinate-major table is word number `43 d + k`. -/
theorem rowT (d : Fin 3) (k : Fin 43) :
    Cert.KernelIdeal.S3x43.rowMajor (ix2 d k) = (⟨d.val * 43 + k.val, ltT d k⟩ : Fin 129) :=
  Fin.ext (by rw [Shape.rowMajor_val_two]; rfl)

/-- Entry `(k, d)` of the point-major table is word number `3 k + d`. -/
theorem rowP (k : Fin 43) (d : Fin 3) :
    Cert.ReferenceIdeal.S43x3.rowMajor (ix2 k d) = (⟨k.val * 3 + d.val, ltP k d⟩ : Fin 129) :=
  Fin.ext (by rw [Shape.rowMajor_val_two]; rfl)

/-- Word `43 d + k` of the first list is word `3 k + d` of the second: 129 equalities of words. -/
theorem words : ∀ (d : Fin 3) (k : Fin 43),
    Cert.KernelIdeal.lit0 ⟨d.val * 43 + k.val, ltT d k⟩ = Cert.ReferenceIdeal.lit0 ⟨k.val * 3 + d.val, ltP k d⟩ := by
  decide

/-- The two tables hold the same 129 words, one the transpose of the other. -/
theorem kpT_transpose (d : Fin 3) (k : Fin 43) :
    kpT (ix2 d k) = (fun i => FloatOps.ofBits (F := Ideal) .f32 (Cert.ReferenceIdeal.lit0 (Cert.ReferenceIdeal.S43x3.rowMajor i))) (ix2 k d) := by
  show FloatOps.ofBits (F := Ideal) .f32 (Cert.KernelIdeal.lit0 (Cert.KernelIdeal.S3x43.rowMajor (ix2 d k)))
    = FloatOps.ofBits (F := Ideal) .f32 (Cert.ReferenceIdeal.lit0 (Cert.ReferenceIdeal.S43x3.rowMajor (ix2 k d)))
  rw [rowT d k, rowP k d, words d k]

/-- A single-precision word whose exponent field is not all ones denotes a real number (zero, a subnormal or a normal:
    a dyadic rational). -/
theorem ieee_real (b : BitVec 32) (h : (b.extractLsb' 23 8).toNat ≠ 2 ^ 8 - 1) :
    ∃ r : ℝ, Ideal.ieee 8 23 b = (r : EReal) := by
  unfold Ideal.ieee
  dsimp only
  rw [if_neg h]
  split_ifs <;> exact ⟨_, rfl⟩

/-- None of the 129 words has an all-ones exponent field. -/
theorem exponents : ∀ n : Fin 129, ((Cert.ReferenceIdeal.lit0 n).extractLsb' 23 8).toNat ≠ 2 ^ 8 - 1 := by
  decide

/-- Every entry of the point-major table is a real number. -/
theorem kp_real (i : Cert.ReferenceIdeal.S43x3.Idx) :
    ∃ r : ℝ, FloatOps.ofBits (F := Ideal) .f32 (Cert.ReferenceIdeal.lit0 (Cert.ReferenceIdeal.S43x3.rowMajor i)) = (r : EReal) :=
  ieee_real _ (exponents _)

end Cert.ConstKP

end
-- ==== Proof.PreReal.lean ====
/-
  Finiteness read out of the precondition. The precondition is one bit: the conjunction, over the eleven float
  arguments, of "every entry has absolute value below +∞". A conjunction that is 1 has every conjunct 1; a reduction by
  `and` over a whole array that is 1 had a 1 at every entry; and an extended real whose absolute value is below +∞ is
  neither +∞ nor −∞, hence a real number.
-/
import proofs.«171789_j3822520893918_1_alg».proof.Defs
import proofs.«171789_j3822520893918_1_alg».proof.Proof.Gen.Pre_finite_inputs
import Idealize.ShloMosaic.Lib.ReduceAll
import Idealize.ShloMosaic.Lib.ValueIdx

noncomputable section

namespace Cert.PreReal

open Idealize.ShloMosaic Idealize.SL.Sem Idealize.ShloMosaic.ValueIdx

/-- The scalar shape has one index. -/
instance : Subsingleton Cert.Pre_finite_inputs.S_.Idx := ⟨fun a b => funext fun d => d.elim0⟩

/-- An extended real whose absolute value is strictly below +∞ (the word `0x7F800000`) is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => exfalso; revert h; simp [FloatOps.cmpf, FloatOps.hostAbsf, Ideal.cmp]
  | coe r => exact ⟨r, rfl⟩
  | top => exfalso; revert h; simp [FloatOps.cmpf, FloatOps.hostAbsf, Ideal.cmp]

/-- One conjunct of the precondition, "all entries of `x` have absolute value below +∞", says every entry of `x` is real. -/
theorem all_real {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi (cmpf .olt (Host.absf x) (broadcastInDim S ![] hb (constant (F := Ideal) Cert.Pre_finite_inputs.S_ .f32 0x7F800000#32)))
          (constantI Cert.Pre_finite_inputs.S_ 1 1#1) hr hu ix0 = 1#1) :
    ∀ i, ∃ r : ℝ, x i = (r : EReal) := fun i =>
  real_of_abs_lt (x i) (Host.reduce_andi_all _ _ hr hu ix0 e i)

/-- The precondition, conjunct by conjunct: every float argument holds real numbers only. -/
theorem all_args (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal))
    ∧ (∀ i, ∃ r : ℝ, m ((c.tc : Thread Cert.KernelIdeal.nD Cert.KernelIdeal.τ).loc Cert.KernelIdeal.main_arg10) i = (r : EReal))
    ∧ (∀ i, ∃ r : ℝ, m ((c.tc : Thread Cert.KernelIdeal.nD Cert.KernelIdeal.τ).loc Cert.KernelIdeal.main_arg11) i = (r : EReal))
    ∧ (∀ i, ∃ r : ℝ, m ((c.tc : Thread Cert.KernelIdeal.nD Cert.KernelIdeal.τ).loc Cert.KernelIdeal.main_arg12) i = (r : EReal)) := by
  have e := congrFun (h c) ix0
  dsimp only [Cert.Pre_finite_inputs.fn, Cert.Pre_finite_inputs.fn_part1, Cert.Pre_finite_inputs.fn_part2,
    Cert.Pre_finite_inputs.fn_part3] at e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e1⟩ := IntOp.andi_eq_one.1 e
  exact ⟨all_real _ _ _ _ e, all_real _ _ _ _ e1, all_real _ _ _ _ e4, all_real _ _ _ _ e5, all_real _ _ _ _ e6, all_real _ _ _ _ e7, all_real _ _ _ _ e8, all_real _ _ _ _ e9, all_real _ _ _ _ e10, all_real _ _ _ _ e11, all_real _ _ _ _ e12⟩

theorem real_arg0 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ i, ∃ r : ℝ, m ((c.tc : Thread Cert.KernelIdeal.nD Cert.KernelIdeal.τ).loc Cert.KernelIdeal.main_arg0) i = (r : EReal) :=
  (all_args m h c).1

theorem real_arg1 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ i, ∃ r : ℝ, m ((c.tc : Thread Cert.KernelIdeal.nD Cert.KernelIdeal.τ).loc Cert.KernelIdeal.main_arg1) i = (r : EReal) :=
  (all_args m h c).2.1

theorem real_arg4 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ i, ∃ r : ℝ, m ((c.tc : Thread Cert.KernelIdeal.nD Cert.KernelIdeal.τ).loc Cert.KernelIdeal.main_arg4) i = (r : EReal) :=
  (all_args m h c).2.2.1

theorem real_arg5 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ i, ∃ r : ℝ, m ((c.tc : Thread Cert.KernelIdeal.nD Cert.KernelIdeal.τ).loc Cert.KernelIdeal.main_arg5) i = (r : EReal) :=
  (all_args m h c).2.2.2.1

theorem real_arg6 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ i, ∃ r : ℝ, m ((c.tc : Thread Cert.KernelIdeal.nD Cert.KernelIdeal.τ).loc Cert.KernelIdeal.main_arg6) i = (r : EReal) :=
  (all_args m h c).2.2.2.2.1

theorem real_arg7 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ i, ∃ r : ℝ, m ((c.tc : Thread Cert.KernelIdeal.nD Cert.KernelIdeal.τ).loc Cert.KernelIdeal.main_arg7) i = (r : EReal) :=
  (all_args m h c).2.2.2.2.2.1

theorem real_arg8 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ i, ∃ r : ℝ, m ((c.tc : Thread Cert.KernelIdeal.nD Cert.KernelIdeal.τ).loc Cert.KernelIdeal.main_arg8) i = (r : EReal) :=
  (all_args m h c).2.2.2.2.2.2.1

theorem real_arg9 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ i, ∃ r : ℝ, m ((c.tc : Thread Cert.KernelIdeal.nD Cert.KernelIdeal.τ).loc Cert.KernelIdeal.main_arg9) i = (r : EReal) :=
  (all_args m h c).2.2.2.2.2.2.2.1

theorem real_arg10 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ i, ∃ r : ℝ, m ((c.tc : Thread Cert.KernelIdeal.nD Cert.KernelIdeal.τ).loc Cert.KernelIdeal.main_arg10) i = (r : EReal) :=
  (all_args m h c).2.2.2.2.2.2.2.2.1

theorem real_arg11 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ i, ∃ r : ℝ, m ((c.tc : Thread Cert.KernelIdeal.nD Cert.KernelIdeal.τ).loc Cert.KernelIdeal.main_arg11) i = (r : EReal) :=
  (all_args m h c).2.2.2.2.2.2.2.2.2.1

theorem real_arg12 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ i, ∃ r : ℝ, m ((c.tc : Thread Cert.KernelIdeal.nD Cert.KernelIdeal.τ).loc Cert.KernelIdeal.main_arg12) i = (r : EReal) :=
  (all_args m h c).2.2.2.2.2.2.2.2.2.2

end Cert.PreReal

end
-- ==== Proof.Bridge.lean ====
/-
  The two programs compute one function of the argument arrays.

  Both are three stages.  Stage one: the features times the transposed first weight, normalised over the 16384 rows
  (mean, biased variance, reciprocal square root of the variance plus a small offset), scaled, shifted, clipped below at
  zero.  Stage two: for every point the 32 gathered neighbours' features, each weighted by the clipped linear fall-off of
  its distance to 43 fixed kernel points and by the per-channel kernel-point weights, summed.  Stage three: normalise,
  clip, multiply by the transposed second weight, normalise, add the input features, clip.

  The kernel's result array is read off the buffer contents at the boundaries of its three launches; the reference's is
  the composition of its stages.  Stages one and three are the same formula on both sides.  In stage two the kernel
  expands the squared distance and sums over kernel points first, the reference sums over neighbours first: equal on real
  data, and the data are real because the inputs are finite, a batch normalisation of reals is real (the variance is
  nonnegative, so the offset keeps the root's argument positive), and a gathered row is a row of the table.
-/
import proofs.«171789_j3822520893918_1_alg».proof.Defs
import proofs.«171789_j3822520893918_1_alg».proof.Proof.GlueK2
import proofs.«171789_j3822520893918_1_alg».proof.Proof.StageA
import proofs.«171789_j3822520893918_1_alg».proof.Proof.StageC
import proofs.«171789_j3822520893918_1_alg».proof.Proof.RefCVal
import proofs.«171789_j3822520893918_1_alg».proof.Proof.KernB
import proofs.«171789_j3822520893918_1_alg».proof.Proof.StageBRef
import proofs.«171789_j3822520893918_1_alg».proof.Proof.SpecBMath
import proofs.«171789_j3822520893918_1_alg».proof.Proof.ConstKP
import proofs.«171789_j3822520893918_1_alg».proof.Proof.PreReal
import proofs.«171789_j3822520893918_1_alg».proof.Proof.Gen.KernelIdeal
import proofs.«171789_j3822520893918_1_alg».proof.Proof.Gen.ReferenceIdeal
import proofs.«171789_j3822520893918_1_alg».proof.Proof.Gen.Pre_finite_inputs

set_option maxRecDepth 16384

noncomputable section

namespace Cert.Bridge

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ) (c : Dev Cert.KernelIdeal.nD)

/-- Stage one's output, of the launch memory's argument arrays. -/
def x1 : FVec Ideal Cert.KernelIdeal.S16384x128 .f32 :=
  Cert.StageA.out (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (shapeCast Cert.KernelIdeal.S1x128 (m ((c.tc : Thread Cert.KernelIdeal.nD Cert.KernelIdeal.τ).loc Cert.KernelIdeal.main_arg7)) Cert.KernelIdeal.Facts₀.shapeCasts_S128_S1x128) (shapeCast Cert.KernelIdeal.S1x128 (m ((c.tc : Thread Cert.KernelIdeal.nD Cert.KernelIdeal.τ).loc Cert.KernelIdeal.main_arg8)) Cert.KernelIdeal.Facts₀.shapeCasts_S128_S1x128)

/-- Stage two's output in the kernel's arrangement. -/
def x2 : FVec Ideal Cert.KernelIdeal.S16384x128 .f32 :=
  Cert.SpecB.outK (Cert.RefB.relpos (m ((c.tc : Thread Cert.KernelIdeal.nD Cert.KernelIdeal.τ).loc Cert.KernelIdeal.main_arg0)) (m ((c.tc : Thread Cert.KernelIdeal.nD Cert.KernelIdeal.τ).loc Cert.KernelIdeal.main_arg3))) (Cert.RefB.nfeats (x1 m c) (m ((c.tc : Thread Cert.KernelIdeal.nD Cert.KernelIdeal.τ).loc Cert.KernelIdeal.main_arg3))) (m ((c.tc : Thread Cert.KernelIdeal.nD Cert.KernelIdeal.τ).loc Cert.KernelIdeal.main_arg6)) Cert.ConstKP.kpT

/-- The common result array. -/
def result : FVec Ideal Cert.KernelIdeal.S16384x128 .f32 :=
  Cert.StageC.out (x2 m c) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (shapeCast Cert.KernelIdeal.S1x128 (m ((c.tc : Thread Cert.KernelIdeal.nD Cert.KernelIdeal.τ).loc Cert.KernelIdeal.main_arg9)) Cert.KernelIdeal.Facts₀.shapeCasts_S128_S1x128) (shapeCast Cert.KernelIdeal.S1x128 (m ((c.tc : Thread Cert.KernelIdeal.nD Cert.KernelIdeal.τ).loc Cert.KernelIdeal.main_arg10)) Cert.KernelIdeal.Facts₀.shapeCasts_S128_S1x128) (shapeCast Cert.KernelIdeal.S1x128 (m ((c.tc : Thread Cert.KernelIdeal.nD Cert.KernelIdeal.τ).loc Cert.KernelIdeal.main_arg11)) Cert.KernelIdeal.Facts₀.shapeCasts_S128_S1x128) (shapeCast Cert.KernelIdeal.S1x128 (m ((c.tc : Thread Cert.KernelIdeal.nD Cert.KernelIdeal.τ).loc Cert.KernelIdeal.main_arg12)) Cert.KernelIdeal.Facts₀.shapeCasts_S128_S1x128)

/-- The kernel's result array, the last boundary's contents at the third launch's output, is the common result. -/
theorem kernel_result (ρ : Dev Cert.KernelIdeal.nD → PrngReg) :
    Cert.KernelIdeal.Gen.W6 m ρ c (Proc.devRef .tc Cert.KernelIdeal.main_v29) = result m c := by
  rw [Cert.KernelIdeal.GenV.W6_v29, Cert.StageC.kernel_value (Cert.KernelIdeal.Gen.V5 m ρ) c]
  rw [Cert.KernelIdeal.GenV.V5_v24, Cert.KernelIdeal.GenV.V5_arg1, Cert.KernelIdeal.GenV.V5_arg5, Cert.KernelIdeal.GenV.V5_v25, Cert.KernelIdeal.GenV.V5_v26,
    Cert.KernelIdeal.GenV.V5_v27, Cert.KernelIdeal.GenV.V5_v28]
  rw [Cert.KernB.kernel_value (Cert.KernelIdeal.Gen.V3 m ρ) c, Cert.KernelIdeal.GenV.V3_v16, Cert.KernelIdeal.GenV.V3_v23, Cert.KernelIdeal.GenV.V3_arg6,
    Cert.KernelIdeal.GenV.V3_cst]
  rw [Cert.StageA.kernel_value (Cert.KernelIdeal.Gen.V1 m ρ) c, Cert.KernelIdeal.GenV.V1_arg1, Cert.KernelIdeal.GenV.V1_arg4, Cert.KernelIdeal.GenV.V1_v0,
    Cert.KernelIdeal.GenV.V1_v1]
  rfl

/-- A reshaped array of reals holds reals. -/
theorem shapeCast_real {s t : Shape} (x : s.Idx → EReal) (h : s.ShapeCasts t) (hx : ∀ i, ∃ r : ℝ, x i = (r : EReal)) :
    ∀ i, ∃ r : ℝ, shapeCast t x h i = (r : EReal) := fun i => hx _

/-- The reference's stages composed, on finite inputs, give the common result. -/
theorem reference_result (hpre : Cert.Pre_KernelIdeal (hPre_finite_inputs := Cert.Pre_finite_inputs.Gen.facts) m) :
    Cert.RefC.ref (Cert.RefB.ref (m ((c.tc : Thread Cert.KernelIdeal.nD Cert.KernelIdeal.τ).loc Cert.KernelIdeal.main_arg0)) (Cert.RefA.ref (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg3)) (m ((c.tc : Thread Cert.KernelIdeal.nD Cert.KernelIdeal.τ).loc Cert.KernelIdeal.main_arg6)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) = result m c := by
  rw [Cert.StageC.ref_value _ _ _ _ _ _ _ Cert.KernelIdeal.Facts₀.shapeCasts_S128_S1x128,
    Cert.StageA.ref_value _ _ _ _ Cert.KernelIdeal.Facts₀.shapeCasts_S128_S1x128]
  unfold Cert.RefB.ref
  rw [Cert.StageBRef.tail_value]
  rw [Cert.SpecB.outR_eq_outK _ _ _ Cert.ConstKP.kpT Cert.RefB.kp (fun d k => Cert.ConstKP.kpT_transpose d k)
    Cert.ConstKP.kp_real]
  · rfl
  · exact Cert.StageBRef.relpos_real _ _ (Cert.PreReal.real_arg0 m hpre c)
  · exact Cert.StageBRef.nfeats_real _ _
      (Cert.StageA.out_real _ _ _ _ (Cert.PreReal.real_arg1 m hpre c) (Cert.PreReal.real_arg4 m hpre c)
        (shapeCast_real _ _ (Cert.PreReal.real_arg7 m hpre c)) (shapeCast_real _ _ (Cert.PreReal.real_arg8 m hpre c)))
  · exact Cert.PreReal.real_arg6 m hpre c

end Cert.Bridge

end
-- ==== Proof.RefRunOps0.lean ====
import proofs.«171789_j3822520893918_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The first stage's operations, in program order: the constant table of kernel points, then the linear layer, its batch statistics, the normalisation, the affine map and the rectifier (the rectifier's three operations stand at its call). -/
abbrev opsA : List (HloOp τ sig (Elt F)) :=
  [
    nullary main_cst (fun i => FloatOps.ofBits .f32 (lit0 (S43x3.rowMajor i))),
    unary main_arg4 main_v0 ((transpose S128x128 [1, 0] · transposes_S128x128_S128x128_1_0) : (⟨S128x128, .f32⟩ : BufTy).Contents (Elt F) → (⟨S128x128, .f32⟩ : BufTy).Contents (Elt F)),
    binary main_arg1 main_v0 main_v1 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    nullary main_cst_0 (constant S_ .f32 0x00000000#32),
    binary main_v1 main_cst_0 main_v2 ((fun x v => Host.reduceAdd x v reducesTo_S16384x128_S128_d0 h_S_) : (⟨S16384x128, .f32⟩ : BufTy).Contents (Elt F) → (⟨S_, .f32⟩ : BufTy).Contents (Elt F) → (⟨S128, .f32⟩ : BufTy).Contents (Elt F)),
    nullary main_cst_1 (constant S_ .f32 0x46800000#32),
    unary main_cst_1 main_v3 (broadcastInDim S128 ![] bcast_S_S128 : (⟨S_, .f32⟩ : BufTy).Contents (Elt F) → (⟨S128, .f32⟩ : BufTy).Contents (Elt F)),
    binary main_v2 main_v3 main_v4 (Host.divf : (⟨S128, .f32⟩ : BufTy).Contents (Elt F) → (⟨S128, .f32⟩ : BufTy).Contents (Elt F) → (⟨S128, .f32⟩ : BufTy).Contents (Elt F)),
    unary main_v4 main_v5 (broadcastInDim S1x128 ![1] bcast_S128_S1x128_1 : (⟨S128, .f32⟩ : BufTy).Contents (Elt F) → (⟨S1x128, .f32⟩ : BufTy).Contents (Elt F)),
    unary main_v5 main_v6 (broadcastInDim S16384x128 ![0, 1] bcast_S1x128_S16384x128_0_1 : (⟨S1x128, .f32⟩ : BufTy).Contents (Elt F) → (⟨S16384x128, .f32⟩ : BufTy).Contents (Elt F)),
    binary main_v1 main_v6 main_v7 (subf : (⟨S16384x128, .f32⟩ : BufTy).Contents (Elt F) → (⟨S16384x128, .f32⟩ : BufTy).Contents (Elt F) → (⟨S16384x128, .f32⟩ : BufTy).Contents (Elt F)),
    binary main_v7 main_v7 main_v8 (mulf : (⟨S16384x128, .f32⟩ : BufTy).Contents (Elt F) → (⟨S16384x128, .f32⟩ : BufTy).Contents (Elt F) → (⟨S16384x128, .f32⟩ : BufTy).Contents (Elt F)),
    nullary main_cst_2 (constant S_ .f32 0x00000000#32),
    binary main_v8 main_cst_2 main_v9 ((fun x v => Host.reduceAdd x v reducesTo_S16384x128_S128_d0 h_S_) : (⟨S16384x128, .f32⟩ : BufTy).Contents (Elt F) → (⟨S_, .f32⟩ : BufTy).Contents (Elt F) → (⟨S128, .f32⟩ : BufTy).Contents (Elt F)),
    nullary main_cst_3 (constant S_ .f32 0x46800000#32),
    unary main_cst_3 main_v10 (broadcastInDim S128 ![] bcast_S_S128 : (⟨S_, .f32⟩ : BufTy).Contents (Elt F) → (⟨S128, .f32⟩ : BufTy).Contents (Elt F)),
    binary main_v9 main_v10 main_v11 (Host.divf : (⟨S128, .f32⟩ : BufTy).Contents (Elt F) → (⟨S128, .f32⟩ : BufTy).Contents (Elt F) → (⟨S128, .f32⟩ : BufTy).Contents (Elt F)),
    unary main_v4 main_v12 (broadcastInDim S1x128 ![1] bcast_S128_S1x128_1 : (⟨S128, .f32⟩ : BufTy).Contents (Elt F) → (⟨S1x128, .f32⟩ : BufTy).Contents (Elt F)),
    unary main_v12 main_v13 (broadcastInDim S16384x128 ![0, 1] bcast_S1x128_S16384x128_0_1 : (⟨S1x128, .f32⟩ : BufTy).Contents (Elt F) → (⟨S16384x128, .f32⟩ : BufTy).Contents (Elt F)),
    binary main_v1 main_v13 main_v14 (subf : (⟨S16384x128, .f32⟩ : BufTy).Contents (Elt F) → (⟨S16384x128, .f32⟩ : BufTy).Contents (Elt F) → (⟨S16384x128, .f32⟩ : BufTy).Contents (Elt F)),
    nullary main_cst_4 (constant S_ .f32 0x3727C5AC#32),
    unary main_cst_4 main_v15 (broadcastInDim S128 ![] bcast_S_S128 : (⟨S_, .f32⟩ : BufTy).Contents (Elt F) → (⟨S128, .f32⟩ : BufTy).Contents (Elt F)),
    binary main_v11 main_v15 main_v16 (addf : (⟨S128, .f32⟩ : BufTy).Contents (Elt F) → (⟨S128, .f32⟩ : BufTy).Contents (Elt F) → (⟨S128, .f32⟩ : BufTy).Contents (Elt F)),
    unary main_v16 main_v17 (Host.rsqrt : (⟨S128, .f32⟩ : BufTy).Contents (Elt F) → (⟨S128, .f32⟩ : BufTy).Contents (Elt F)),
    unary main_v17 main_v18 (broadcastInDim S1x128 ![1] bcast_S128_S1x128_1 : (⟨S128, .f32⟩ : BufTy).Contents (Elt F) → (⟨S1x128, .f32⟩ : BufTy).Contents (Elt F)),
    unary main_v18 main_v19 (broadcastInDim S16384x128 ![0, 1] bcast_S1x128_S16384x128_0_1 : (⟨S1x128, .f32⟩ : BufTy).Contents (Elt F) → (⟨S16384x128, .f32⟩ : BufTy).Contents (Elt F)),
    binary main_v14 main_v19 main_v20 (mulf : (⟨S16384x128, .f32⟩ : BufTy).Contents (Elt F) → (⟨S16384x128, .f32⟩ : BufTy).Contents (Elt F) → (⟨S16384x128, .f32⟩ : BufTy).Contents (Elt F)),
    unary main_arg7 main_v21 (broadcastInDim S1x128 ![1] bcast_S128_S1x128_1 : (⟨S128, .f32⟩ : BufTy).Contents (Elt F) → (⟨S1x128, .f32⟩ : BufTy).Contents (Elt F)),
    unary main_v21 main_v22 (broadcastInDim S16384x128 ![0, 1] bcast_S1x128_S16384x128_0_1 : (⟨S1x128, .f32⟩ : BufTy).Contents (Elt F) → (⟨S16384x128, .f32⟩ : BufTy).Contents (Elt F)),
    binary main_v20 main_v22 main_v23 (mulf : (⟨S16384x128, .f32⟩ : BufTy).Contents (Elt F) → (⟨S16384x128, .f32⟩ : BufTy).Contents (Elt F) → (⟨S16384x128, .f32⟩ : BufTy).Contents (Elt F)),
    unary main_arg8 main_v24 (broadcastInDim S1x128 ![1] bcast_S128_S1x128_1 : (⟨S128, .f32⟩ : BufTy).Contents (Elt F) → (⟨S1x128, .f32⟩ : BufTy).Contents (Elt F)),
    unary main_v24 main_v25 (broadcastInDim S16384x128 ![0, 1] bcast_S1x128_S16384x128_0_1 : (⟨S1x128, .f32⟩ : BufTy).Contents (Elt F) → (⟨S16384x128, .f32⟩ : BufTy).Contents (Elt F)),
    binary main_v23 main_v25 main_v26 (addf : (⟨S16384x128, .f32⟩ : BufTy).Contents (Elt F) → (⟨S16384x128, .f32⟩ : BufTy).Contents (Elt F) → (⟨S16384x128, .f32⟩ : BufTy).Contents (Elt F)),
    TRef.nullary main_call0.cst (constant S_ .f32 0x00000000#32),
    TRef.unary main_call0.cst main_call0.v0 (broadcastInDim S16384x128 ![] bcast_S_S16384x128),
    TRef.binary (.of main_v26) main_call0.v0 main_call0.v1 maximumf ]

set_option maxRecDepth 8192 in
/-- Every operation of the list touches buffers of the tensor core only. -/
theorem opsA_sub : (opsA : List (HloOp τ sig (Elt F))).Forall fun op => op.bufs ⊆ tcRefs τ sig :=
  ⟨nullary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The buffers the list's operations write, in order. -/
abbrev opsA_W : List (Ref sig .tc) := [main_cst, main_v0, main_v1, main_cst_0, main_v2, main_cst_1, main_v3, main_v4, main_v5, main_v6, main_v7, main_v8, main_cst_2, main_v9, main_cst_3, main_v10, main_v11, main_v12, main_v13, main_v14, main_cst_4, main_v15, main_v16, main_v17, main_v18, main_v19, main_v20, main_v21, main_v22, main_v23, main_v24, main_v25, main_v26, main_call0_cst, main_call0_v0, main_v27]

set_option maxRecDepth 8192 in
/-- Each operation writes exactly its result buffer, which the list above names. -/
theorem opsA_writes : (opsA : List (HloOp τ sig (Elt F))).Forall fun op =>
    op.writes ⊆ (opsA_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer that none of the list's operations writes keeps its contents through the list. -/
theorem opsA_keep (V : Valuation τ sig (Elt F)) (r : Ref sig .tc) (h : r ∉ opsA_W) :
    after opsA V (Proc.devRef .tc r) = V (Proc.devRef .tc r) :=
  after_of_writes_sub opsA V opsA_writes h

set_option maxRecDepth 8192 in
/-- Every operation of the list determines its result. -/
theorem opsA_fresh : ∀ op ∈ (opsA : List (HloOp τ sig (Elt F))), op.fresh = ∅ := by
  intro _ h; (repeat (cases h with | head => rfl | tail _ h => ?_)); exact nomatch h

/-- The second stage's operations up to the squared distances summed over the three coordinates: the padded point and feature arrays, the neighbour indices made non-negative, the gathered neighbour points and their offsets from each kernel point. -/
abbrev opsB0 : List (HloOp τ sig (Elt F)) :=
  [
    nullary main_cst_5 (constant S_ .f32 0x49742400#32),
    unary main_cst_5 main_v28 (broadcastInDim S1x3 ![] bcast_S_S1x3 : (⟨S_, .f32⟩ : BufTy).Contents (Elt F) → (⟨S1x3, .f32⟩ : BufTy).Contents (Elt F)),
    binary main_arg0 main_v28 main_v29 ((fun a b => concatenate S16385x3 0 [⟨S16384x3, a⟩, ⟨S1x3, b⟩] concatenates_S16384x3_S1x3_S16385x3_d0) : (⟨S16384x3, .f32⟩ : BufTy).Contents (Elt F) → (⟨S1x3, .f32⟩ : BufTy).Contents (Elt F) → (⟨S16385x3, .f32⟩ : BufTy).Contents (Elt F)),
    nullary main_cst_6 (constant S_ .f32 0x00000000#32),
    unary main_cst_6 main_v30 (broadcastInDim S1x128 ![] bcast_S_S1x128 : (⟨S_, .f32⟩ : BufTy).Contents (Elt F) → (⟨S1x128, .f32⟩ : BufTy).Contents (Elt F)),
    binary main_v27 main_v30 main_v31 ((fun a b => concatenate S16385x128 0 [⟨S16384x128, a⟩, ⟨S1x128, b⟩] concatenates_S16384x128_S1x128_S16385x128_d0) : (⟨S16384x128, .f32⟩ : BufTy).Contents (Elt F) → (⟨S1x128, .f32⟩ : BufTy).Contents (Elt F) → (⟨S16385x128, .f32⟩ : BufTy).Contents (Elt F)),
    nullary main_c (constantI S_ 32 0#32),
    unary main_c main_v32 (broadcastInDim S16384x32 ![] bcast_S_S16384x32 : (⟨S_, .i32⟩ : BufTy).Contents (Elt F) → (⟨S16384x32, .i32⟩ : BufTy).Contents (Elt F)),
    binary main_arg3 main_v32 main_v33 (cmpi .slt : (⟨S16384x32, .i32⟩ : BufTy).Contents (Elt F) → (⟨S16384x32, .i32⟩ : BufTy).Contents (Elt F) → (⟨S16384x32, .i1⟩ : BufTy).Contents (Elt F)),
    nullary main_c_7 (constantI S_ 32 16385#32),
    unary main_c_7 main_v34 (broadcastInDim S16384x32 ![] bcast_S_S16384x32 : (⟨S_, .i32⟩ : BufTy).Contents (Elt F) → (⟨S16384x32, .i32⟩ : BufTy).Contents (Elt F)),
    binary main_arg3 main_v34 main_v35 (addi : (⟨S16384x32, .i32⟩ : BufTy).Contents (Elt F) → (⟨S16384x32, .i32⟩ : BufTy).Contents (Elt F) → (⟨S16384x32, .i32⟩ : BufTy).Contents (Elt F)),
    ternary main_v33 main_v35 main_arg3 main_v36 (select : (⟨S16384x32, .i1⟩ : BufTy).Contents (Elt F) → (⟨S16384x32, .i32⟩ : BufTy).Contents (Elt F) → (⟨S16384x32, .i32⟩ : BufTy).Contents (Elt F) → (⟨S16384x32, .i32⟩ : BufTy).Contents (Elt F)),
    unary main_v36 main_v37 (broadcastInDim S16384x32x1 ![0, 1] bcast_S16384x32_S16384x32x1_0_1 : (⟨S16384x32, .i32⟩ : BufTy).Contents (Elt F) → (⟨S16384x32x1, .i32⟩ : BufTy).Contents (Elt F)),
    binary main_v29 main_v37 main_v38 ((fun x i => Host.gather gather_S16385x3_S16384x32x1_S16384x32x3_2_0_n_n_0_2_13 x i) : (⟨S16385x3, .f32⟩ : BufTy).Contents (Elt F) → (⟨S16384x32x1, .i32⟩ : BufTy).Contents (Elt F) → (⟨S16384x32x3, .f32⟩ : BufTy).Contents (Elt F)),
    unary main_arg0 main_v39 (broadcastInDim S16384x1x3 ![0, 2] bcast_S16384x3_S16384x1x3_0_2 : (⟨S16384x3, .f32⟩ : BufTy).Contents (Elt F) → (⟨S16384x1x3, .f32⟩ : BufTy).Contents (Elt F)),
    unary main_v39 main_v40 (broadcastInDim S16384x32x3 ![0, 1, 2] bcast_S16384x1x3_S16384x32x3_0_1_2 : (⟨S16384x1x3, .f32⟩ : BufTy).Contents (Elt F) → (⟨S16384x32x3, .f32⟩ : BufTy).Contents (Elt F)),
    binary main_v38 main_v40 main_v41 (subf : (⟨S16384x32x3, .f32⟩ : BufTy).Contents (Elt F) → (⟨S16384x32x3, .f32⟩ : BufTy).Contents (Elt F) → (⟨S16384x32x3, .f32⟩ : BufTy).Contents (Elt F)),
    unary main_v41 main_v42 (broadcastInDim S16384x32x1x3 ![0, 1, 3] bcast_S16384x32x3_S16384x32x1x3_0_1_3 : (⟨S16384x32x3, .f32⟩ : BufTy).Contents (Elt F) → (⟨S16384x32x1x3, .f32⟩ : BufTy).Contents (Elt F)),
    unary main_cst main_v43 (broadcastInDim S1x1x43x3 ![2, 3] bcast_S43x3_S1x1x43x3_2_3 : (⟨S43x3, .f32⟩ : BufTy).Contents (Elt F) → (⟨S1x1x43x3, .f32⟩ : BufTy).Contents (Elt F)),
    unary main_v42 main_v44 (broadcastInDim S16384x32x43x3 ![0, 1, 2, 3] bcast_S16384x32x1x3_S16384x32x43x3_0_1_2_3 : (⟨S16384x32x1x3, .f32⟩ : BufTy).Contents (Elt F) → (⟨S16384x32x43x3, .f32⟩ : BufTy).Contents (Elt F)),
    unary main_v43 main_v45 (broadcastInDim S16384x32x43x3 ![0, 1, 2, 3] bcast_S1x1x43x3_S16384x32x43x3_0_1_2_3 : (⟨S1x1x43x3, .f32⟩ : BufTy).Contents (Elt F) → (⟨S16384x32x43x3, .f32⟩ : BufTy).Contents (Elt F)),
    binary main_v44 main_v45 main_v46 (subf : (⟨S16384x32x43x3, .f32⟩ : BufTy).Contents (Elt F) → (⟨S16384x32x43x3, .f32⟩ : BufTy).Contents (Elt F) → (⟨S16384x32x43x3, .f32⟩ : BufTy).Contents (Elt F)),
    binary main_v46 main_v46 main_v47 (mulf : (⟨S16384x32x43x3, .f32⟩ : BufTy).Contents (Elt F) → (⟨S16384x32x43x3, .f32⟩ : BufTy).Contents (Elt F) → (⟨S16384x32x43x3, .f32⟩ : BufTy).Contents (Elt F)),
    nullary main_cst_8 (constant S_ .f32 0x00000000#32),
    binary main_v47 main_cst_8 main_v48 ((fun x v => Host.reduceAdd x v reducesTo_S16384x32x43x3_S16384x32x43_d3 h_S_) : (⟨S16384x32x43x3, .f32⟩ : BufTy).Contents (Elt F) → (⟨S_, .f32⟩ : BufTy).Contents (Elt F) → (⟨S16384x32x43, .f32⟩ : BufTy).Contents (Elt F)) ]

set_option maxRecDepth 8192 in
/-- Every operation of the list touches buffers of the tensor core only. -/
theorem opsB0_sub : (opsB0 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., unary_bufs_sub .., unary_bufs_sub .., unary_bufs_sub .., binary_bufs_sub .., binary_bufs_sub .., nullary_bufs_sub .., binary_bufs_sub ..⟩

/-- The buffers the list's operations write, in order. -/
abbrev opsB0_W : List (Ref sig .tc) := [main_cst_5, main_v28, main_v29, main_cst_6, main_v30, main_v31, main_c, main_v32, main_v33, main_c_7, main_v34, main_v35, main_v36, main_v37, main_v38, main_v39, main_v40, main_v41, main_v42, main_v43, main_v44, main_v45, main_v46, main_v47, main_cst_8, main_v48]

set_option maxRecDepth 8192 in
/-- Each operation writes exactly its result buffer, which the list above names. -/
theorem opsB0_writes : (opsB0 : List (HloOp τ sig (Elt F))).Forall fun op =>
    op.writes ⊆ (opsB0_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer that none of the list's operations writes keeps its contents through the list. -/
theorem opsB0_keep (V : Valuation τ sig (Elt F)) (r : Ref sig .tc) (h : r ∉ opsB0_W) :
    after opsB0 V (Proc.devRef .tc r) = V (Proc.devRef .tc r) :=
  after_of_writes_sub opsB0 V opsB0_writes h

set_option maxRecDepth 8192 in
/-- Every operation of the list determines its result. -/
theorem opsB0_fresh : ∀ op ∈ (opsB0 : List (HloOp τ sig (Elt F))), op.fresh = ∅ := by
  intro _ h; (repeat (cases h with | head => rfl | tail _ h => ?_)); exact nomatch h

set_option maxRecDepth 8192 in
set_option maxHeartbeats 4000000 in
/-- This window of the program is the straight line of the operations listed above. -/
theorem main_part0_eq (c : Dev nD) : main_part0 (F := F) c = seq (opsA ++ opsB0) := rfl

end Cert.RefRun

end
-- ==== Proof.RefRunOps1.lean ====
import proofs.«171789_j3822520893918_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The rest of the second stage: the distances, the influence weights clamped at zero (the clamp's three operations stand at its call), the gathered neighbour features, the contraction over the neighbours and the weighted sum over the kernel points. -/
abbrev opsB1 : List (HloOp τ sig (Elt F)) :=
  [
    unary main_v48 main_v49 (Host.sqrt : (⟨S16384x32x43, .f32⟩ : BufTy).Contents (Elt F) → (⟨S16384x32x43, .f32⟩ : BufTy).Contents (Elt F)),
    nullary main_cst_9 (constant S_ .f32 0x3F800000#32),
    unary main_cst_9 main_v50 (broadcastInDim S16384x32x43 ![] bcast_S_S16384x32x43 : (⟨S_, .f32⟩ : BufTy).Contents (Elt F) → (⟨S16384x32x43, .f32⟩ : BufTy).Contents (Elt F)),
    binary main_v49 main_v50 main_v51 (Host.divf : (⟨S16384x32x43, .f32⟩ : BufTy).Contents (Elt F) → (⟨S16384x32x43, .f32⟩ : BufTy).Contents (Elt F) → (⟨S16384x32x43, .f32⟩ : BufTy).Contents (Elt F)),
    nullary main_cst_10 (constant S_ .f32 0x3F800000#32),
    unary main_cst_10 main_v52 (broadcastInDim S16384x32x43 ![] bcast_S_S16384x32x43 : (⟨S_, .f32⟩ : BufTy).Contents (Elt F) → (⟨S16384x32x43, .f32⟩ : BufTy).Contents (Elt F)),
    binary main_v52 main_v51 main_v53 (subf : (⟨S16384x32x43, .f32⟩ : BufTy).Contents (Elt F) → (⟨S16384x32x43, .f32⟩ : BufTy).Contents (Elt F) → (⟨S16384x32x43, .f32⟩ : BufTy).Contents (Elt F)),
    nullary main_cst_11 (constant S_ .f32 0x00000000#32),
    TRef.unary (.of main_cst_11) main_call1.v0 id,
    TRef.unary main_call1.v0 main_call1.v1 (broadcastInDim S16384x32x43 ![] bcast_S_S16384x32x43),
    TRef.binary main_call1.v1 (.of main_v53) main_call1.v2 maximumf,
    nullary main_c_12 (constantI S_ 32 0#32),
    unary main_c_12 main_v55 (broadcastInDim S16384x32 ![] bcast_S_S16384x32 : (⟨S_, .i32⟩ : BufTy).Contents (Elt F) → (⟨S16384x32, .i32⟩ : BufTy).Contents (Elt F)),
    binary main_arg3 main_v55 main_v56 (cmpi .slt : (⟨S16384x32, .i32⟩ : BufTy).Contents (Elt F) → (⟨S16384x32, .i32⟩ : BufTy).Contents (Elt F) → (⟨S16384x32, .i1⟩ : BufTy).Contents (Elt F)),
    nullary main_c_13 (constantI S_ 32 16385#32),
    unary main_c_13 main_v57 (broadcastInDim S16384x32 ![] bcast_S_S16384x32 : (⟨S_, .i32⟩ : BufTy).Contents (Elt F) → (⟨S16384x32, .i32⟩ : BufTy).Contents (Elt F)),
    binary main_arg3 main_v57 main_v58 (addi : (⟨S16384x32, .i32⟩ : BufTy).Contents (Elt F) → (⟨S16384x32, .i32⟩ : BufTy).Contents (Elt F) → (⟨S16384x32, .i32⟩ : BufTy).Contents (Elt F)),
    ternary main_v56 main_v58 main_arg3 main_v59 (select : (⟨S16384x32, .i1⟩ : BufTy).Contents (Elt F) → (⟨S16384x32, .i32⟩ : BufTy).Contents (Elt F) → (⟨S16384x32, .i32⟩ : BufTy).Contents (Elt F) → (⟨S16384x32, .i32⟩ : BufTy).Contents (Elt F)),
    unary main_v59 main_v60 (broadcastInDim S16384x32x1 ![0, 1] bcast_S16384x32_S16384x32x1_0_1 : (⟨S16384x32, .i32⟩ : BufTy).Contents (Elt F) → (⟨S16384x32x1, .i32⟩ : BufTy).Contents (Elt F)),
    binary main_v31 main_v60 main_v61 ((fun x i => Host.gather gather_S16385x128_S16384x32x1_S16384x32x128_2_0_n_n_0_2_1128 x i) : (⟨S16385x128, .f32⟩ : BufTy).Contents (Elt F) → (⟨S16384x32x1, .i32⟩ : BufTy).Contents (Elt F) → (⟨S16384x32x128, .f32⟩ : BufTy).Contents (Elt F)),
    binary main_v54 main_v61 main_v62 ((fun l r => Host.dotGeneral dot_S16384x32x43_S16384x32x128_S16384x43x128_1_1_2_2_0_0 none l r) : (⟨S16384x32x43, .f32⟩ : BufTy).Contents (Elt F) → (⟨S16384x32x128, .f32⟩ : BufTy).Contents (Elt F) → (⟨S16384x43x128, .f32⟩ : BufTy).Contents (Elt F)),
    unary main_arg6 main_v63 (broadcastInDim S1x43x128 ![1, 2] bcast_S43x128_S1x43x128_1_2 : (⟨S43x128, .f32⟩ : BufTy).Contents (Elt F) → (⟨S1x43x128, .f32⟩ : BufTy).Contents (Elt F)),
    unary main_v63 main_v64 (broadcastInDim S16384x43x128 ![0, 1, 2] bcast_S1x43x128_S16384x43x128_0_1_2 : (⟨S1x43x128, .f32⟩ : BufTy).Contents (Elt F) → (⟨S16384x43x128, .f32⟩ : BufTy).Contents (Elt F)),
    binary main_v62 main_v64 main_v65 (mulf : (⟨S16384x43x128, .f32⟩ : BufTy).Contents (Elt F) → (⟨S16384x43x128, .f32⟩ : BufTy).Contents (Elt F) → (⟨S16384x43x128, .f32⟩ : BufTy).Contents (Elt F)),
    nullary main_cst_14 (constant S_ .f32 0x00000000#32),
    binary main_v65 main_cst_14 main_v66 ((fun x v => Host.reduceAdd x v reducesTo_S16384x43x128_S16384x128_d1 h_S_) : (⟨S16384x43x128, .f32⟩ : BufTy).Contents (Elt F) → (⟨S_, .f32⟩ : BufTy).Contents (Elt F) → (⟨S16384x128, .f32⟩ : BufTy).Contents (Elt F)) ]

set_option maxRecDepth 8192 in
/-- Every operation of the list touches buffers of the tensor core only. -/
theorem opsB1_sub : (opsB1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., binary_bufs_sub ..⟩

/-- The buffers the list's operations write, in order. -/
abbrev opsB1_W : List (Ref sig .tc) := [main_v49, main_cst_9, main_v50, main_v51, main_cst_10, main_v52, main_v53, main_cst_11, main_call1_v0, main_call1_v1, main_v54, main_c_12, main_v55, main_v56, main_c_13, main_v57, main_v58, main_v59, main_v60, main_v61, main_v62, main_v63, main_v64, main_v65, main_cst_14, main_v66]

set_option maxRecDepth 8192 in
/-- Each operation writes exactly its result buffer, which the list above names. -/
theorem opsB1_writes : (opsB1 : List (HloOp τ sig (Elt F))).Forall fun op =>
    op.writes ⊆ (opsB1_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer that none of the list's operations writes keeps its contents through the list. -/
theorem opsB1_keep (V : Valuation τ sig (Elt F)) (r : Ref sig .tc) (h : r ∉ opsB1_W) :
    after opsB1 V (Proc.devRef .tc r) = V (Proc.devRef .tc r) :=
  after_of_writes_sub opsB1 V opsB1_writes h

set_option maxRecDepth 8192 in
/-- Every operation of the list determines its result. -/
theorem opsB1_fresh : ∀ op ∈ (opsB1 : List (HloOp τ sig (Elt F))), op.fresh = ∅ := by
  intro _ h; (repeat (cases h with | head => rfl | tail _ h => ?_)); exact nomatch h

/-- The third stage's operations up to the second linear layer and the sum of its rows: batch statistics, normalisation, affine map, rectifier, the contraction with the transposed weight. -/
abbrev opsC1 : List (HloOp τ sig (Elt F)) :=
  [
    nullary main_cst_15 (constant S_ .f32 0x00000000#32),
    binary main_v66 main_cst_15 main_v67 ((fun x v => Host.reduceAdd x v reducesTo_S16384x128_S128_d0 h_S_) : (⟨S16384x128, .f32⟩ : BufTy).Contents (Elt F) → (⟨S_, .f32⟩ : BufTy).Contents (Elt F) → (⟨S128, .f32⟩ : BufTy).Contents (Elt F)),
    nullary main_cst_16 (constant S_ .f32 0x46800000#32),
    unary main_cst_16 main_v68 (broadcastInDim S128 ![] bcast_S_S128 : (⟨S_, .f32⟩ : BufTy).Contents (Elt F) → (⟨S128, .f32⟩ : BufTy).Contents (Elt F)),
    binary main_v67 main_v68 main_v69 (Host.divf : (⟨S128, .f32⟩ : BufTy).Contents (Elt F) → (⟨S128, .f32⟩ : BufTy).Contents (Elt F) → (⟨S128, .f32⟩ : BufTy).Contents (Elt F)),
    unary main_v69 main_v70 (broadcastInDim S1x128 ![1] bcast_S128_S1x128_1 : (⟨S128, .f32⟩ : BufTy).Contents (Elt F) → (⟨S1x128, .f32⟩ : BufTy).Contents (Elt F)),
    unary main_v70 main_v71 (broadcastInDim S16384x128 ![0, 1] bcast_S1x128_S16384x128_0_1 : (⟨S1x128, .f32⟩ : BufTy).Contents (Elt F) → (⟨S16384x128, .f32⟩ : BufTy).Contents (Elt F)),
    binary main_v66 main_v71 main_v72 (subf : (⟨S16384x128, .f32⟩ : BufTy).Contents (Elt F) → (⟨S16384x128, .f32⟩ : BufTy).Contents (Elt F) → (⟨S16384x128, .f32⟩ : BufTy).Contents (Elt F)),
    binary main_v72 main_v72 main_v73 (mulf : (⟨S16384x128, .f32⟩ : BufTy).Contents (Elt F) → (⟨S16384x128, .f32⟩ : BufTy).Contents (Elt F) → (⟨S16384x128, .f32⟩ : BufTy).Contents (Elt F)),
    nullary main_cst_17 (constant S_ .f32 0x00000000#32),
    binary main_v73 main_cst_17 main_v74 ((fun x v => Host.reduceAdd x v reducesTo_S16384x128_S128_d0 h_S_) : (⟨S16384x128, .f32⟩ : BufTy).Contents (Elt F) → (⟨S_, .f32⟩ : BufTy).Contents (Elt F) → (⟨S128, .f32⟩ : BufTy).Contents (Elt F)),
    nullary main_cst_18 (constant S_ .f32 0x46800000#32),
    unary main_cst_18 main_v75 (broadcastInDim S128 ![] bcast_S_S128 : (⟨S_, .f32⟩ : BufTy).Contents (Elt F) → (⟨S128, .f32⟩ : BufTy).Contents (Elt F)),
    binary main_v74 main_v75 main_v76 (Host.divf : (⟨S128, .f32⟩ : BufTy).Contents (Elt F) → (⟨S128, .f32⟩ : BufTy).Contents (Elt F) → (⟨S128, .f32⟩ : BufTy).Contents (Elt F)),
    unary main_v69 main_v77 (broadcastInDim S1x128 ![1] bcast_S128_S1x128_1 : (⟨S128, .f32⟩ : BufTy).Contents (Elt F) → (⟨S1x128, .f32⟩ : BufTy).Contents (Elt F)),
    unary main_v77 main_v78 (broadcastInDim S16384x128 ![0, 1] bcast_S1x128_S16384x128_0_1 : (⟨S1x128, .f32⟩ : BufTy).Contents (Elt F) → (⟨S16384x128, .f32⟩ : BufTy).Contents (Elt F)),
    binary main_v66 main_v78 main_v79 (subf : (⟨S16384x128, .f32⟩ : BufTy).Contents (Elt F) → (⟨S16384x128, .f32⟩ : BufTy).Contents (Elt F) → (⟨S16384x128, .f32⟩ : BufTy).Contents (Elt F)),
    nullary main_cst_19 (constant S_ .f32 0x3727C5AC#32),
    unary main_cst_19 main_v80 (broadcastInDim S128 ![] bcast_S_S128 : (⟨S_, .f32⟩ : BufTy).Contents (Elt F) → (⟨S128, .f32⟩ : BufTy).Contents (Elt F)),
    binary main_v76 main_v80 main_v81 (addf : (⟨S128, .f32⟩ : BufTy).Contents (Elt F) → (⟨S128, .f32⟩ : BufTy).Contents (Elt F) → (⟨S128, .f32⟩ : BufTy).Contents (Elt F)),
    unary main_v81 main_v82 (Host.rsqrt : (⟨S128, .f32⟩ : BufTy).Contents (Elt F) → (⟨S128, .f32⟩ : BufTy).Contents (Elt F)),
    unary main_v82 main_v83 (broadcastInDim S1x128 ![1] bcast_S128_S1x128_1 : (⟨S128, .f32⟩ : BufTy).Contents (Elt F) → (⟨S1x128, .f32⟩ : BufTy).Contents (Elt F)),
    unary main_v83 main_v84 (broadcastInDim S16384x128 ![0, 1] bcast_S1x128_S16384x128_0_1 : (⟨S1x128, .f32⟩ : BufTy).Contents (Elt F) → (⟨S16384x128, .f32⟩ : BufTy).Contents (Elt F)),
    binary main_v79 main_v84 main_v85 (mulf : (⟨S16384x128, .f32⟩ : BufTy).Contents (Elt F) → (⟨S16384x128, .f32⟩ : BufTy).Contents (Elt F) → (⟨S16384x128, .f32⟩ : BufTy).Contents (Elt F)),
    unary main_arg9 main_v86 (broadcastInDim S1x128 ![1] bcast_S128_S1x128_1 : (⟨S128, .f32⟩ : BufTy).Contents (Elt F) → (⟨S1x128, .f32⟩ : BufTy).Contents (Elt F)),
    unary main_v86 main_v87 (broadcastInDim S16384x128 ![0, 1] bcast_S1x128_S16384x128_0_1 : (⟨S1x128, .f32⟩ : BufTy).Contents (Elt F) → (⟨S16384x128, .f32⟩ : BufTy).Contents (Elt F)),
    binary main_v85 main_v87 main_v88 (mulf : (⟨S16384x128, .f32⟩ : BufTy).Contents (Elt F) → (⟨S16384x128, .f32⟩ : BufTy).Contents (Elt F) → (⟨S16384x128, .f32⟩ : BufTy).Contents (Elt F)),
    unary main_arg10 main_v89 (broadcastInDim S1x128 ![1] bcast_S128_S1x128_1 : (⟨S128, .f32⟩ : BufTy).Contents (Elt F) → (⟨S1x128, .f32⟩ : BufTy).Contents (Elt F)),
    unary main_v89 main_v90 (broadcastInDim S16384x128 ![0, 1] bcast_S1x128_S16384x128_0_1 : (⟨S1x128, .f32⟩ : BufTy).Contents (Elt F) → (⟨S16384x128, .f32⟩ : BufTy).Contents (Elt F)),
    binary main_v88 main_v90 main_v91 (addf : (⟨S16384x128, .f32⟩ : BufTy).Contents (Elt F) → (⟨S16384x128, .f32⟩ : BufTy).Contents (Elt F) → (⟨S16384x128, .f32⟩ : BufTy).Contents (Elt F)),
    TRef.nullary main_call2.cst (constant S_ .f32 0x00000000#32),
    TRef.unary main_call2.cst main_call2.v0 (broadcastInDim S16384x128 ![] bcast_S_S16384x128),
    TRef.binary (.of main_v91) main_call2.v0 main_call2.v1 maximumf,
    unary main_arg5 main_v93 ((transpose S128x128 [1, 0] · transposes_S128x128_S128x128_1_0) : (⟨S128x128, .f32⟩ : BufTy).Contents (Elt F) → (⟨S128x128, .f32⟩ : BufTy).Contents (Elt F)),
    binary main_v92 main_v93 main_v94 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    nullary main_cst_20 (constant S_ .f32 0x00000000#32),
    binary main_v94 main_cst_20 main_v95 ((fun x v => Host.reduceAdd x v reducesTo_S16384x128_S128_d0 h_S_) : (⟨S16384x128, .f32⟩ : BufTy).Contents (Elt F) → (⟨S_, .f32⟩ : BufTy).Contents (Elt F) → (⟨S128, .f32⟩ : BufTy).Contents (Elt F)),
    nullary main_cst_21 (constant S_ .f32 0x46800000#32) ]

set_option maxRecDepth 8192 in
/-- Every operation of the list touches buffers of the tensor core only. -/
theorem opsC1_sub : (opsC1 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., nullary_bufs_sub .., binary_bufs_sub .., nullary_bufs_sub ..⟩

/-- The buffers the list's operations write, in order. -/
abbrev opsC1_W : List (Ref sig .tc) := [main_cst_15, main_v67, main_cst_16, main_v68, main_v69, main_v70, main_v71, main_v72, main_v73, main_cst_17, main_v74, main_cst_18, main_v75, main_v76, main_v77, main_v78, main_v79, main_cst_19, main_v80, main_v81, main_v82, main_v83, main_v84, main_v85, main_v86, main_v87, main_v88, main_v89, main_v90, main_v91, main_call2_cst, main_call2_v0, main_v92, main_v93, main_v94, main_cst_20, main_v95, main_cst_21]

set_option maxRecDepth 8192 in
/-- Each operation writes exactly its result buffer, which the list above names. -/
theorem opsC1_writes : (opsC1 : List (HloOp τ sig (Elt F))).Forall fun op =>
    op.writes ⊆ (opsC1_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer that none of the list's operations writes keeps its contents through the list. -/
theorem opsC1_keep (V : Valuation τ sig (Elt F)) (r : Ref sig .tc) (h : r ∉ opsC1_W) :
    after opsC1 V (Proc.devRef .tc r) = V (Proc.devRef .tc r) :=
  after_of_writes_sub opsC1 V opsC1_writes h

set_option maxRecDepth 8192 in
/-- Every operation of the list determines its result. -/
theorem opsC1_fresh : ∀ op ∈ (opsC1 : List (HloOp τ sig (Elt F))), op.fresh = ∅ := by
  intro _ h; (repeat (cases h with | head => rfl | tail _ h => ?_)); exact nomatch h

set_option maxRecDepth 8192 in
set_option maxHeartbeats 4000000 in
/-- This window of the program is the straight line of the operations listed above. -/
theorem main_part1_eq (c : Dev nD) : main_part1 (F := F) c = seq (opsB1 ++ opsC1) := rfl

end Cert.RefRun

end
-- ==== Proof.RefRunOps2.lean ====
import proofs.«171789_j3822520893918_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The rest of the third stage: the second linear layer's batch statistics, normalisation and affine map, the residual sum and the final rectifier. -/
abbrev opsC2 : List (HloOp τ sig (Elt F)) :=
  [
    unary main_cst_21 main_v96 (broadcastInDim S128 ![] bcast_S_S128 : (⟨S_, .f32⟩ : BufTy).Contents (Elt F) → (⟨S128, .f32⟩ : BufTy).Contents (Elt F)),
    binary main_v95 main_v96 main_v97 (Host.divf : (⟨S128, .f32⟩ : BufTy).Contents (Elt F) → (⟨S128, .f32⟩ : BufTy).Contents (Elt F) → (⟨S128, .f32⟩ : BufTy).Contents (Elt F)),
    unary main_v97 main_v98 (broadcastInDim S1x128 ![1] bcast_S128_S1x128_1 : (⟨S128, .f32⟩ : BufTy).Contents (Elt F) → (⟨S1x128, .f32⟩ : BufTy).Contents (Elt F)),
    unary main_v98 main_v99 (broadcastInDim S16384x128 ![0, 1] bcast_S1x128_S16384x128_0_1 : (⟨S1x128, .f32⟩ : BufTy).Contents (Elt F) → (⟨S16384x128, .f32⟩ : BufTy).Contents (Elt F)),
    binary main_v94 main_v99 main_v100 (subf : (⟨S16384x128, .f32⟩ : BufTy).Contents (Elt F) → (⟨S16384x128, .f32⟩ : BufTy).Contents (Elt F) → (⟨S16384x128, .f32⟩ : BufTy).Contents (Elt F)),
    binary main_v100 main_v100 main_v101 (mulf : (⟨S16384x128, .f32⟩ : BufTy).Contents (Elt F) → (⟨S16384x128, .f32⟩ : BufTy).Contents (Elt F) → (⟨S16384x128, .f32⟩ : BufTy).Contents (Elt F)),
    nullary main_cst_22 (constant S_ .f32 0x00000000#32),
    binary main_v101 main_cst_22 main_v102 ((fun x v => Host.reduceAdd x v reducesTo_S16384x128_S128_d0 h_S_) : (⟨S16384x128, .f32⟩ : BufTy).Contents (Elt F) → (⟨S_, .f32⟩ : BufTy).Contents (Elt F) → (⟨S128, .f32⟩ : BufTy).Contents (Elt F)),
    nullary main_cst_23 (constant S_ .f32 0x46800000#32),
    unary main_cst_23 main_v103 (broadcastInDim S128 ![] bcast_S_S128 : (⟨S_, .f32⟩ : BufTy).Contents (Elt F) → (⟨S128, .f32⟩ : BufTy).Contents (Elt F)),
    binary main_v102 main_v103 main_v104 (Host.divf : (⟨S128, .f32⟩ : BufTy).Contents (Elt F) → (⟨S128, .f32⟩ : BufTy).Contents (Elt F) → (⟨S128, .f32⟩ : BufTy).Contents (Elt F)),
    unary main_v97 main_v105 (broadcastInDim S1x128 ![1] bcast_S128_S1x128_1 : (⟨S128, .f32⟩ : BufTy).Contents (Elt F) → (⟨S1x128, .f32⟩ : BufTy).Contents (Elt F)),
    unary main_v105 main_v106 (broadcastInDim S16384x128 ![0, 1] bcast_S1x128_S16384x128_0_1 : (⟨S1x128, .f32⟩ : BufTy).Contents (Elt F) → (⟨S16384x128, .f32⟩ : BufTy).Contents (Elt F)),
    binary main_v94 main_v106 main_v107 (subf : (⟨S16384x128, .f32⟩ : BufTy).Contents (Elt F) → (⟨S16384x128, .f32⟩ : BufTy).Contents (Elt F) → (⟨S16384x128, .f32⟩ : BufTy).Contents (Elt F)),
    nullary main_cst_24 (constant S_ .f32 0x3727C5AC#32),
    unary main_cst_24 main_v108 (broadcastInDim S128 ![] bcast_S_S128 : (⟨S_, .f32⟩ : BufTy).Contents (Elt F) → (⟨S128, .f32⟩ : BufTy).Contents (Elt F)),
    binary main_v104 main_v108 main_v109 (addf : (⟨S128, .f32⟩ : BufTy).Contents (Elt F) → (⟨S128, .f32⟩ : BufTy).Contents (Elt F) → (⟨S128, .f32⟩ : BufTy).Contents (Elt F)),
    unary main_v109 main_v110 (Host.rsqrt : (⟨S128, .f32⟩ : BufTy).Contents (Elt F) → (⟨S128, .f32⟩ : BufTy).Contents (Elt F)),
    unary main_v110 main_v111 (broadcastInDim S1x128 ![1] bcast_S128_S1x128_1 : (⟨S128, .f32⟩ : BufTy).Contents (Elt F) → (⟨S1x128, .f32⟩ : BufTy).Contents (Elt F)),
    unary main_v111 main_v112 (broadcastInDim S16384x128 ![0, 1] bcast_S1x128_S16384x128_0_1 : (⟨S1x128, .f32⟩ : BufTy).Contents (Elt F) → (⟨S16384x128, .f32⟩ : BufTy).Contents (Elt F)),
    binary main_v107 main_v112 main_v113 (mulf : (⟨S16384x128, .f32⟩ : BufTy).Contents (Elt F) → (⟨S16384x128, .f32⟩ : BufTy).Contents (Elt F) → (⟨S16384x128, .f32⟩ : BufTy).Contents (Elt F)),
    unary main_arg11 main_v114 (broadcastInDim S1x128 ![1] bcast_S128_S1x128_1 : (⟨S128, .f32⟩ : BufTy).Contents (Elt F) → (⟨S1x128, .f32⟩ : BufTy).Contents (Elt F)),
    unary main_v114 main_v115 (broadcastInDim S16384x128 ![0, 1] bcast_S1x128_S16384x128_0_1 : (⟨S1x128, .f32⟩ : BufTy).Contents (Elt F) → (⟨S16384x128, .f32⟩ : BufTy).Contents (Elt F)),
    binary main_v113 main_v115 main_v116 (mulf : (⟨S16384x128, .f32⟩ : BufTy).Contents (Elt F) → (⟨S16384x128, .f32⟩ : BufTy).Contents (Elt F) → (⟨S16384x128, .f32⟩ : BufTy).Contents (Elt F)),
    unary main_arg12 main_v117 (broadcastInDim S1x128 ![1] bcast_S128_S1x128_1 : (⟨S128, .f32⟩ : BufTy).Contents (Elt F) → (⟨S1x128, .f32⟩ : BufTy).Contents (Elt F)),
    unary main_v117 main_v118 (broadcastInDim S16384x128 ![0, 1] bcast_S1x128_S16384x128_0_1 : (⟨S1x128, .f32⟩ : BufTy).Contents (Elt F) → (⟨S16384x128, .f32⟩ : BufTy).Contents (Elt F)),
    binary main_v116 main_v118 main_v119 (addf : (⟨S16384x128, .f32⟩ : BufTy).Contents (Elt F) → (⟨S16384x128, .f32⟩ : BufTy).Contents (Elt F) → (⟨S16384x128, .f32⟩ : BufTy).Contents (Elt F)),
    binary main_arg1 main_v119 main_v120 (addf : (⟨S16384x128, .f32⟩ : BufTy).Contents (Elt F) → (⟨S16384x128, .f32⟩ : BufTy).Contents (Elt F) → (⟨S16384x128, .f32⟩ : BufTy).Contents (Elt F)),
    TRef.nullary main_call3.cst (constant S_ .f32 0x00000000#32),
    TRef.unary main_call3.cst main_call3.v0 (broadcastInDim S16384x128 ![] bcast_S_S16384x128),
    TRef.binary (.of main_v120) main_call3.v0 main_call3.v1 maximumf ]

set_option maxRecDepth 8192 in
/-- Every operation of the list touches buffers of the tensor core only. -/
theorem opsC2_sub : (opsC2 : List (HloOp τ sig (Elt F))).Forall fun op => op.bufs ⊆ tcRefs τ sig :=
  ⟨unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub ..⟩

/-- The buffers the list's operations write, in order. -/
abbrev opsC2_W : List (Ref sig .tc) := [main_v96, main_v97, main_v98, main_v99, main_v100, main_v101, main_cst_22, main_v102, main_cst_23, main_v103, main_v104, main_v105, main_v106, main_v107, main_cst_24, main_v108, main_v109, main_v110, main_v111, main_v112, main_v113, main_v114, main_v115, main_v116, main_v117, main_v118, main_v119, main_v120, main_call3_cst, main_call3_v0, main_v121]

set_option maxRecDepth 8192 in
/-- Each operation writes exactly its result buffer, which the list above names. -/
theorem opsC2_writes : (opsC2 : List (HloOp τ sig (Elt F))).Forall fun op =>
    op.writes ⊆ (opsC2_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer that none of the list's operations writes keeps its contents through the list. -/
theorem opsC2_keep (V : Valuation τ sig (Elt F)) (r : Ref sig .tc) (h : r ∉ opsC2_W) :
    after opsC2 V (Proc.devRef .tc r) = V (Proc.devRef .tc r) :=
  after_of_writes_sub opsC2 V opsC2_writes h

set_option maxRecDepth 8192 in
/-- Every operation of the list determines its result. -/
theorem opsC2_fresh : ∀ op ∈ (opsC2 : List (HloOp τ sig (Elt F))), op.fresh = ∅ := by
  intro _ h; (repeat (cases h with | head => rfl | tail _ h => ?_)); exact nomatch h

set_option maxRecDepth 8192 in
set_option maxHeartbeats 4000000 in
/-- This window of the program is the straight line of the operations listed above. -/
theorem main_part2_eq (c : Dev nD) : main_part2 (F := F) c = seq opsC2 := rfl

end Cert.RefRun

end
-- ==== Proof.RefRunFold.lean ====
import proofs.«171789_j3822520893918_1_alg».proof.Proof.RefRunOps0
import proofs.«171789_j3822520893918_1_alg».proof.Proof.RefRunOps1
import proofs.«171789_j3822520893918_1_alg».proof.Proof.RefRunOps2
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The whole program's operations: the three windows in order, each the lists of its stages' parts. -/
abbrev ops : List (HloOp τ sig (Elt F)) := (opsA ++ opsB0) ++ ((opsB1 ++ opsC1) ++ opsC2)

/-- The program is the straight line of its operations: each window is the line of its own list, and lines
    run one after the other are the concatenated list's line. -/
theorem main_eq (c : Dev nD) : main (F := F) c = seq ops := by
  show main (F := F) c = seq ((opsA ++ opsB0) ++ ((opsB1 ++ opsC1) ++ opsC2))
  rw [seq_append (opsA ++ opsB0) ((opsB1 ++ opsC1) ++ opsC2), seq_append (opsB1 ++ opsC1) opsC2,
    ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the program touches buffers of the tensor core only. -/
theorem ops_sub : (ops : List (HloOp τ sig (Elt F))).Forall fun op => op.bufs ⊆ tcRefs τ sig :=
  List.forall_iff_forall_mem.mpr fun op h => by
    simp only [ops, List.mem_append] at h
    rcases h with (h | h) | ((h | h) | h)
    exacts [List.forall_iff_forall_mem.mp opsA_sub op h, List.forall_iff_forall_mem.mp opsB0_sub op h,
      List.forall_iff_forall_mem.mp opsB1_sub op h, List.forall_iff_forall_mem.mp opsC1_sub op h,
      List.forall_iff_forall_mem.mp opsC2_sub op h]

/-- Every operation of the program determines its result. -/
theorem ops_fresh : ∀ op ∈ (ops : List (HloOp τ sig (Elt F))), op.fresh = ∅ := fun op h => by
  simp only [ops, List.mem_append] at h
  rcases h with (h | h) | ((h | h) | h)
  exacts [opsA_fresh op h, opsB0_fresh op h, opsB1_fresh op h, opsC1_fresh op h, opsC2_fresh op h]

/-- The buffers after the whole program are those after its five lists, one after the other. -/
theorem after_ops (V : Valuation τ sig (Elt F)) :
    after ops V = after opsC2 (after opsC1 (after opsB1 (after opsB0 (after opsA V)))) := by
  simp only [ops, after_append]

/-- A buffer none of the five lists writes keeps its contents through the whole program. -/
theorem keep_all (V : Valuation τ sig (Elt F)) (r : Ref sig .tc) (hA : r ∉ opsA_W) (hB0 : r ∉ opsB0_W)
    (hB1 : r ∉ opsB1_W) (hC1 : r ∉ opsC1_W) (hC2 : r ∉ opsC2_W) :
    after opsC2 (after opsC1 (after opsB1 (after opsB0 (after opsA V)))) (Proc.devRef .tc r) = V (Proc.devRef .tc r) := by
  rw [opsC2_keep _ r hC2, opsC1_keep _ r hC1, opsB1_keep _ r hB1, opsB0_keep _ r hB0, opsA_keep _ r hA]

/-- On every device, for any float values, from any memory with zero counters: every weakly fair execution of
    the program terminates, and each buffer of the tensor core ends at the five lists' fold over its launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsC2 (after opsC1 (after opsB1 (after opsB0 (after opsA (launchContents m c))))) (Proc.devRef .tc b) :=
  (θ_run defs _ _).mono (fun _ h c b => (h c b).trans (congrFun (after_ops (launchContents m c)) _))
    (run_seq scopedRefs_eq scopedSems_eq defs main (fun _ => ops) main_eq (fun _ => ops_sub) m ρ (fun _ => ops_fresh))

end Cert.RefRun

end
-- ==== Proof.RefRunValA.lean ====
import proofs.«171789_j3822520893918_1_alg».proof.Proof.RefRunOps0
import proofs.«171789_j3822520893918_1_alg».proof.Proof.RefA
import proofs.«171789_j3822520893918_1_alg».proof.Proof.RefB

noncomputable section

namespace Cert.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
/-- After the first stage's operations, from any contents, the stage's last buffer holds the stage function of
    the four arrays it reads: the fold computes each operation's result at its own buffer and passes the others
    through, which leaves the operations composed in program order. -/
theorem valA (V : Valuation τ sig (Elt Ideal)) :
    after opsA V (Proc.devRef .tc main_v27)
      = Cert.RefA.ref (V (Proc.devRef .tc main_arg1)) (V (Proc.devRef .tc main_arg4)) (V (Proc.devRef .tc main_arg7)) (V (Proc.devRef .tc main_arg8)) := by
  after_results_simp
  rfl

set_option maxRecDepth 8192 in
set_option maxHeartbeats 4000000 in
/-- The first list also writes the table of kernel points, which no later operation of it overwrites. -/
theorem valA_kp (V : Valuation τ sig (Elt Ideal)) :
    after opsA V (Proc.devRef .tc main_cst) = Cert.RefB.kp := by
  after_results_simp
  rfl

end Cert.RefRun

end
-- ==== Proof.RefRunValB.lean ====
import proofs.«171789_j3822520893918_1_alg».proof.Proof.RefRunOps0
import proofs.«171789_j3822520893918_1_alg».proof.Proof.RefRunOps1
import proofs.«171789_j3822520893918_1_alg».proof.Proof.RefB

noncomputable section

namespace Cert.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 8000000 in
/-- After the second stage's operations, from any contents whose table buffer holds the kernel points, the
    stage's last buffer holds the stage function of the point array, the first stage's result, the neighbour
    indices and the kernel weights. -/
theorem valB (V : Valuation τ sig (Elt Ideal)) (hk : V (Proc.devRef .tc main_cst) = Cert.RefB.kp) :
    after opsB1 (after opsB0 V) (Proc.devRef .tc main_v66)
      = Cert.RefB.ref (V (Proc.devRef .tc main_arg0)) (V (Proc.devRef .tc main_v27)) (V (Proc.devRef .tc main_arg3)) (V (Proc.devRef .tc main_arg6)) := by
  after_results_simp
  rw [hk]
  rfl

end Cert.RefRun

end
-- ==== Proof.RefRunValC.lean ====
import proofs.«171789_j3822520893918_1_alg».proof.Proof.RefRunOps1
import proofs.«171789_j3822520893918_1_alg».proof.Proof.RefRunOps2
import proofs.«171789_j3822520893918_1_alg».proof.Proof.RefC

noncomputable section

namespace Cert.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 8000000 in
/-- After the third stage's operations, from any contents, the result buffer holds the stage function of the
    second stage's result, the input features, the second weight and the two normalisations' scales and shifts. -/
theorem valC (V : Valuation τ sig (Elt Ideal)) :
    after opsC2 (after opsC1 V) (Proc.devRef .tc main_v121)
      = Cert.RefC.ref (V (Proc.devRef .tc main_v66)) (V (Proc.devRef .tc main_arg1)) (V (Proc.devRef .tc main_arg5)) (V (Proc.devRef .tc main_arg9))
          (V (Proc.devRef .tc main_arg10)) (V (Proc.devRef .tc main_arg11)) (V (Proc.devRef .tc main_arg12)) := by
  after_results_simp
  rfl

end Cert.RefRun

end
-- ==== Proof.RefRun.lean ====
import proofs.«171789_j3822520893918_1_alg».proof.Proof.RefRunFold
import proofs.«171789_j3822520893918_1_alg».proof.Proof.RefRunValA
import proofs.«171789_j3822520893918_1_alg».proof.Proof.RefRunValB
import proofs.«171789_j3822520893918_1_alg».proof.Proof.RefRunValC

noncomputable section

namespace Cert.RefRun

open Cert.ReferenceIdeal Cert.ReferenceIdeal.Gen Idealize.ShloMosaic Idealize.ShloMosaic.TcCoe Idealize.SL.Sem Idealize.ShloMosaic.StableHlo

/-- A buffer the first three lists do not write keeps its contents through them. -/
theorem keep_AB (V : Valuation τ sig (Elt Ideal)) (r : Ref sig .tc) (hA : r ∉ opsA_W) (hB0 : r ∉ opsB0_W)
    (hB1 : r ∉ opsB1_W) :
    after opsB1 (after opsB0 (after opsA V)) (Proc.devRef .tc r) = V (Proc.devRef .tc r) := by
  rw [opsB1_keep _ r hB1, opsB0_keep _ r hB0, opsA_keep _ r hA]

/-- The whole fold at the result buffer is the three stage functions composed: the third stage's lists end at
    its function of the buffers before them, of which the second stage's result is the second function of the
    buffers before its lists, and the first stage's result the first function of the launch contents; every
    argument array read on the way is untouched by the lists before the read. -/
theorem value (V : Valuation τ sig (Elt Ideal)) :
    after opsC2 (after opsC1 (after opsB1 (after opsB0 (after opsA V)))) (Proc.devRef .tc main_v121)
      = Cert.RefC.ref (Cert.RefB.ref (V (Proc.devRef .tc main_arg0)) (Cert.RefA.ref (V (Proc.devRef .tc main_arg1)) (V (Proc.devRef .tc main_arg4)) (V (Proc.devRef .tc main_arg7)) (V (Proc.devRef .tc main_arg8))) (V (Proc.devRef .tc main_arg3)) (V (Proc.devRef .tc main_arg6)))
          (V (Proc.devRef .tc main_arg1)) (V (Proc.devRef .tc main_arg5)) (V (Proc.devRef .tc main_arg9)) (V (Proc.devRef .tc main_arg10)) (V (Proc.devRef .tc main_arg11)) (V (Proc.devRef .tc main_arg12)) := by
  rw [valC, valB _ (valA_kp V), valA,
    opsA_keep V main_arg0 (by decide), opsA_keep V main_arg3 (by decide), opsA_keep V main_arg6 (by decide),
    keep_AB V main_arg1 (by decide) (by decide) (by decide), keep_AB V main_arg5 (by decide) (by decide) (by decide),
    keep_AB V main_arg9 (by decide) (by decide) (by decide), keep_AB V main_arg10 (by decide) (by decide) (by decide),
    keep_AB V main_arg11 (by decide) (by decide) (by decide), keep_AB V main_arg12 (by decide) (by decide) (by decide)]

/-- At the ideal instance, from any memory with zero counters: every weakly fair execution of the reference
    program terminates without fault, its result buffer holding the three stage functions composed over the
    launch contents of the argument arrays, and the thirteen argument arrays unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v121)
        = Cert.RefC.ref (Cert.RefB.ref (m ((c.tc : Thread Cert.ReferenceIdeal.nD Cert.ReferenceIdeal.τ).loc Cert.ReferenceIdeal.main_arg0)) (Cert.RefA.ref (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg6)))
            (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)) :=
  (θ_run Cert.ReferenceIdeal.defs _ _).mono (fun _ h c => ⟨(h c main_v121).trans (value (launchContents m c)),
      (h c main_arg0).trans (keep_all _ main_arg0 (by decide) (by decide) (by decide) (by decide) (by decide)),
      (h c main_arg1).trans (keep_all _ main_arg1 (by decide) (by decide) (by decide) (by decide) (by decide)),
      (h c main_arg2).trans (keep_all _ main_arg2 (by decide) (by decide) (by decide) (by decide) (by decide)),
      (h c main_arg3).trans (keep_all _ main_arg3 (by decide) (by decide) (by decide) (by decide) (by decide)),
      (h c main_arg4).trans (keep_all _ main_arg4 (by decide) (by decide) (by decide) (by decide) (by decide)),
      (h c main_arg5).trans (keep_all _ main_arg5 (by decide) (by decide) (by decide) (by decide) (by decide)),
      (h c main_arg6).trans (keep_all _ main_arg6 (by decide) (by decide) (by decide) (by decide) (by decide)),
      (h c main_arg7).trans (keep_all _ main_arg7 (by decide) (by decide) (by decide) (by decide) (by decide)),
      (h c main_arg8).trans (keep_all _ main_arg8 (by decide) (by decide) (by decide) (by decide) (by decide)),
      (h c main_arg9).trans (keep_all _ main_arg9 (by decide) (by decide) (by decide) (by decide) (by decide)),
      (h c main_arg10).trans (keep_all _ main_arg10 (by decide) (by decide) (by decide) (by decide) (by decide)),
      (h c main_arg11).trans (keep_all _ main_arg11 (by decide) (by decide) (by decide) (by decide) (by decide)),
      (h c main_arg12).trans (keep_all _ main_arg12 (by decide) (by decide) (by decide) (by decide) (by decide))⟩)
    (run_fold (F := Ideal) m ρ)

end Cert.RefRun

end
-- ==== Proof.lean ====
/-
  The proof of `Cert.Claim`.

  The three frames: the two kernel programs' by their generated frame certificates, the reference's by its run with the
  value dropped.  The idealization rewrote nothing, so `preserves` is `True`.  The algebraic claim: the idealized kernel's
  run leaves its result array at the common result (`Cert.Bridge.kernel_result`), the idealized reference's run leaves its
  stages' composition, which on finite inputs agreeing with the kernel's is the same array
  (`Cert.Bridge.reference_result`); the other two results are argument arrays, unchanged on both sides.
-/
import proofs.«171789_j3822520893918_1_alg».proof.Defs
import proofs.«171789_j3822520893918_1_alg».proof.Proof.Gen.Kernel
import proofs.«171789_j3822520893918_1_alg».proof.Proof.Gen.Kernel.Frame
import proofs.«171789_j3822520893918_1_alg».proof.Proof.Gen.KernelIdeal
import proofs.«171789_j3822520893918_1_alg».proof.Proof.Gen.KernelIdeal.Frame
import proofs.«171789_j3822520893918_1_alg».proof.Proof.Gen.ReferenceIdeal
import proofs.«171789_j3822520893918_1_alg».proof.Proof.Gen.Pre_finite_inputs
import proofs.«171789_j3822520893918_1_alg».proof.Proof.KernRun
import proofs.«171789_j3822520893918_1_alg».proof.Proof.Bridge
import proofs.«171789_j3822520893918_1_alg».proof.Proof.RefRun

set_option maxRecDepth 16384

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefRun.run m ρ)

theorem preserves : Cert.preserves_Kernel_KernelIdeal := trivial

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => m ((c.tc : Thread Cert.KernelIdeal.nD Cert.KernelIdeal.τ).loc Cert.KernelIdeal.main_arg0), fun c => Cert.Bridge.result m c,
    fun c => m ((c.tc : Thread Cert.KernelIdeal.nD Cert.KernelIdeal.τ).loc Cert.KernelIdeal.main_arg2), ?_, ?_⟩
  · refine (θ_run Cert.KernelIdeal.defs _ _).mono (fun r h c => ?_) (Cert.KernelIdeal.GenV.run_value m ρ)
    obtain ⟨hv, hfr⟩ := h c
    exact ⟨hfr.1, hv.trans (Cert.Bridge.kernel_result m c ρ), hfr.2.2.1, hfr⟩
  · refine (θ_run Cert.ReferenceIdeal.defs _ _).mono (fun r h c => ?_) (Cert.RefRun.run m' ρ')
    obtain ⟨hv, hfr⟩ := h c
    obtain ⟨a0, a1, a2, a3, a4, a5, a6, a7, a8, a9, a10, a11, a12⟩ := hagree c
    refine ⟨hfr.1.trans a0, ?_, hfr.2.2.1.trans a2, hfr⟩
    rw [hv, a0, a1, a3, a4, a5, a6, a7, a8, a9, a10, a11, a12]
    exact Cert.Bridge.reference_result m c hpre

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
